-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x800 : Shape := ⟨2, ![256, 800]⟩
abbrev S256x200 : Shape := ⟨2, ![256, 200]⟩
abbrev S1000x300 : Shape := ⟨2, ![1000, 300]⟩
abbrev S2x32000 : Shape := ⟨2, ![2, 32000]⟩
abbrev S128x300 : Shape := ⟨2, ![128, 300]⟩
abbrev S128 : Shape := ⟨1, ![128]⟩
abbrev S128x128 : Shape := ⟨2, ![128, 128]⟩
abbrev S_ : Shape := ⟨0, ![]⟩

class Facts : Prop where
  bcast_S_S256x800 : S_.BroadcastsInDim S256x800 (![] : Fin 0 → Fin S256x800.rank)
  reducesTo_S256x800_S_d0_1 : S256x800.ReducesTo [0, 1] S_
  h_S_ : 0 < S_.numel
  bcast_S_S256x200 : S_.BroadcastsInDim S256x200 (![] : Fin 0 → Fin S256x200.rank)
  reducesTo_S256x200_S_d0_1 : S256x200.ReducesTo [0, 1] S_
  bcast_S_S1000x300 : S_.BroadcastsInDim S1000x300 (![] : Fin 0 → Fin S1000x300.rank)
  reducesTo_S1000x300_S_d0_1 : S1000x300.ReducesTo [0, 1] S_
  bcast_S_S128x300 : S_.BroadcastsInDim S128x300 (![] : Fin 0 → Fin S128x300.rank)
  reducesTo_S128x300_S_d0_1 : S128x300.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x32000 : S_.BroadcastsInDim S2x32000 (![] : Fin 0 → Fin S2x32000.rank)
  reducesTo_S2x32000_S_d0_1 : S2x32000.ReducesTo [0, 1] S_

variable [Facts]

def fn_part3 {F : FTy → Type} [FloatOps F] (main_arg3 : IVec S2x32000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x32000 32 := broadcastInDim S2x32000 ![] bcast_S_S2x32000 main_c_20
  let main_v55 : IVec S2x32000 1 := cmpi .sge main_arg3 main_v54
  let main_c_21 : IVec S_ 32 := constantI S_ 32 1000#32
  let main_v56 : IVec S2x32000 32 := broadcastInDim S2x32000 ![] bcast_S_S2x32000 main_c_21
  let main_v57 : IVec S2x32000 1 := cmpi .slt main_arg3 main_v56
  let main_v58 : IVec S2x32000 1 := andi main_v55 main_v57
  let main_c_22 : IVec S_ 1 := constantI S_ 1 1#1
  let main_v59 : IVec S_ 1 := (fun x v => Host.reduce IntOp.andi x v reducesTo_S2x32000_S_d0_1 h_S_) main_v58 main_c_22
  let main_v60 : IVec S_ 1 := andi main_v53 main_v59
  main_v60

def fn_part2 {F : FTy → Type} [FloatOps F] (main_arg3 : IVec S2x32000 32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_v48 main_v49 main_v50

def fn_part1 {F : FTy → Type} [FloatOps F] (main_arg3 : IVec S2x32000 32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x300 1) : IVec S_ 1 :=
  let main_c_5 : IVec S_ 1 := constantI S_ 1 1#1
  let main_v17 : IVec S_ 1 := (fun x v => Host.reduce IntOp.andi x v reducesTo_S128x300_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_v33

def fn {F : FTy → Type} [FloatOps F] (main_arg0 : FVec F S256x800 .f32) (main_arg1 : FVec F S256x200 .f32) (main_arg2 : FVec F S1000x300 .f32) (main_arg3 : IVec S2x32000 32) (main_arg4 : FVec F S128x300 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S256x800 .f32 := Host.absf main_arg0
  let main_cst : FVec F S_ .f32 := constant S_ .f32 0x7F800000#32
  let main_v1 : FVec F S256x800 .f32 := broadcastInDim S256x800 ![] bcast_S_S256x800 main_cst
  let main_v2 : IVec S256x800 1 := cmpf .olt main_v0 main_v1
  let main_c : IVec S_ 1 := constantI S_ 1 1#1
  let main_v3 : IVec S_ 1 := (fun x v => Host.reduce IntOp.andi x v reducesTo_S256x800_S_d0_1 h_S_) main_v2 main_c
  let main_v4 : FVec F S256x200 .f32 := Host.absf main_arg1
  let main_cst_0 : FVec F S_ .f32 := constant S_ .f32 0x7F800000#32
  let main_v5 : FVec F S256x200 .f32 := broadcastInDim S256x200 ![] bcast_S_S256x200 main_cst_0
  let main_v6 : IVec S256x200 1 := cmpf .olt main_v4 main_v5
  let main_c_1 : IVec S_ 1 := constantI S_ 1 1#1
  let main_v7 : IVec S_ 1 := (fun x v => Host.reduce IntOp.andi x v reducesTo_S256x200_S_d0_1 h_S_) main_v6 main_c_1
  let main_v8 : IVec S_ 1 := andi main_v3 main_v7
  let main_v9 : FVec F S1000x300 .f32 := Host.absf main_arg2
  let main_cst_2 : FVec F S_ .f32 := constant S_ .f32 0x7F800000#32
  let main_v10 : FVec F S1000x300 .f32 := broadcastInDim S1000x300 ![] bcast_S_S1000x300 main_cst_2
  let main_v11 : IVec S1000x300 1 := cmpf .olt main_v9 main_v10
  let main_c_3 : IVec S_ 1 := constantI S_ 1 1#1
  let main_v12 : IVec S_ 1 := (fun x v => Host.reduce IntOp.andi x v reducesTo_S1000x300_S_d0_1 h_S_) main_v11 main_c_3
  let main_v13 : IVec S_ 1 := andi main_v8 main_v12
  let main_v14 : FVec F S128x300 .f32 := Host.absf main_arg4
  let main_cst_4 : FVec F S_ .f32 := constant S_ .f32 0x7F800000#32
  let main_v15 : FVec F S128x300 .f32 := broadcastInDim S128x300 ![] bcast_S_S128x300 main_cst_4
  let main_v16 : IVec S128x300 1 := cmpf .olt main_v14 main_v15
  fn_part1 (F := F) main_arg3 main_arg5 main_arg6 main_arg7 main_arg8 main_arg9 main_arg10 main_arg11 main_v13 main_v16
-- ==== Kernel.lean ====
abbrev S256x800 : Shape := ⟨2, ![256, 800]⟩
abbrev S256x200 : Shape := ⟨2, ![256, 200]⟩
abbrev S1000x300 : Shape := ⟨2, ![1000, 300]⟩
abbrev S2x32000 : Shape := ⟨2, ![2, 32000]⟩
abbrev S128x300 : Shape := ⟨2, ![128, 300]⟩
abbrev S128 : Shape := ⟨1, ![128]⟩
abbrev S128x128 : Shape := ⟨2, ![128, 128]⟩
abbrev S256x1000 : Shape := ⟨2, ![256, 1000]⟩
abbrev S300x128 : Shape := ⟨2, ![300, 128]⟩
abbrev S1000x128 : Shape := ⟨2, ![1000, 128]⟩
abbrev S1x128 : Shape := ⟨2, ![1, 128]⟩
abbrev S1x1000 : Shape := ⟨2, ![1, 1000]⟩
abbrev S1000 : Shape := ⟨1, ![1000]⟩
abbrev S1x32000 : Shape := ⟨2, ![1, 32000]⟩
abbrev S32000 : Shape := ⟨1, ![32000]⟩
abbrev S_ : Shape := ⟨0, ![]⟩
abbrev S32000x1 : Shape := ⟨2, ![32000, 1]⟩
abbrev S1000x1000 : Shape := ⟨2, ![1000, 1000]⟩
abbrev S32000x2 : Shape := ⟨2, ![32000, 2]⟩
abbrev S1000x1 : Shape := ⟨2, ![1000, 1]⟩
abbrev S255x1000 : Shape := ⟨2, ![255, 1000]⟩
abbrev S256x128 : Shape := ⟨2, ![256, 128]⟩
abbrev S16x1000 : Shape := ⟨2, ![16, 1000]⟩
abbrev S16x128 : Shape := ⟨2, ![16, 128]⟩
abbrev S1x1x128 : Shape := ⟨3, ![1, 1, 128]⟩
abbrev S16x1000x1 : Shape := ⟨3, ![16, 1000, 1]⟩
abbrev S1x1000x128 : Shape := ⟨3, ![1, 1000, 128]⟩
abbrev S16x1000x128 : Shape := ⟨3, ![16, 1000, 128]⟩
abbrev S16000x128 : Shape := ⟨2, ![16000, 128]⟩
abbrev S255x128 : Shape := ⟨2, ![255, 128]⟩

abbrev nBuf : Space → Nat
  | .hbm => 144
  | .vmem => 10
  | .smem => 0
  | _ => 0

abbrev hbmTy0_0 (i : Nat) : BufTy := match i % 128 with
  | 0 => ⟨S256x800, .f32⟩
  | 1 => ⟨S256x200, .f32⟩
  | 2 => ⟨S1000x300, .f32⟩
  | 3 => ⟨S2x32000, .i32⟩
  | 4 => ⟨S128x300, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x1000, .f32⟩
  | 13 => ⟨S300x128, .f32⟩
  | 14 => ⟨S1000x128, .f32⟩
  | 15 => ⟨S1x128, .f32⟩
  | 16 => ⟨S1000x128, .f32⟩
  | 17 => ⟨S1000x128, .f32⟩
  | 18 => ⟨S128x128, .f32⟩
  | 19 => ⟨S1000x128, .f32⟩
  | 20 => ⟨S1x1000, .f32⟩
  | 21 => ⟨S1000, .f32⟩
  | 22 => ⟨S1x32000, .i32⟩
  | 23 => ⟨S32000, .i32⟩
  | 24 => ⟨S1x32000, .i32⟩
  | 25 => ⟨S32000, .i32⟩
  | 26 => ⟨S_, .f32⟩
  | 27 => ⟨S1000, .f32⟩
  | 28 => ⟨S_, .i32⟩
  | 29 => ⟨S32000, .i32⟩
  | 30 => ⟨S32000, .i1⟩
  | 31 => ⟨S_, .i32⟩
  | 32 => ⟨S32000, .i32⟩
  | 33 => ⟨S32000, .i32⟩
  | 34 => ⟨S32000, .i32⟩
  | 35 => ⟨S32000x1, .i32⟩
  | 36 => ⟨S_, .f32⟩
  | 37 => ⟨S32000, .f32⟩
  | 38 => ⟨S1000, .f32⟩
  | 39 => ⟨S_, .f32⟩
  | 40 => ⟨S1000, .f32⟩
  | 41 => ⟨S1000, .f32⟩
  | 42 => ⟨S_, .i32⟩
  | 43 => ⟨S32000, .i32⟩
  | 44 => ⟨S32000, .i1⟩
  | 45 => ⟨S_, .i32⟩
  | 46 => ⟨S32000, .i32⟩
  | 47 => ⟨S32000, .i32⟩
  | 48 => ⟨S32000, .i32⟩
  | 49 => ⟨S32000x1, .i32⟩
  | 50 => ⟨S32000, .f32⟩
  | 51 => ⟨S_, .i32⟩
  | 52 => ⟨S32000, .i32⟩
  | 53 => ⟨S32000, .i1⟩
  | 54 => ⟨S_, .i32⟩
  | 55 => ⟨S32000, .i32⟩
  | 56 => ⟨S32000, .i32⟩
  | 57 => ⟨S32000, .i32⟩
  | 58 => ⟨S32000x1, .i32⟩
  | 59 => ⟨S32000, .f32⟩
  | 60 => ⟨S32000, .f32⟩
  | 61 => ⟨S_, .f32⟩
  | 62 => ⟨S1000x1000, .f32⟩
  | 63 => ⟨S_, .i32⟩
  | 64 => ⟨S32000, .i32⟩
  | 65 => ⟨S32000, .i1⟩
  | 66 => ⟨S_, .i32⟩
  | 67 => ⟨S32000, .i32⟩
  | 68 => ⟨S32000, .i32⟩
  | 69 => ⟨S32000, .i32⟩
  | 70 => ⟨S_, .i32⟩
  | 71 => ⟨S32000, .i32⟩
  | 72 => ⟨S32000, .i1⟩
  | 73 => ⟨S_, .i32⟩
  | 74 => ⟨S32000, .i32⟩
  | 75 => ⟨S32000, .i32⟩
  | 76 => ⟨S32000, .i32⟩
  | 77 => ⟨S32000x1, .i32⟩
  | 78 => ⟨S32000x1, .i32⟩
  | 79 => ⟨S32000x2, .i32⟩
  | 80 => ⟨S1000x1000, .f32⟩
  | 81 => ⟨S1000, .f32⟩
  | 82 => ⟨S_, .f32⟩
  | 83 => ⟨S1000, .f32⟩
  | 84 => ⟨S1000x1000, .i32⟩
  | 85 => ⟨S1000x1000, .i32⟩
  | 86 => ⟨S_, .i32⟩
  | 87 => ⟨S1000x1000, .i32⟩
  | 88 => ⟨S1000x1000, .i32⟩
  | 89 => ⟨S1000x1000, .i1⟩
  | 90 => ⟨S1000x1, .f32⟩
  | 91 => ⟨S_, .f32⟩
  | 92 => ⟨S1000x1000, .f32⟩
  | 93 => ⟨S1000x1000, .f32⟩
  | 94 => ⟨S1000x1000, .f32⟩
  | 95 => ⟨S1000x1000, .f32⟩
  | 96 => ⟨S1000x1, .f32⟩
  | 97 => ⟨S1000x128, .f32⟩
  | 98 => ⟨S1000x128, .f32⟩
  | 99 => ⟨S128x128, .f32⟩
  | 100 => ⟨S1000x128, .f32⟩
  | 101 => ⟨S1000x128, .f32⟩
  | 102 => ⟨S1x128, .f32⟩
  | 103 => ⟨S1000x128, .f32⟩
  | 104 => ⟨S1000x128, .f32⟩
  | 105 => ⟨S_, .f32⟩
  | 106 => ⟨S1000x128, .f32⟩
  | 107 => ⟨S1000x128, .f32⟩
  | 108 => ⟨S128x128, .f32⟩
  | 109 => ⟨S1000x128, .f32⟩
  | 110 => ⟨S1000x128, .f32⟩
  | 111 => ⟨S1x128, .f32⟩
  | 112 => ⟨S1000x128, .f32⟩
  | 113 => ⟨S1000x128, .f32⟩
  | 114 => ⟨S_, .f32⟩
  | 115 => ⟨S1000x128, .f32⟩
  | 116 => ⟨S1000x128, .f32⟩
  | 117 => ⟨S128x128, .f32⟩
  | 118 => ⟨S1000x128, .f32⟩
  | 119 => ⟨S1000x128, .f32⟩
  | 120 => ⟨S1x128, .f32⟩
  | 121 => ⟨S1000x128, .f32⟩
  | 122 => ⟨S1000x128, .f32⟩
  | 123 => ⟨S_, .f32⟩
  | 124 => ⟨S1000x128, .f32⟩
  | 125 => ⟨S1000x128, .f32⟩
  | 126 => ⟨S_, .f32⟩
  | 127 => ⟨S128, .f32⟩
  | _ => ⟨S256x800, .f32⟩

abbrev hbmTy0_1 (i : Nat) : BufTy := match i % 128 with
  | 0 => ⟨S_, .f32⟩
  | 1 => ⟨S128, .f32⟩
  | 2 => ⟨S128, .f32⟩
  | 3 => ⟨S255x1000, .f32⟩
  | 4 => ⟨S_, .i32⟩
  | 5 => ⟨S_, .f32⟩
  | 6 => ⟨S256x1000, .f32⟩
  | 7 => ⟨S1x128, .f32⟩
  | 8 => ⟨S1x128, .f32⟩
  | 9 => ⟨S1x128, .f32⟩
  | 10 => ⟨S128x128, .f32⟩
  | 11 => ⟨S128x128, .f32⟩
  | 12 => ⟨S256x128, .f32⟩
  | 13 => ⟨S255x128, .f32⟩
  | 14 => ⟨S1x128, .f32⟩
  | 15 => ⟨S256x128, .f32⟩
  | _ => ⟨S256x800, .f32⟩

abbrev hbmTy (i : Nat) : BufTy := match i / 128 with
  | 0 => hbmTy0_0 i
  | 1 => hbmTy0_1 i
  | _ => ⟨S256x800, .f32⟩

abbrev bufTy : (tb : Table) → Fin (tcTables nBuf tb) → BufTy
  | .hbm, ⟨i, _⟩ => hbmTy i
  | .local _ .vmem, ⟨0, _⟩ => ⟨S16x1000, .f32⟩
  | .local _ .vmem, ⟨1, _⟩ => ⟨S16x1000, .f32⟩
  | .local _ .vmem, ⟨2, _⟩ => ⟨S1000x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S16x128, .f32⟩
  | .local _ .vmem, ⟨9, _⟩ => ⟨S16x128, .f32⟩
  | _, _ => ⟨S256x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_c : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_cst_0 : Ref sig .tc := ⟨.hbm, 91, rfl⟩
abbrev main_call0_call0_v0 : Ref sig .tc := ⟨.hbm, 92, rfl⟩
abbrev main_call0_call0_v1 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call1_cst : Ref sig .tc := ⟨.hbm, 105, rfl⟩
abbrev main_call1_v0 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call2_cst : Ref sig .tc := ⟨.hbm, 114, rfl⟩
abbrev main_call2_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call3_cst : Ref sig .tc := ⟨.hbm, 123, rfl⟩
abbrev main_call3_v0 : Ref sig .tc := ⟨.hbm, 124, rfl⟩
abbrev main_v81 : Ref sig .tc := ⟨.hbm, 125, rfl⟩
abbrev main_cst_12 : Ref sig .tc := ⟨.hbm, 126, rfl⟩
abbrev main_v82 : Ref sig .tc := ⟨.hbm, 127, rfl⟩
abbrev main_cst_13 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_14 : Ref sig .tc := ⟨.hbm, 132, rfl⟩
abbrev main_call4_v0 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x800_S256x200_S256x1000_d1 : Shape.Concatenates [S256x800, S256x200] S256x1000 1
  transposes_S128x300_S300x128_1_0 : S128x300.Transposes [1, 0] S300x128
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  transposes_S128x128_S128x128_1_0 : S128x128.Transposes [1, 0] S128x128
  slices_S256x1000_S1x1000_0_0 : S256x1000.Slices ![0, 0] S1x1000
  shapeCasts_S1x1000_S1000 : S1x1000.ShapeCasts S1000
  slices_S2x32000_S1x32000_0_0 : S2x32000.Slices ![0, 0] S1x32000
  shapeCasts_S1x32000_S32000 : S1x32000.ShapeCasts S32000
  slices_S2x32000_S1x32000_1_0 : S2x32000.Slices ![1, 0] S1x32000
  bcast_S_S1000 : S_.BroadcastsInDim S1000 (![] : Fin 0 → Fin S1000.rank)
  bcast_S_S32000 : S_.BroadcastsInDim S32000 (![] : Fin 0 → Fin S32000.rank)
  bcast_S32000_S32000x1_0 : S32000.BroadcastsInDim S32000x1 (![0] : Fin 1 → Fin S32000x1.rank)
  bcast_S_S1000x1000 : S_.BroadcastsInDim S1000x1000 (![] : Fin 0 → Fin S1000x1000.rank)
  concatenates_S32000x1_S32000x1_S32000x2_d1 : Shape.Concatenates [S32000x1, S32000x1] S32000x2 1
  pads_S1000_S1000_000 : S1000.Pads (![0] : Fin 1 → Nat) ![0] ![0] S1000
  h_S_ : 0 < S_.numel
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bcast_S1000x1_S1000x128_0_1 : S1000x1.BroadcastsInDim S1000x128 (![0, 1] : Fin 2 → Fin S1000x128.rank)
  bcast_S_S1000x128 : S_.BroadcastsInDim S1000x128 (![] : Fin 0 → Fin S1000x128.rank)
  reducesTo_S1000x128_S128_d0 : S1000x128.ReducesTo [0] S128
  bcast_S_S128 : S_.BroadcastsInDim S128 (![] : Fin 0 → Fin S128.rank)
  slices_S256x1000_S255x1000_1_0 : S256x1000.Slices ![1, 0] S255x1000
  pads_S255x1000_S256x1000_010_000 : S255x1000.Pads (![0, 0] : Fin 2 → Nat) ![1, 0] ![0, 0] S256x1000
  shapeCasts_S128_S1x128 : S128.ShapeCasts S1x128
  inb_S16x1000_S16x1000_0_0 : ∀ a, (![0, 0] : Fin 2 → Nat) a + S16x1000.size a ≤ S16x1000.size a
  h_S16x1000 : 0 < S16x1000.numel
  shapeCasts_S16x1000_S16x1000 : S16x1000.ShapeCasts S16x1000
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S16x1000_S16x1000x1 : S16x1000.ShapeCasts S16x1000x1
  shapeCasts_S1000x128_S1x1000x128 : S1000x128.ShapeCasts S1x1000x128
  broadcasts_S16x1000x1_S16x1000x128 : S16x1000x1.Broadcasts S16x1000x128
  broadcasts_S1x1000x128_S16x1000x128 : S1x1000x128.Broadcasts S16x1000x128
  broadcasts_S1x1x128_S16x1000x128 : S1x1x128.Broadcasts S16x1000x128
  shapeCasts_S16x1000x128_S16000x128 : S16x1000x128.ShapeCasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  broadcasts_S1x128_S16000x128 : S1x128.Broadcasts S16000x128
  shapeCasts_S16000x128_S16x1000x128 : S16000x128.ShapeCasts S16x1000x128
  reduces_S16x1000x128_S16x128 : S16x1000x128.Reduces [1] S16x128
  inb_S16x128_S16x128_0_0 : ∀ a, (![0, 0] : Fin 2 → Nat) a + S16x128.size a ≤ S16x128.size a
  h_S16x128 : 0 < S16x128.numel
  slices_S256x128_S255x128_0_0 : S256x128.Slices ![0, 0] S255x128
  concatenates_S1x128_S255x128_S256x128_d0 : Shape.Concatenates [S1x128, S255x128] S256x128 0
  dot_S1000x300_S300x128_S1000x128_1_0_0_1_n_n_wf : DotDims.WF S1000x300 S300x128 S1000x128 [1] [0] [0] [1] [] []
  dot_S1000x128_S128x128_S1000x128_1_0_0_1_n_n_wf : DotDims.WF S1000x128 S128x128 S1000x128 [1] [0] [0] [1] [] []
  scatter_S1000_S32000x1_S32000_n_0_0_1_wf : ScatterDims.WF S1000 S32000x1 S32000 [] [0] [0] 1
  gather_S1000_S32000x1_S32000_n_0_n_n_0_1_1_wf : GatherDims.WF S1000 S32000x1 S32000 [] [0] [] [0] [] 1 ![1]
  scatter_S1000x1000_S32000x2_S32000_n_01_01_1_wf : ScatterDims.WF S1000x1000 S32000x2 S32000 [] [0, 1] [0, 1] 1
  dot_S1000x1000_S1000x128_S1000x128_1_0_0_1_n_n_wf : DotDims.WF S1000x1000 S1000x128 S1000x128 [1] [0] [0] [1] [] []
  dot_S16000x128_S128x128_S16000x128_1_0_0_1_n_n_wf : DotDims.WF S16000x128 S128x128 S16000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1000.size a ≤ S256x1000.size a
  hwx0_0 : ∀ i : grid0.Coords, EltTy.bits .f32 = 32 ∨ (Rect.block (s := S256x1000) S16x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S256x128.size a
  hwx0_7 : ∀ i : grid0.Coords, EltTy.bits .f32 = 32 ∨ (Rect.block (s := S256x128) S16x128.size (cc0_transform_7 i) (hinb0_7 i)).WholeWords (EltTy.packing .f32)

variable [Facts₀]

def dot_S1000x300_S300x128_S1000x128_1_0_0_1_n_n : DotDims S1000x300 S300x128 S1000x128 where
  lhsContracting := [1]
  rhsContracting := [0]
  lhsNonContracting := [0]
  rhsNonContracting := [1]
  lhsBatch := []
  rhsBatch := []
  wf := dot_S1000x300_S300x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S1000_S32000x1_S32000_n_0_0_1 : ScatterDims S1000 S32000x1 S32000 where
  updateWindowDims := []
  insertedWindowDims := [0]
  scatterDimsToOperandDims := [0]
  indexVectorDim := 1
  wf := scatter_S1000_S32000x1_S32000_n_0_0_1_wf
def gather_S1000_S32000x1_S32000_n_0_n_n_0_1_1 : GatherDims S1000 S32000x1 S32000 where
  offsetDims := []
  collapsedSliceDims := [0]
  operandBatchingDims := []
  startIndicesBatchingDims := []
  startIndexMap := [0]
  indexVectorDim := 1
  sliceSizes := ![1]
  wf := gather_S1000_S32000x1_S32000_n_0_n_n_0_1_1_wf
def scatter_S1000x1000_S32000x2_S32000_n_01_01_1 : ScatterDims S1000x1000 S32000x2 S32000 where
  updateWindowDims := []
  insertedWindowDims := [0, 1]
  scatterDimsToOperandDims := [0, 1]
  indexVectorDim := 1
  wf := scatter_S1000x1000_S32000x2_S32000_n_01_01_1_wf
def dot_S1000x1000_S1000x128_S1000x128_1_0_0_1_n_n : DotDims S1000x1000 S1000x128 S1000x128 where
  lhsContracting := [1]
  rhsContracting := [0]
  lhsNonContracting := [0]
  rhsNonContracting := [1]
  lhsBatch := []
  rhsBatch := []
  wf := dot_S1000x1000_S1000x128_S1000x128_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf

abbrev win0_0 : Pipeline.Window sig grid0 :=
  Pipeline.Window.ofSpec (Memref.whole main_v86) S16x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v88) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v91) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v92) S16x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x800 : Shape := ⟨2, ![256, 800]⟩
abbrev S256x200 : Shape := ⟨2, ![256, 200]⟩
abbrev S1000x300 : Shape := ⟨2, ![1000, 300]⟩
abbrev S2x32000 : Shape := ⟨2, ![2, 32000]⟩
abbrev S128x300 : Shape := ⟨2, ![128, 300]⟩
abbrev S128 : Shape := ⟨1, ![128]⟩
abbrev S128x128 : Shape := ⟨2, ![128, 128]⟩
abbrev S256x1000 : Shape := ⟨2, ![256, 1000]⟩
abbrev S300x128 : Shape := ⟨2, ![300, 128]⟩
abbrev S1000x128 : Shape := ⟨2, ![1000, 128]⟩
abbrev S1x128 : Shape := ⟨2, ![1, 128]⟩
abbrev S256x1000x1 : Shape := ⟨3, ![256, 1000, 1]⟩
abbrev S1x1000x128 : Shape := ⟨3, ![1, 1000, 128]⟩
abbrev S256x1000x128 : Shape := ⟨3, ![256, 1000, 128]⟩
abbrev S256000x128 : Shape := ⟨2, ![256000, 128]⟩
abbrev S1x32000 : Shape := ⟨2, ![1, 32000]⟩
abbrev S32000 : Shape := ⟨1, ![32000]⟩
abbrev S_ : Shape := ⟨0, ![]⟩
abbrev S256000 : Shape := ⟨1, ![256000]⟩
abbrev S32000x1 : Shape := ⟨2, ![32000, 1]⟩
abbrev S32000x128 : Shape := ⟨2, ![32000, 128]⟩
abbrev S256000x1 : Shape := ⟨2, ![256000, 1]⟩
abbrev S256x128 : Shape := ⟨2, ![256, 128]⟩

abbrev nBuf : Space → Nat
  | .hbm => 247
  | .vmem => 0
  | .smem => 0
  | _ => 0

abbrev hbmTy0_0 (i : Nat) : BufTy := match i % 128 with
  | 0 => ⟨S256x800, .f32⟩
  | 1 => ⟨S256x200, .f32⟩
  | 2 => ⟨S1000x300, .f32⟩
  | 3 => ⟨S2x32000, .i32⟩
  | 4 => ⟨S128x300, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x1000, .f32⟩
  | 13 => ⟨S300x128, .f32⟩
  | 14 => ⟨S1000x128, .f32⟩
  | 15 => ⟨S1x128, .f32⟩
  | 16 => ⟨S1000x128, .f32⟩
  | 17 => ⟨S1000x128, .f32⟩
  | 18 => ⟨S256x1000x1, .f32⟩
  | 19 => ⟨S1x1000x128, .f32⟩
  | 20 => ⟨S256x1000x128, .f32⟩
  | 21 => ⟨S256x1000x128, .f32⟩
  | 22 => ⟨S256x1000x128, .f32⟩
  | 23 => ⟨S256000x128, .f32⟩
  | 24 => ⟨S1x32000, .i32⟩
  | 25 => ⟨S32000, .i32⟩
  | 26 => ⟨S1x32000, .i32⟩
  | 27 => ⟨S32000, .i32⟩
  | 28 => ⟨S128x128, .f32⟩
  | 29 => ⟨S256000x128, .f32⟩
  | 30 => ⟨S_, .f32⟩
  | 31 => ⟨S256000, .f32⟩
  | 32 => ⟨S_, .i32⟩
  | 33 => ⟨S32000, .i32⟩
  | 34 => ⟨S32000, .i1⟩
  | 35 => ⟨S_, .i32⟩
  | 36 => ⟨S32000, .i32⟩
  | 37 => ⟨S32000, .i32⟩
  | 38 => ⟨S32000, .i32⟩
  | 39 => ⟨S32000x1, .i32⟩
  | 40 => ⟨S_, .f32⟩
  | 41 => ⟨S32000, .f32⟩
  | 42 => ⟨S256000, .f32⟩
  | 43 => ⟨S_, .f32⟩
  | 44 => ⟨S256000, .f32⟩
  | 45 => ⟨S256000, .f32⟩
  | 46 => ⟨S_, .i32⟩
  | 47 => ⟨S32000, .i32⟩
  | 48 => ⟨S32000, .i1⟩
  | 49 => ⟨S_, .i32⟩
  | 50 => ⟨S32000, .i32⟩
  | 51 => ⟨S32000, .i32⟩
  | 52 => ⟨S32000, .i32⟩
  | 53 => ⟨S32000x1, .i32⟩
  | 54 => ⟨S32000, .f32⟩
  | 55 => ⟨S_, .i32⟩
  | 56 => ⟨S32000, .i32⟩
  | 57 => ⟨S32000, .i1⟩
  | 58 => ⟨S_, .i32⟩
  | 59 => ⟨S32000, .i32⟩
  | 60 => ⟨S32000, .i32⟩
  | 61 => ⟨S32000, .i32⟩
  | 62 => ⟨S32000x1, .i32⟩
  | 63 => ⟨S32000, .f32⟩
  | 64 => ⟨S32000, .f32⟩
  | 65 => ⟨S_, .f32⟩
  | 66 => ⟨S256000x128, .f32⟩
  | 67 => ⟨S_, .i32⟩
  | 68 => ⟨S32000, .i32⟩
  | 69 => ⟨S32000, .i1⟩
  | 70 => ⟨S_, .i32⟩
  | 71 => ⟨S32000, .i32⟩
  | 72 => ⟨S32000, .i32⟩
  | 73 => ⟨S32000, .i32⟩
  | 74 => ⟨S32000x1, .i32⟩
  | 75 => ⟨S32000x128, .f32⟩
  | 76 => ⟨S32000x1, .f32⟩
  | 77 => ⟨S32000x128, .f32⟩
  | 78 => ⟨S32000x128, .f32⟩
  | 79 => ⟨S_, .i32⟩
  | 80 => ⟨S32000, .i32⟩
  | 81 => ⟨S32000, .i1⟩
  | 82 => ⟨S_, .i32⟩
  | 83 => ⟨S32000, .i32⟩
  | 84 => ⟨S32000, .i32⟩
  | 85 => ⟨S32000, .i32⟩
  | 86 => ⟨S32000x1, .i32⟩
  | 87 => ⟨S256000x128, .f32⟩
  | 88 => ⟨S256000, .f32⟩
  | 89 => ⟨S256000x1, .f32⟩
  | 90 => ⟨S256000x128, .f32⟩
  | 91 => ⟨S256000x128, .f32⟩
  | 92 => ⟨S256000x128, .f32⟩
  | 93 => ⟨S1x128, .f32⟩
  | 94 => ⟨S256000x128, .f32⟩
  | 95 => ⟨S256000x128, .f32⟩
  | 96 => ⟨S_, .f32⟩
  | 97 => ⟨S256000x128, .f32⟩
  | 98 => ⟨S256000x128, .f32⟩
  | 99 => ⟨S128x128, .f32⟩
  | 100 => ⟨S256000x128, .f32⟩
  | 101 => ⟨S_, .f32⟩
  | 102 => ⟨S256000, .f32⟩
  | 103 => ⟨S_, .i32⟩
  | 104 => ⟨S32000, .i32⟩
  | 105 => ⟨S32000, .i1⟩
  | 106 => ⟨S_, .i32⟩
  | 107 => ⟨S32000, .i32⟩
  | 108 => ⟨S32000, .i32⟩
  | 109 => ⟨S32000, .i32⟩
  | 110 => ⟨S32000x1, .i32⟩
  | 111 => ⟨S_, .f32⟩
  | 112 => ⟨S32000, .f32⟩
  | 113 => ⟨S256000, .f32⟩
  | 114 => ⟨S_, .f32⟩
  | 115 => ⟨S256000, .f32⟩
  | 116 => ⟨S256000, .f32⟩
  | 117 => ⟨S_, .i32⟩
  | 118 => ⟨S32000, .i32⟩
  | 119 => ⟨S32000, .i1⟩
  | 120 => ⟨S_, .i32⟩
  | 121 => ⟨S32000, .i32⟩
  | 122 => ⟨S32000, .i32⟩
  | 123 => ⟨S32000, .i32⟩
  | 124 => ⟨S32000x1, .i32⟩
  | 125 => ⟨S32000, .f32⟩
  | 126 => ⟨S_, .i32⟩
  | 127 => ⟨S32000, .i32⟩
  | _ => ⟨S256x800, .f32⟩

abbrev hbmTy0_1 (i : Nat) : BufTy := match i % 128 with
  | 0 => ⟨S32000, .i1⟩
  | 1 => ⟨S_, .i32⟩
  | 2 => ⟨S32000, .i32⟩
  | 3 => ⟨S32000, .i32⟩
  | 4 => ⟨S32000, .i32⟩
  | 5 => ⟨S32000x1, .i32⟩
  | 6 => ⟨S32000, .f32⟩
  | 7 => ⟨S32000, .f32⟩
  | 8 => ⟨S_, .f32⟩
  | 9 => ⟨S256000x128, .f32⟩
  | 10 => ⟨S_, .i32⟩
  | 11 => ⟨S32000, .i32⟩
  | 12 => ⟨S32000, .i1⟩
  | 13 => ⟨S_, .i32⟩
  | 14 => ⟨S32000, .i32⟩
  | 15 => ⟨S32000, .i32⟩
  | 16 => ⟨S32000, .i32⟩
  | 17 => ⟨S32000x1, .i32⟩
  | 18 => ⟨S32000x128, .f32⟩
  | 19 => ⟨S32000x1, .f32⟩
  | 20 => ⟨S32000x128, .f32⟩
  | 21 => ⟨S32000x128, .f32⟩
  | 22 => ⟨S_, .i32⟩
  | 23 => ⟨S32000, .i32⟩
  | 24 => ⟨S32000, .i1⟩
  | 25 => ⟨S_, .i32⟩
  | 26 => ⟨S32000, .i32⟩
  | 27 => ⟨S32000, .i32⟩
  | 28 => ⟨S32000, .i32⟩
  | 29 => ⟨S32000x1, .i32⟩
  | 30 => ⟨S256000x128, .f32⟩
  | 31 => ⟨S256000, .f32⟩
  | 32 => ⟨S256000x1, .f32⟩
  | 33 => ⟨S256000x128, .f32⟩
  | 34 => ⟨S256000x128, .f32⟩
  | 35 => ⟨S256000x128, .f32⟩
  | 36 => ⟨S1x128, .f32⟩
  | 37 => ⟨S256000x128, .f32⟩
  | 38 => ⟨S256000x128, .f32⟩
  | 39 => ⟨S_, .f32⟩
  | 40 => ⟨S256000x128, .f32⟩
  | 41 => ⟨S256000x128, .f32⟩
  | 42 => ⟨S128x128, .f32⟩
  | 43 => ⟨S256000x128, .f32⟩
  | 44 => ⟨S_, .f32⟩
  | 45 => ⟨S256000, .f32⟩
  | 46 => ⟨S_, .i32⟩
  | 47 => ⟨S32000, .i32⟩
  | 48 => ⟨S32000, .i1⟩
  | 49 => ⟨S_, .i32⟩
  | 50 => ⟨S32000, .i32⟩
  | 51 => ⟨S32000, .i32⟩
  | 52 => ⟨S32000, .i32⟩
  | 53 => ⟨S32000x1, .i32⟩
  | 54 => ⟨S_, .f32⟩
  | 55 => ⟨S32000, .f32⟩
  | 56 => ⟨S256000, .f32⟩
  | 57 => ⟨S_, .f32⟩
  | 58 => ⟨S256000, .f32⟩
  | 59 => ⟨S256000, .f32⟩
  | 60 => ⟨S_, .i32⟩
  | 61 => ⟨S32000, .i32⟩
  | 62 => ⟨S32000, .i1⟩
  | 63 => ⟨S_, .i32⟩
  | 64 => ⟨S32000, .i32⟩
  | 65 => ⟨S32000, .i32⟩
  | 66 => ⟨S32000, .i32⟩
  | 67 => ⟨S32000x1, .i32⟩
  | 68 => ⟨S32000, .f32⟩
  | 69 => ⟨S_, .i32⟩
  | 70 => ⟨S32000, .i32⟩
  | 71 => ⟨S32000, .i1⟩
  | 72 => ⟨S_, .i32⟩
  | 73 => ⟨S32000, .i32⟩
  | 74 => ⟨S32000, .i32⟩
  | 75 => ⟨S32000, .i32⟩
  | 76 => ⟨S32000x1, .i32⟩
  | 77 => ⟨S32000, .f32⟩
  | 78 => ⟨S32000, .f32⟩
  | 79 => ⟨S_, .f32⟩
  | 80 => ⟨S256000x128, .f32⟩
  | 81 => ⟨S_, .i32⟩
  | 82 => ⟨S32000, .i32⟩
  | 83 => ⟨S32000, .i1⟩
  | 84 => ⟨S_, .i32⟩
  | 85 => ⟨S32000, .i32⟩
  | 86 => ⟨S32000, .i32⟩
  | 87 => ⟨S32000, .i32⟩
  | 88 => ⟨S32000x1, .i32⟩
  | 89 => ⟨S32000x128, .f32⟩
  | 90 => ⟨S32000x1, .f32⟩
  | 91 => ⟨S32000x128, .f32⟩
  | 92 => ⟨S32000x128, .f32⟩
  | 93 => ⟨S_, .i32⟩
  | 94 => ⟨S32000, .i32⟩
  | 95 => ⟨S32000, .i1⟩
  | 96 => ⟨S_, .i32⟩
  | 97 => ⟨S32000, .i32⟩
  | 98 => ⟨S32000, .i32⟩
  | 99 => ⟨S32000, .i32⟩
  | 100 => ⟨S32000x1, .i32⟩
  | 101 => ⟨S256000x128, .f32⟩
  | 102 => ⟨S256000, .f32⟩
  | 103 => ⟨S256000x1, .f32⟩
  | 104 => ⟨S256000x128, .f32⟩
  | 105 => ⟨S256000x128, .f32⟩
  | 106 => ⟨S256000x128, .f32⟩
  | 107 => ⟨S1x128, .f32⟩
  | 108 => ⟨S256000x128, .f32⟩
  | 109 => ⟨S256000x128, .f32⟩
  | 110 => ⟨S_, .f32⟩
  | 111 => ⟨S256000x128, .f32⟩
  | 112 => ⟨S256000x128, .f32⟩
  | 113 => ⟨S256x1000x128, .f32⟩
  | 114 => ⟨S_, .f32⟩
  | 115 => ⟨S256x128, .f32⟩
  | 116 => ⟨S_, .f32⟩
  | 117 => ⟨S256x128, .f32⟩
  | 118 => ⟨S256x128, .f32⟩
  | _ => ⟨S256x800, .f32⟩

abbrev hbmTy (i : Nat) : BufTy := match i / 128 with
  | 0 => hbmTy0_0 i
  | 1 => hbmTy0_1 i
  | _ => ⟨S256x800, .f32⟩

abbrev bufTy : (tb : Table) → Fin (tcTables nBuf tb) → BufTy
  | .hbm, ⟨i, _⟩ => hbmTy i
  | _, _ => ⟨S256x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call0_cst : Ref sig .tc := ⟨.hbm, 96, rfl⟩
abbrev main_call0_v0 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_c_13 : Ref sig .tc := ⟨.hbm, 103, rfl⟩
abbrev main_v74 : Ref sig .tc := ⟨.hbm, 104, rfl⟩
abbrev main_v75 : Ref sig .tc := ⟨.hbm, 105, rfl⟩
abbrev main_c_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_21 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_c_25 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_call1_cst : Ref sig .tc := ⟨.hbm, 167, rfl⟩
abbrev main_call1_v0 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_c_27 : Ref sig .tc := ⟨.hbm, 174, rfl⟩
abbrev main_v129 : Ref sig .tc := ⟨.hbm, 175, rfl⟩
abbrev main_v130 : Ref sig .tc := ⟨.hbm, 176, rfl⟩
abbrev main_c_28 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_29 : Ref sig .tc := ⟨.hbm, 182, rfl⟩
abbrev main_v135 : Ref sig .tc := ⟨.hbm, 183, rfl⟩
abbrev main_v136 : Ref sig .tc := ⟨.hbm, 184, rfl⟩
abbrev main_cst_30 : Ref sig .tc := ⟨.hbm, 185, rfl⟩
abbrev main_v137 : Ref sig .tc := ⟨.hbm, 186, rfl⟩
abbrev main_v138 : Ref sig .tc := ⟨.hbm, 187, rfl⟩
abbrev main_c_31 : Ref sig .tc := ⟨.hbm, 188, rfl⟩
abbrev main_v139 : Ref sig .tc := ⟨.hbm, 189, rfl⟩
abbrev main_v140 : Ref sig .tc := ⟨.hbm, 190, rfl⟩
abbrev main_c_32 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_c_33 : Ref sig .tc := ⟨.hbm, 197, rfl⟩
abbrev main_v146 : Ref sig .tc := ⟨.hbm, 198, rfl⟩
abbrev main_v147 : Ref sig .tc := ⟨.hbm, 199, rfl⟩
abbrev main_c_34 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_35 : Ref sig .tc := ⟨.hbm, 207, rfl⟩
abbrev main_v154 : Ref sig .tc := ⟨.hbm, 208, rfl⟩
abbrev main_c_36 : Ref sig .tc := ⟨.hbm, 209, rfl⟩
abbrev main_v155 : Ref sig .tc := ⟨.hbm, 210, rfl⟩
abbrev main_v156 : Ref sig .tc := ⟨.hbm, 211, rfl⟩
abbrev main_c_37 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_c_38 : Ref sig .tc := ⟨.hbm, 221, rfl⟩
abbrev main_v165 : Ref sig .tc := ⟨.hbm, 222, rfl⟩
abbrev main_v166 : Ref sig .tc := ⟨.hbm, 223, rfl⟩
abbrev main_c_39 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_call2_cst : Ref sig .tc := ⟨.hbm, 238, rfl⟩
abbrev main_call2_v0 : Ref sig .tc := ⟨.hbm, 239, rfl⟩
abbrev main_v180 : Ref sig .tc := ⟨.hbm, 240, rfl⟩
abbrev main_v181 : Ref sig .tc := ⟨.hbm, 241, rfl⟩
abbrev main_cst_40 : Ref sig .tc := ⟨.hbm, 242, rfl⟩
abbrev main_v182 : Ref sig .tc := ⟨.hbm, 243, rfl⟩
abbrev main_cst_41 : Ref sig .tc := ⟨.hbm, 244, rfl⟩
abbrev main_v183 : Ref sig .tc := ⟨.hbm, 245, rfl⟩
abbrev main_v184 : Ref sig .tc := ⟨.hbm, 246, rfl⟩

abbrev nD : Nat := 1
abbrev τ : Topo := Topo.v7x

variable {F : FTy → Type} [FloatOps F]

class Facts₀ : Prop where
  concatenates_S256x800_S256x200_S256x1000_d1 : Shape.Concatenates [S256x800, S256x200] S256x1000 1
  transposes_S128x300_S300x128_1_0 : S128x300.Transposes [1, 0] S300x128
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  bcast_S256x1000_S256x1000x1_0_1 : S256x1000.BroadcastsInDim S256x1000x1 (![0, 1] : Fin 2 → Fin S256x1000x1.rank)
  bcast_S1000x128_S1x1000x128_1_2 : S1000x128.BroadcastsInDim S1x1000x128 (![1, 2] : Fin 2 → Fin S1x1000x128.rank)
  bcast_S256x1000x1_S256x1000x128_0_1_2 : S256x1000x1.BroadcastsInDim S256x1000x128 (![0, 1, 2] : Fin 3 → Fin S256x1000x128.rank)
  bcast_S1x1000x128_S256x1000x128_0_1_2 : S1x1000x128.BroadcastsInDim S256x1000x128 (![0, 1, 2] : Fin 3 → Fin S256x1000x128.rank)
  shapeCasts_S256x1000x128_S256000x128 : S256x1000x128.ShapeCasts S256000x128
  slices_S2x32000_S1x32000_0_0 : S2x32000.Slices ![0, 0] S1x32000
  shapeCasts_S1x32000_S32000 : S1x32000.ShapeCasts S32000
  slices_S2x32000_S1x32000_1_0 : S2x32000.Slices ![1, 0] S1x32000
  transposes_S128x128_S128x128_1_0 : S128x128.Transposes [1, 0] S128x128
  bcast_S_S256000 : S_.BroadcastsInDim S256000 (![] : Fin 0 → Fin S256000.rank)
  bcast_S_S32000 : S_.BroadcastsInDim S32000 (![] : Fin 0 → Fin S32000.rank)
  bcast_S32000_S32000x1_0 : S32000.BroadcastsInDim S32000x1 (![0] : Fin 1 → Fin S32000x1.rank)
  bcast_S_S256000x128 : S_.BroadcastsInDim S256000x128 (![] : Fin 0 → Fin S256000x128.rank)
  bcast_S32000x1_S32000x128_0_1 : S32000x1.BroadcastsInDim S32000x128 (![0, 1] : Fin 2 → Fin S32000x128.rank)
  bcast_S256000_S256000x1_0 : S256000.BroadcastsInDim S256000x1 (![0] : Fin 1 → Fin S256000x1.rank)
  bcast_S256000x1_S256000x128_0_1 : S256000x1.BroadcastsInDim S256000x128 (![0, 1] : Fin 2 → Fin S256000x128.rank)
  bcast_S1x128_S256000x128_0_1 : S1x128.BroadcastsInDim S256000x128 (![0, 1] : Fin 2 → Fin S256000x128.rank)
  shapeCasts_S256000x128_S256x1000x128 : S256000x128.ShapeCasts S256x1000x128
  reducesTo_S256x1000x128_S256x128_d1 : S256x1000x128.ReducesTo [1] S256x128
  h_S_ : 0 < S_.numel
  bcast_S_S256x128 : S_.BroadcastsInDim S256x128 (![] : Fin 0 → Fin S256x128.rank)
  dot_S1000x300_S300x128_S1000x128_1_0_0_1_n_n_wf : DotDims.WF S1000x300 S300x128 S1000x128 [1] [0] [0] [1] [] []
  dot_S256000x128_S128x128_S256000x128_1_0_0_1_n_n_wf : DotDims.WF S256000x128 S128x128 S256000x128 [1] [0] [0] [1] [] []
  scatter_S256000_S32000x1_S32000_n_0_0_1_wf : ScatterDims.WF S256000 S32000x1 S32000 [] [0] [0] 1
  gather_S256000_S32000x1_S32000_n_0_n_n_0_1_1_wf : GatherDims.WF S256000 S32000x1 S32000 [] [0] [] [0] [] 1 ![1]
  gather_S256000x128_S32000x1_S32000x128_1_0_n_n_0_1_1128_wf : GatherDims.WF S256000x128 S32000x1 S32000x128 [1] [0] [] [0] [] 1 ![1, 128]
  scatter_S256000x128_S32000x1_S32000x128_1_0_0_1_wf : ScatterDims.WF S256000x128 S32000x1 S32000x128 [1] [0] [0] 1

variable [Facts₀]

def dot_S1000x300_S300x128_S1000x128_1_0_0_1_n_n : DotDims S1000x300 S300x128 S1000x128 where
  lhsContracting := [1]
  rhsContracting := [0]
  lhsNonContracting := [0]
  rhsNonContracting := [1]
  lhsBatch := []
  rhsBatch := []
  wf := dot_S1000x300_S300x128_S1000x128_1_0_0_1_n_n_wf
def dot_S256000x128_S128x128_S256000x128_1_0_0_1_n_n : DotDims S256000x128 S128x128 S256000x128 where
  lhsContracting := [1]
  rhsContracting := [0]
  lhsNonContracting := [0]
  rhsNonContracting := [1]
  lhsBatch := []
  rhsBatch := []
  wf := dot_S256000x128_S128x128_S256000x128_1_0_0_1_n_n_wf
def scatter_S256000_S32000x1_S32000_n_0_0_1 : ScatterDims S256000 S32000x1 S32000 where
  updateWindowDims := []
  insertedWindowDims := [0]
  scatterDimsToOperandDims := [0]
  indexVectorDim := 1
  wf := scatter_S256000_S32000x1_S32000_n_0_0_1_wf
def gather_S256000_S32000x1_S32000_n_0_n_n_0_1_1 : GatherDims S256000 S32000x1 S32000 where
  offsetDims := []
  collapsedSliceDims := [0]
  operandBatchingDims := []
  startIndicesBatchingDims := []
  startIndexMap := [0]
  indexVectorDim := 1
  sliceSizes := ![1]
  wf := gather_S256000_S32000x1_S32000_n_0_n_n_0_1_1_wf
def gather_S256000x128_S32000x1_S32000x128_1_0_n_n_0_1_1128 : GatherDims S256000x128 S32000x1 S32000x128 where
  offsetDims := [1]
  collapsedSliceDims := [0]
  operandBatchingDims := []
  startIndicesBatchingDims := []
  startIndexMap := [0]
  indexVectorDim := 1
  sliceSizes := ![1, 128]
  wf := gather_S256000x128_S32000x1_S32000x128_1_0_n_n_0_1_1128_wf
def scatter_S256000x128_S32000x1_S32000x128_1_0_0_1 : ScatterDims S256000x128 S32000x1 S32000x128 where
  updateWindowDims := [1]
  insertedWindowDims := [0]
  scatterDimsToOperandDims := [0]
  indexVectorDim := 1
  wf := scatter_S256000x128_S32000x1_S32000x128_1_0_0_1_wf

class Facts : Prop extends Facts₀ where

variable [Facts]
-- ==== Proof.Spec.lean ====
/-
  The mathematics of the two programs, as functions on the extended reals.

  Both programs embed 256 x 1000 nodes (node (b, d) carries the feature row x[b, d] * emb[d, :]) and run
  three graph-convolution layers followed by a mean over d.  All edges join nodes of batch row 0
  (their end points are numbers below 1000), so

  * for a node of batch row 0 a layer is  relu (sum over the incoming edges e of
    coef e * (h[src e] W^T) + dinv^2 * (h W^T) + bias)  with  dinv = deg ^ (-1/2),
    deg = 1 + in-degree, coef e = dinv (src e) * dinv (tgt e);
  * a node of another batch row has no incoming edge: deg = 1, and the layer is relu (h W^T + bias).

  `refOut` spells this the way the scatter/gather program computes it (one formula for all
  256000 nodes, the edge sums restricted to batch row 0 by the edges' range), `kerOut` the way the
  other program does: batch row 0 through a dense 1000 x 1000 normalised adjacency matrix, the
  other rows through three dense layers, the first of which multiplies x[b, d] into emb W0^T.
-/
import Idealize.ShloMosaic.PureOps.Ideal
import Idealize.ShloMosaic.Lib.ValueIdx

noncomputable section

namespace Cert.Gnn

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- `+0.0` denotes 0. -/
theorem ofBits_zero : Ideal.ofBits .f32 0x00000000#32 = 0 := by
  simp [Ideal.ofBits, Ideal.ieee]

/-- `1.0` denotes 1. -/
theorem ofBits_one : Ideal.ofBits .f32 0x3F800000#32 = 1 := by
  simp [Ideal.ofBits, Ideal.ieee, -EReal.coe_mul]; norm_num

/-- `-0.5` denotes the real -1/2. -/
theorem ofBits_negHalf : Ideal.ofBits .f32 0xBF000000#32 = ((-(1 / 2) : ℝ) : EReal) := by
  simp [Ideal.ofBits, Ideal.ieee, -EReal.coe_mul]; norm_num

/-- `1000.0` denotes the real 1000. -/
theorem ofBits_1000 : Ideal.ofBits .f32 0x447A0000#32 = ((1000 : ℝ) : EReal) := by
  simp [Ideal.ofBits, Ideal.ieee, -EReal.coe_mul]; norm_num

/-- One row times a transposed weight matrix: `(v W^T) j = sum over k of v k * W[j, k]`. -/
def lin (W : A2 128 128) (v : Fin 128 → EReal) (j : Fin 128) : EReal :=
  ∑ k : Fin 128, v k * W (ix2 j k)

/-- Edge `e`'s source node, read off the edge array's row 0 (all entries are below 1000). -/
def srcOf (edge : (⟨2, ![2, 32000]⟩ : Shape).Idx → BitVec 32) (hr : ∀ i, (edge i).toNat < 1000) (e : Fin 32000) :
    Fin 1000 := ⟨(edge (ix2 0 e)).toNat, hr _⟩

/-- Edge `e`'s target node, read off the edge array's row 1. -/
def tgtOf (edge : (⟨2, ![2, 32000]⟩ : Shape).Idx → BitVec 32) (hr : ∀ i, (edge i).toNat < 1000) (e : Fin 32000) :
    Fin 1000 := ⟨(edge (ix2 1 e)).toNat, hr _⟩

section graph

variable (src tgt : Fin 32000 → Fin 1000)

/-- Degree (with the self loop) of node `d` of batch row 0. -/
def deg (d : Fin 1000) : EReal :=
  1 + ∑ _e ∈ Finset.univ.filter (fun e => tgt e = d), (1 : EReal)

/-- `deg ^ (-1/2)`. -/
def dinv (d : Fin 1000) : EReal := Ideal.pow (deg tgt d) ((-(1 / 2) : ℝ) : EReal)

/-- The symmetric normalisation of edge `e`. -/
def coef (e : Fin 32000) : EReal := dinv tgt (src e) * dinv tgt (tgt e)

/-! ### The scatter / gather form, over all 256 x 1000 nodes -/

/-- Degree of node `(b, d)`: only batch row 0 has incoming edges. -/
def degR (b : Fin 256) (d : Fin 1000) : EReal :=
  1 + ∑ _e ∈ Finset.univ.filter (fun e => b = 0 ∧ tgt e = d), (1 : EReal)

def dinvR (b : Fin 256) (d : Fin 1000) : EReal := Ideal.pow (degR tgt b d) ((-(1 / 2) : ℝ) : EReal)

/-- Edge `e`'s normalisation as the scatter / gather program computes it (both end points in batch row 0). -/
def coefR (e : Fin 32000) : EReal := dinvR tgt 0 (src e) * dinvR tgt 0 (tgt e)

/-- One layer on all nodes: messages summed into the targets, the self-loop term, the bias, relu. -/
def refLayer (W : A2 128 128) (bias : A1 128) (h : Fin 256 → Fin 1000 → Fin 128 → EReal)
    (b : Fin 256) (d : Fin 1000) (j : Fin 128) : EReal :=
  max ((((0 : EReal) + ∑ e ∈ Finset.univ.filter (fun e => b = 0 ∧ tgt e = d),
            lin W (h 0 (src e)) j * coefR src tgt e)
        + lin W (h b d) j * (dinvR tgt b d * dinvR tgt b d)) + bias (ix1 j)) 0

/-- The embedded nodes. -/
def h0 (x : A2 256 1000) (emb : A2 1000 128) (b : Fin 256) (d : Fin 1000) (k : Fin 128) : EReal :=
  x (ix2 b d) * emb (ix2 d k)

/-- Three layers then the mean over `d`, the scatter / gather way. -/
def refOut (c1000 : EReal) (x : A2 256 1000) (emb : A2 1000 128) (W0 : A2 128 128) (b0 : A1 128) (W1 : A2 128 128)
    (b1 : A1 128) (W2 : A2 128 128) (b2 : A1 128) (b : Fin 256) (j : Fin 128) : EReal :=
  Ideal.div ((0 : EReal) + ∑ d : Fin 1000,
    refLayer src tgt W2 b2 (refLayer src tgt W1 b1 (refLayer src tgt W0 b0 (h0 x emb))) b d j) c1000

/-! ### The dense form -/

/-- The normalised adjacency matrix with the self loops on its diagonal. -/
def adj (t s : Fin 1000) : EReal :=
  ((0 : EReal) + ∑ e ∈ Finset.univ.filter (fun e => tgt e = t ∧ src e = s), coef src tgt e)
    + (if t = s then dinv tgt t * dinv tgt t else 0)

/-- One layer on batch row 0: the adjacency matrix times `h W^T`, the bias, relu. -/
def adjLayer (W : A2 128 128) (bias : A1 128) (h : Fin 1000 → Fin 128 → EReal) (t : Fin 1000) (j : Fin 128) : EReal :=
  max ((∑ s : Fin 1000, adj src tgt t s * lin W (h s) j) + bias (ix1 j)) 0

end graph

/-- One layer on a node without incoming edges. -/
def denseLayer (W : A2 128 128) (bias : A1 128) (v : Fin 128 → EReal) (j : Fin 128) : EReal :=
  max (lin W v j + bias (ix1 j)) 0

/-- The first layer of a node without incoming edges, with `x[b, d]` multiplied into `emb W0^T`. -/
def dense1 (x : A2 256 1000) (emb : A2 1000 128) (W0 : A2 128 128) (b0 : A1 128) (b : Fin 256) (d : Fin 1000)
    (j : Fin 128) : EReal :=
  max (x (ix2 b d) * lin W0 (fun k => emb (ix2 d k)) j + b0 (ix1 j)) 0

/-- Three dense layers of node `(b, d)`. -/
def dense3 (x : A2 256 1000) (emb : A2 1000 128) (W0 : A2 128 128) (b0 : A1 128) (W1 : A2 128 128) (b1 : A1 128)
    (W2 : A2 128 128) (b2 : A1 128) (b : Fin 256) (d : Fin 1000) (j : Fin 128) : EReal :=
  denseLayer W2 b2 (denseLayer W1 b1 (dense1 x emb W0 b0 b d)) j

/-- Batch row 0 through the adjacency matrix: three layers from `x[0, d] * emb[d, :]`. -/
def graph3 (src tgt : Fin 32000 → Fin 1000) (x : A2 256 1000) (emb : A2 1000 128) (W0 : A2 128 128) (b0 : A1 128)
    (W1 : A2 128 128) (b1 : A1 128) (W2 : A2 128 128) (b2 : A1 128) (d : Fin 1000) (j : Fin 128) : EReal :=
  adjLayer src tgt W2 b2 (adjLayer src tgt W1 b1 (adjLayer src tgt W0 b0 (fun d k => x (ix2 0 d) * emb (ix2 d k)))) d j

/-! ### The fused dense tile, in the arrays it is handed

`xp` the padded batch rows, `ew` = emb W0^T, the biases as 1 x 128 rows, `w1t`, `w2t` the transposed weights. -/

/-- First layer of the tile: `relu (xp[p, d] * ew[d, j] + b0r[0, j])`. -/
def tile1 (xp : A2 256 1000) (ew : A2 1000 128) (b0r : A2 1 128) (p : Fin 256) (d : Fin 1000) (j : Fin 128) : EReal :=
  max (xp (ix2 p d) * ew (ix2 d j) + b0r (ix2 0 j)) 0

/-- A later layer of the tile: `relu (sum over k of v k * wt[k, j] + br[0, j])`. -/
def tileLayer (wt : A2 128 128) (br : A2 1 128) (v : Fin 128 → EReal) (j : Fin 128) : EReal :=
  max ((∑ k : Fin 128, v k * wt (ix2 k j)) + br (ix2 0 j)) 0

/-- The tile's output row `p`: three layers, then the sum over `d` divided by `c1000`. -/
def tileOut (c1000 : EReal) (xp : A2 256 1000) (ew : A2 1000 128) (b0r : A2 1 128) (w1t : A2 128 128) (b1r : A2 1 128)
    (w2t : A2 128 128) (b2r : A2 1 128) (p : Fin 256) (j : Fin 128) : EReal :=
  Ideal.div (∑ d : Fin 1000, tileLayer w2t b2r (tileLayer w1t b1r (tile1 xp ew b0r p d)) j) c1000

/-- The dense program's result: row 0 the mean of `graph3`, the other rows the mean of `dense3`. -/
def kerOut (src tgt : Fin 32000 → Fin 1000) (c1000 : EReal) (x : A2 256 1000) (emb : A2 1000 128) (W0 : A2 128 128)
    (b0 : A1 128) (W1 : A2 128 128) (b1 : A1 128) (W2 : A2 128 128) (b2 : A1 128) (b : Fin 256) (j : Fin 128) : EReal :=
  if b = 0 then Ideal.div ((0 : EReal) + ∑ d : Fin 1000, graph3 src tgt x emb W0 b0 W1 b1 W2 b2 d j) c1000
  else Ideal.div (∑ d : Fin 1000, dense3 x emb W0 b0 W1 b1 W2 b2 b d j) c1000

end Cert.Gnn

end
-- ==== Proof.GnnMath.lean ====
/-
  The two forms of the three-layer graph convolution agree on real inputs.

  On the extended reals the rearrangements used here (distributing a factor over a sum, exchanging a
  double sum over edges grouped by source node) hold for real numbers only, so every intermediate value
  is first shown to be a real number; the identities are then the ones of the real field.
-/
import proofs.«131067_j1941325218075_2_alg».proof.Proof.Spec

noncomputable section

namespace Cert.Gnn

open Idealize.ShloMosaic Idealize.ShloMosaic.ValueIdx

/-- An extended real that is a real number. -/
def IsReal (a : EReal) : Prop := ∃ r : ℝ, a = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max_zero {a : EReal} (ha : IsReal a) : IsReal (max a 0) := by
  obtain ⟨r, rfl⟩ := ha
  have hmax : ((max r 0 : ℝ) : EReal) = max (r : EReal) ((0 : ℝ) : EReal) := EReal.coe_strictMono.monotone.map_max
  exact ⟨max r 0, by rw [hmax, EReal.coe_zero]⟩

theorem IsReal.sum {ι : Type} (s : Finset ι) (f : ι → EReal) :
    (∀ i ∈ s, IsReal (f i)) → IsReal (∑ i ∈ s, f i) := by
  classical
  refine Finset.induction_on s (fun _ => by simpa using isReal_zero) (fun a s ha ih h => ?_)
  rw [Finset.sum_insert ha]
  exact (h _ (Finset.mem_insert_self _ _)).add (ih fun i hi => h i (Finset.mem_insert_of_mem hi))

/-- The coercion of a finite real sum is the sum of the coercions. -/
theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

theorem IsReal.pow_coe {a : EReal} (ha : IsReal a) (y : ℝ) : IsReal (Ideal.pow a (y : EReal)) := by
  obtain ⟨r, rfl⟩ := ha
  exact ⟨Real.rpow r y, Ideal.pow_coe_coe r y⟩

/-! ### The real identities -/

/-- Grouping the edges into a node by their source: the adjacency row applied to a vector is the sum of the
    messages plus the self-loop term. -/
theorem real_adj_sum (src tgt : Fin 32000 → Fin 1000) (c : Fin 32000 → ℝ) (δ L : Fin 1000 → ℝ) (t : Fin 1000) :
    ∑ s : Fin 1000, ((∑ e ∈ Finset.univ.filter (fun e => tgt e = t ∧ src e = s), c e)
        + (if t = s then δ t * δ t else 0)) * L s
      = (∑ e ∈ Finset.univ.filter (fun e => tgt e = t), L (src e) * c e) + L t * (δ t * δ t) := by
  simp only [add_mul, Finset.sum_add_distrib]
  refine congrArg₂ (· + ·) ?_ ?_
  · have hs : ∀ s, (∑ e ∈ Finset.univ.filter (fun e => tgt e = t ∧ src e = s), c e) * L s
        = ∑ e ∈ (Finset.univ.filter (fun e => tgt e = t)).filter (fun e => src e = s), L (src e) * c e := by
      intro s
      rw [Finset.sum_mul, Finset.filter_filter]
      refine Finset.sum_congr rfl (fun e he => ?_)
      rw [Finset.mem_filter] at he
      rw [he.2.2, mul_comm]
    simp only [hs]
    exact Finset.sum_fiberwise _ _ _
  · simp only [ite_mul, zero_mul, Finset.sum_ite_eq, Finset.mem_univ, if_true]
    ring

/-! ### Real-valuedness of the intermediate arrays -/

section closure

variable (src tgt : Fin 32000 → Fin 1000)

theorem isReal_lin (W : A2 128 128) (v : Fin 128 → EReal) (j : Fin 128) (hW : ∀ i, IsReal (W i))
    (hv : ∀ k, IsReal (v k)) : IsReal (lin W v j) :=
  IsReal.sum _ _ (fun k _ => (hv k).mul (hW _))

theorem isReal_deg (d : Fin 1000) : IsReal (deg tgt d) :=
  isReal_one.add (IsReal.sum _ _ (fun _ _ => isReal_one))

theorem isReal_dinv (d : Fin 1000) : IsReal (dinv tgt d) := (isReal_deg tgt d).pow_coe _

theorem isReal_coef (e : Fin 32000) : IsReal (coef src tgt e) := (isReal_dinv tgt _).mul (isReal_dinv tgt _)

theorem isReal_degR (b : Fin 256) (d : Fin 1000) : IsReal (degR tgt b d) :=
  isReal_one.add (IsReal.sum _ _ (fun _ _ => isReal_one))

theorem isReal_dinvR (b : Fin 256) (d : Fin 1000) : IsReal (dinvR tgt b d) := (isReal_degR tgt b d).pow_coe _

theorem isReal_coefR (e : Fin 32000) : IsReal (coefR src tgt e) := (isReal_dinvR tgt _ _).mul (isReal_dinvR tgt _ _)

theorem isReal_refLayer (W : A2 128 128) (bias : A1 128) (h : Fin 256 → Fin 1000 → Fin 128 → EReal)
    (hW : ∀ i, IsReal (W i)) (hb : ∀ i, IsReal (bias i)) (hh : ∀ b d k, IsReal (h b d k))
    (b : Fin 256) (d : Fin 1000) (j : Fin 128) : IsReal (refLayer src tgt W bias h b d j) := by
  unfold refLayer
  refine IsReal.max_zero (((isReal_zero.add (IsReal.sum _ _ fun e _ => ?_)).add ?_).add (hb _))
  · exact (isReal_lin W _ j hW (hh 0 (src e))).mul (isReal_coefR src tgt e)
  · exact (isReal_lin W _ j hW (hh b d)).mul ((isReal_dinvR tgt b d).mul (isReal_dinvR tgt b d))

end closure

/-! ### Nodes of batch row 0 see the same degrees in both forms; the others have degree 1 -/

section degrees

variable (src tgt : Fin 32000 → Fin 1000)

theorem degR_zero (d : Fin 1000) : degR tgt 0 d = deg tgt d := by
  unfold degR deg
  simp only [true_and]

theorem dinvR_zero (d : Fin 1000) : dinvR tgt 0 d = dinv tgt d := by
  unfold dinvR dinv
  rw [degR_zero]

theorem coefR_eq (e : Fin 32000) : coefR src tgt e = coef src tgt e := by
  unfold coefR coef
  rw [dinvR_zero, dinvR_zero]

theorem degR_of_ne {b : Fin 256} (hb : b ≠ 0) (d : Fin 1000) : degR tgt b d = 1 := by
  unfold degR
  simp only [hb, false_and, Finset.filter_false, Finset.sum_empty, add_zero]

theorem dinvR_of_ne {b : Fin 256} (hb : b ≠ 0) (d : Fin 1000) : dinvR tgt b d = 1 := by
  unfold dinvR
  rw [degR_of_ne tgt hb, ← EReal.coe_one, Ideal.pow_coe_coe]
  exact congrArg _ (Real.one_rpow _)

end degrees

/-! ### One layer -/

section layer

variable (src tgt : Fin 32000 → Fin 1000)

/-- The adjacency row applied to a real vector, on the extended reals. -/
theorem adj_row_sum (cf : Fin 32000 → EReal) (dv L : Fin 1000 → EReal) (hc : ∀ e, IsReal (cf e))
    (hd : ∀ d, IsReal (dv d)) (hL : ∀ d, IsReal (L d)) (t : Fin 1000) :
    ∑ s : Fin 1000, (((0 : EReal) + ∑ e ∈ Finset.univ.filter (fun e => tgt e = t ∧ src e = s), cf e)
        + (if t = s then dv t * dv t else 0)) * L s
      = ((0 : EReal) + ∑ e ∈ Finset.univ.filter (fun e => tgt e = t), L (src e) * cf e) + L t * (dv t * dv t) := by
  choose c hc using hc
  choose δ hδ using hd
  choose l hl using hL
  have hite : ∀ s, (if t = s then ((δ t : ℝ) : EReal) * (δ t : EReal) else 0)
      = (((if t = s then δ t * δ t else 0 : ℝ)) : EReal) := by
    intro s
    split_ifs
    · exact (EReal.coe_mul _ _).symm
    · exact EReal.coe_zero.symm
  simp only [hc, hδ, hl, zero_add, hite]
  simp only [← coe_sum, ← EReal.coe_mul, ← EReal.coe_add]
  exact congrArg _ (real_adj_sum src tgt c δ l t)

/-- A layer on batch row 0: the message sum is the adjacency matrix applied to `h W^T`. -/
theorem refLayer_zero (W : A2 128 128) (bias : A1 128) (h : Fin 256 → Fin 1000 → Fin 128 → EReal)
    (hW : ∀ i, IsReal (W i)) (hh : ∀ d k, IsReal (h 0 d k)) (d : Fin 1000) (j : Fin 128) :
    refLayer src tgt W bias h 0 d j = adjLayer src tgt W bias (h 0) d j := by
  unfold refLayer adjLayer
  have key := adj_row_sum src tgt (coef src tgt) (dinv tgt) (fun s => lin W (h 0 s) j)
    (isReal_coef src tgt) (isReal_dinv tgt) (fun s => isReal_lin W _ j hW (hh s)) d
  simp only [coefR_eq, dinvR_zero, true_and]
  unfold adj
  rw [key]

/-- A layer on a node of another batch row: no message arrives and the normalisation is 1. -/
theorem refLayer_of_ne (W : A2 128 128) (bias : A1 128) (h : Fin 256 → Fin 1000 → Fin 128 → EReal)
    {b : Fin 256} (hb : b ≠ 0) (d : Fin 1000) (j : Fin 128) :
    refLayer src tgt W bias h b d j = denseLayer W bias (h b d) j := by
  unfold refLayer denseLayer
  rw [dinvR_of_ne tgt hb]
  simp only [hb, false_and, Finset.filter_false, Finset.sum_empty, add_zero, mul_one, zero_add]

end layer

/-- A real factor common to a row moves out of the row's product with the weights. -/
theorem lin_smul (W : A2 128 128) (a : EReal) (v : Fin 128 → EReal) (ha : IsReal a) (hv : ∀ k, IsReal (v k))
    (hW : ∀ i, IsReal (W i)) (j : Fin 128) : lin W (fun k => a * v k) j = a * lin W v j := by
  unfold lin
  obtain ⟨r, rfl⟩ := ha
  choose u hu using hv
  choose w hw using hW
  simp only [hu, hw]
  simp only [← EReal.coe_mul, ← coe_sum]
  refine congrArg _ ?_
  rw [Finset.mul_sum]
  exact Finset.sum_congr rfl (fun k _ => by ring)

/-! ### The two results agree -/

theorem refOut_eq_kerOut (src tgt : Fin 32000 → Fin 1000) (c1000 : EReal) (x : A2 256 1000) (emb : A2 1000 128)
    (W0 : A2 128 128) (b0 : A1 128) (W1 : A2 128 128) (b1 : A1 128) (W2 : A2 128 128) (b2 : A1 128)
    (hx : ∀ i, IsReal (x i)) (hemb : ∀ i, IsReal (emb i)) (hW0 : ∀ i, IsReal (W0 i)) (hb0 : ∀ i, IsReal (b0 i))
    (hW1 : ∀ i, IsReal (W1 i)) (hb1 : ∀ i, IsReal (b1 i)) (hW2 : ∀ i, IsReal (W2 i))
    (b : Fin 256) (j : Fin 128) :
    refOut src tgt c1000 x emb W0 b0 W1 b1 W2 b2 b j = kerOut src tgt c1000 x emb W0 b0 W1 b1 W2 b2 b j := by
  have hh0 : ∀ b d k, IsReal (h0 x emb b d k) := fun b d k => (hx _).mul (hemb _)
  have hh1 := isReal_refLayer src tgt W0 b0 (h0 x emb) hW0 hb0 hh0
  have hh2 := isReal_refLayer src tgt W1 b1 _ hW1 hb1 hh1
  unfold refOut kerOut
  by_cases hb : b = 0
  · subst hb
    rw [if_pos rfl]
    refine congrArg (fun s => Ideal.div ((0 : EReal) + s) c1000) (Finset.sum_congr rfl fun d _ => ?_)
    unfold graph3
    rw [refLayer_zero src tgt W2 b2 _ hW2 (fun d k => hh2 0 d k)]
    refine congrArg (fun g => adjLayer src tgt W2 b2 g d j) (funext fun d' => funext fun k' => ?_)
    rw [refLayer_zero src tgt W1 b1 _ hW1 (fun d k => hh1 0 d k)]
    refine congrArg (fun g => adjLayer src tgt W1 b1 g d' k') (funext fun d'' => funext fun k'' => ?_)
    rw [refLayer_zero src tgt W0 b0 _ hW0 (fun d k => hh0 0 d k)]
    rfl
  · rw [if_neg hb, zero_add]
    refine congrArg (fun s => Ideal.div s c1000) (Finset.sum_congr rfl fun d _ => ?_)
    unfold dense3
    rw [refLayer_of_ne src tgt W2 b2 _ hb]
    refine congrArg (fun g => denseLayer W2 b2 g j) (funext fun k' => ?_)
    rw [refLayer_of_ne src tgt W1 b1 _ hb]
    refine congrArg (fun g => denseLayer W1 b1 g k') (funext fun k'' => ?_)
    rw [refLayer_of_ne src tgt W0 b0 _ hb]
    unfold denseLayer dense1 h0
    rw [lin_smul W0 (x (ix2 b d)) (fun k => emb (ix2 d k)) (hx _) (fun k => hemb _) hW0]

end Cert.Gnn

end
-- ==== Proof.PreFacts.lean ====
/-
  What the precondition says of the argument arrays.

  The precondition is the conjunction, over the eleven float arrays, of "every entry has absolute value
  below +inf", and of "every entry e of the edge array satisfies 0 <= e and e < 1000, read signed".
  On the extended reals, max x (-x) < top excludes both infinities, so every float entry is a real
  number; a 32-bit word in [0, 1000) signed is below 1000 read unsigned.
-/
import proofs.«131067_j1941325218075_2_alg».proof.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The pattern of `+inf` denotes the top element. -/
theorem ofBits_inf : Ideal.ofBits .f32 0x7F800000#32 = (⊤ : EReal) := by
  simp [Ideal.ofBits, Ideal.ieee]

/-- An extended real whose absolute value max x (-x) is strictly below `+inf` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec
  · simp [Ideal.cmp] at h
  · exact ⟨_, rfl⟩
  · simp [Ideal.cmp] at h

/-- A 32-bit word that is at least 0 and below 1000, read signed, is below 1000 read unsigned. -/
theorem toNat_lt_of (w : BitVec 32) (h0 : (0#32 : BitVec 32).toInt ≤ w.toInt)
    (h1 : w.toInt < (1000#32 : BitVec 32).toInt) : w.toNat < 1000 := by
  have e0 : (0#32 : BitVec 32).toInt = 0 := by decide
  have e1 : (1000#32 : BitVec 32).toInt = 1000 := by decide
  rw [e0] at h0
  rw [e1] at h1
  have := BitVec.toInt_eq_toNat_cond w
  split at this <;> omega

/-- One conjunct of the precondition at the scalar index: both sides of an `and` that is 1 are 1. -/
theorem and_split (x y : IVec S_ 1) (h : andi x y ix0 = 1#1) : x ix0 = 1#1 ∧ y ix0 = 1#1 :=
  IntOp.andi_eq_one.1 h

/-- `all (|a| < +inf)` over a float array: every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_abs_lt (a i) (Host.reduce_andi_all _ _ hr hu ix0 h i)

/-- `all ((e >= 0) & (e < 1000))` over the edge array: every entry, read unsigned, is below 1000. -/
theorem edge_lt (a3 : IVec S2x32000 32)
    (hb : S_.BroadcastsInDim S2x32000 (![] : Fin 0 → Fin S2x32000.rank))
    (hr : S2x32000.ReducesTo [0, 1] S_) (hu : 0 < S_.numel)
    (h : Host.reduce IntOp.andi
          (andi (cmpi .sge a3 (broadcastInDim S2x32000 ![] hb (constantI S_ 32 0#32)))
                (cmpi .slt a3 (broadcastInDim S2x32000 ![] hb (constantI S_ 32 1000#32))))
          (constantI S_ 1 1#1) hr hu ix0 = 1#1) (i : S2x32000.Idx) : (a3 i).toNat < 1000 := by
  have e := Host.reduce_andi_all _ _ hr hu ix0 h i
  have e' : IntOp.andi (IntOp.cmpi .sge (a3 i) 0#32) (IntOp.cmpi .slt (a3 i) 1000#32) = 1#1 := e
  obtain ⟨h0, h1⟩ := IntOp.andi_eq_one.1 e'
  exact toNat_lt_of _ (IntOp.cmpi_sge.1 h0) (IntOp.cmpi_slt.1 h1)

variable [Cert.Pre_finite_inputs.Facts]

/-- THE PRECONDITION DECODED: every entry of each float argument is a real number, and every entry of the
    edge array is below 1000 (read unsigned). -/
theorem of_pre
    (a0 : FVec Ideal S256x800 .f32) (a1 : FVec Ideal S256x200 .f32) (a2 : FVec Ideal S1000x300 .f32)
    (a3 : IVec S2x32000 32) (a4 : FVec Ideal S128x300 .f32) (a5 : FVec Ideal S128 .f32)
    (a6 : FVec Ideal S128x128 .f32) (a7 : FVec Ideal S128 .f32) (a8 : FVec Ideal S128x128 .f32)
    (a9 : FVec Ideal S128 .f32) (a10 : FVec Ideal S128x128 .f32) (a11 : FVec Ideal S128 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal))
    ∧ (∀ i, (a3 i).toNat < 1000) := by
  have e := congrFun h ix0
  dsimp only [Cert.Pre_finite_inputs.fn, fn_part1, fn_part2, fn_part3] at e
  obtain ⟨e, k3⟩ := and_split _ _ e
  obtain ⟨e, k11⟩ := and_split _ _ e
  obtain ⟨e, k10⟩ := and_split _ _ e
  obtain ⟨e, k9⟩ := and_split _ _ e
  obtain ⟨e, k8⟩ := and_split _ _ e
  obtain ⟨e, k7⟩ := and_split _ _ e
  obtain ⟨e, k6⟩ := and_split _ _ e
  obtain ⟨e, k5⟩ := and_split _ _ e
  obtain ⟨e, k4⟩ := and_split _ _ e
  obtain ⟨e, k2⟩ := and_split _ _ e
  obtain ⟨k0, k1⟩ := and_split _ _ e
  exact ⟨all_real a0 _ _ _ k0, all_real a1 _ _ _ k1, all_real a2 _ _ _ k2, all_real a4 _ _ _ k4,
    all_real a5 _ _ _ k5, all_real a6 _ _ _ k6, all_real a7 _ _ _ k7, all_real a8 _ _ _ k8,
    all_real a9 _ _ _ k9, all_real a10 _ _ _ k10, all_real a11 _ _ _ k11, edge_lt a3 _ _ _ k3⟩

end Cert.PreFacts

end
-- ==== Proof.PreFactsDefs.lean ====
/-
  The precondition's content in the form the claims state it: for a memory of which the precondition holds,
  on every device, every entry of each float argument array is a real number and every entry of the edge
  array is below 1000 (read unsigned).  Both are the decoded precondition at the arrays the memory holds.
-/
import proofs.«131067_j1941325218075_2_alg».proof.Defs
import proofs.«131067_j1941325218075_2_alg».proof.Proof.PreFacts

noncomputable section

namespace Cert.PreFacts

open Idealize.ShloMosaic Idealize.SL.Sem

variable [Cert.Pre_finite_inputs.Facts]

/-- The decoded precondition at the first program's argument arrays. -/
theorem of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, (m ((c.tc : Thread Cert.KernelIdeal.nD Cert.KernelIdeal.τ).loc Cert.KernelIdeal.main_arg3) i).toNat < 1000) :=
  of_pre
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (h c)

/-- The decoded precondition at the second program's argument arrays. -/
theorem of_pre_referenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
    ∧ (∀ i, ∃ r : ℝ, m ((c.tc : Thread Cert.ReferenceIdeal.nD Cert.ReferenceIdeal.τ).loc Cert.ReferenceIdeal.main_arg1) i = (r : EReal))
    ∧ (∀ i, ∃ r : ℝ, m ((c.tc : Thread Cert.ReferenceIdeal.nD Cert.ReferenceIdeal.τ).loc Cert.ReferenceIdeal.main_arg2) i = (r : EReal))
    ∧ (∀ i, ∃ r : ℝ, m ((c.tc : Thread Cert.ReferenceIdeal.nD Cert.ReferenceIdeal.τ).loc Cert.ReferenceIdeal.main_arg4) i = (r : EReal))
    ∧ (∀ i, ∃ r : ℝ, m ((c.tc : Thread Cert.ReferenceIdeal.nD Cert.ReferenceIdeal.τ).loc Cert.ReferenceIdeal.main_arg5) i = (r : EReal))
    ∧ (∀ i, ∃ r : ℝ, m ((c.tc : Thread Cert.ReferenceIdeal.nD Cert.ReferenceIdeal.τ).loc Cert.ReferenceIdeal.main_arg6) i = (r : EReal))
    ∧ (∀ i, ∃ r : ℝ, m ((c.tc : Thread Cert.ReferenceIdeal.nD Cert.ReferenceIdeal.τ).loc Cert.ReferenceIdeal.main_arg7) i = (r : EReal))
    ∧ (∀ i, ∃ r : ℝ, m ((c.tc : Thread Cert.ReferenceIdeal.nD Cert.ReferenceIdeal.τ).loc Cert.ReferenceIdeal.main_arg8) i = (r : EReal))
    ∧ (∀ i, ∃ r : ℝ, m ((c.tc : Thread Cert.ReferenceIdeal.nD Cert.ReferenceIdeal.τ).loc Cert.ReferenceIdeal.main_arg9) i = (r : EReal))
    ∧ (∀ i, ∃ r : ℝ, m ((c.tc : Thread Cert.ReferenceIdeal.nD Cert.ReferenceIdeal.τ).loc Cert.ReferenceIdeal.main_arg10) i = (r : EReal))
    ∧ (∀ i, ∃ r : ℝ, m ((c.tc : Thread Cert.ReferenceIdeal.nD Cert.ReferenceIdeal.τ).loc Cert.ReferenceIdeal.main_arg11) i = (r : EReal))
    ∧ (∀ i, (m ((c.tc : Thread Cert.ReferenceIdeal.nD Cert.ReferenceIdeal.τ).loc Cert.ReferenceIdeal.main_arg3) i).toNat < 1000) :=
  of_pre
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))
    (h c)

end Cert.PreFacts

end
-- ==== Proof.TileLayout.lean ====
/-
  Layout operations of the fused tile, read at an index given by coordinates.

  The tile works on a block of 16 batch rows.  Its first layer is formed on the rank-3 shape
  [16, 1000, 128] (row, node, feature) from three broadcasts: the block of inputs [16, 1000] along a new
  trailing unit axis, the embedded table [1000, 128] along a new leading unit axis, and a bias row
  [1, 128] along two new leading unit axes.  The two later layers are matrix products on the flattened
  shape [16000, 128], whose row (r, d) is row number 1000 r + d; the result is folded back to rank 3.
  Each lemma below says which entry of its operand such an operation reads.
-/
import Idealize.ShloMosaic.Lib.ValueLayout

namespace Cert.KernelIdeal.TileValue

open Idealize.ShloMosaic Idealize.ShloMosaic.ValueIdx

variable {α : Type}

/-- Row number of node `d` of block row `r` in the flattened [16000, 128] array. -/
def flatRow (r : Fin 16) (d : Fin 1000) : Fin 16000 := ⟨r.val * 1000 + d.val, by omega⟩

theorem flatRow_val (r : Fin 16) (d : Fin 1000) : (flatRow r d).val = r.val * 1000 + d.val := rfl

/-- A [16, 1000] array with a trailing unit axis added reads, at (r, d, u), the operand at (r, d). -/
theorem cast_rd_rd1 (x : (⟨2, ![16, 1000]⟩ : Shape).Idx → α)
    (h : (⟨2, ![16, 1000]⟩ : Shape).ShapeCasts ⟨3, ![16, 1000, 1]⟩) (r : Fin 16) (d : Fin 1000) (u : Fin 1) :
    shapeCast ⟨3, ![16, 1000, 1]⟩ x h (ix3 r d u) = x (ix2 r d) :=
  shapeCast_apply x h _ _ (by
    have hu : u.val = 0 := by omega
    rw [Shape.rowMajor_val_three, Shape.rowMajor_val_two]
    show r.val * 1000 + d.val = (r.val * 1000 + d.val) * 1 + u.val
    rw [hu, Nat.mul_one, Nat.add_zero])

/-- The [16, 1000, 1] array broadcast along the feature axis reads, at (r, d, j), the operand at (r, d, 0). -/
theorem bcast_rd1 (v : (⟨3, ![16, 1000, 1]⟩ : Shape).Idx → α)
    (h : (⟨3, ![16, 1000, 1]⟩ : Shape).Broadcasts ⟨3, ![16, 1000, 128]⟩) (r : Fin 16) (d : Fin 1000) (j : Fin 128) :
    broadcastTo ⟨3, ![16, 1000, 128]⟩ v h (ix3 r d j) = v (ix3 r d (0 : Fin 1)) := by
  refine broadcastTo_apply v h (ix3 r d j) (ix3 r d (0 : Fin 1)) fun ax => ?_
  match ax with
  | ⟨0, _⟩ => rfl
  | ⟨1, _⟩ => rfl
  | ⟨2, _⟩ => rfl

/-- The [1, 1000, 128] array broadcast along the row axis reads, at (r, d, j), the operand at (0, d, j). -/
theorem bcast_1dj (v : (⟨3, ![1, 1000, 128]⟩ : Shape).Idx → α)
    (h : (⟨3, ![1, 1000, 128]⟩ : Shape).Broadcasts ⟨3, ![16, 1000, 128]⟩) (r : Fin 16) (d : Fin 1000) (j : Fin 128) :
    broadcastTo ⟨3, ![16, 1000, 128]⟩ v h (ix3 r d j) = v (ix3 (0 : Fin 1) d j) := by
  refine broadcastTo_apply v h (ix3 r d j) (ix3 (0 : Fin 1) d j) fun ax => ?_
  match ax with
  | ⟨0, _⟩ => rfl
  | ⟨1, _⟩ => rfl
  | ⟨2, _⟩ => rfl

/-- The [1, 1, 128] array broadcast along rows and nodes reads, at (r, d, j), the operand at (0, 0, j). -/
theorem bcast_11j (v : (⟨3, ![1, 1, 128]⟩ : Shape).Idx → α)
    (h : (⟨3, ![1, 1, 128]⟩ : Shape).Broadcasts ⟨3, ![16, 1000, 128]⟩) (r : Fin 16) (d : Fin 1000) (j : Fin 128) :
    broadcastTo ⟨3, ![16, 1000, 128]⟩ v h (ix3 r d j) = v (ix3 (0 : Fin 1) (0 : Fin 1) j) := by
  refine broadcastTo_apply v h (ix3 r d j) (ix3 (0 : Fin 1) (0 : Fin 1) j) fun ax => ?_
  match ax with
  | ⟨0, _⟩ => rfl
  | ⟨1, _⟩ => rfl
  | ⟨2, _⟩ => rfl

/-- The rank-3 array flattened to [16000, 128] reads, at (1000 r + d, j), the operand at (r, d, j). -/
theorem cast_flat (x : (⟨3, ![16, 1000, 128]⟩ : Shape).Idx → α)
    (h : (⟨3, ![16, 1000, 128]⟩ : Shape).ShapeCasts ⟨2, ![16000, 128]⟩) (r : Fin 16) (d : Fin 1000) (j : Fin 128) :
    shapeCast ⟨2, ![16000, 128]⟩ x h (ix2 (flatRow r d) j) = x (ix3 r d j) :=
  shapeCast_apply x h _ _ (by
    rw [Shape.rowMajor_val_three, Shape.rowMajor_val_two]
    rfl)

/-- The [16000, 128] array folded back to rank 3 reads, at (r, d, j), the operand at (1000 r + d, j). -/
theorem cast_fold (x : (⟨2, ![16000, 128]⟩ : Shape).Idx → α)
    (h : (⟨2, ![16000, 128]⟩ : Shape).ShapeCasts ⟨3, ![16, 1000, 128]⟩) (r : Fin 16) (d : Fin 1000) (j : Fin 128) :
    shapeCast ⟨3, ![16, 1000, 128]⟩ x h (ix3 r d j) = x (ix2 (flatRow r d) j) :=
  shapeCast_apply x h _ _ (by
    rw [Shape.rowMajor_val_three, Shape.rowMajor_val_two]
    rfl)

end Cert.KernelIdeal.TileValue
-- ==== Proof.TileMatmul.lean ====
/-
  The tile's matrix product read at an index.

  Both later layers multiply the flattened [16000, 128] activations by a [128, 128] weight matrix,
  contracting the activations' feature axis with the weights' first axis, into a zero accumulator:
  entry (n, j) of the product is the sum over k of a[n, k] * b[k, j].
-/
import proofs.«131067_j1941325218075_2_alg».proof.Proof.Gen.KernelIdeal.Skeleton
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx

/-- The dimension record of the tile's two products. -/
abbrev tdot : DotDims S16000x128 S128x128 S16000x128 := dot_S16000x128_S128x128_S16000x128_1_0_0_1_n_n

theorem tdot_lhs0 (i : S16000x128.Idx) (q : tdot.contr.Idx) : (tdot.lhsIdx i q 0).val = (i 0).val := by
  unfold DotDims.lhsIdx
  rw [dif_neg (show ¬(0 : Fin S16000x128.rank) ∈ tdot.lhsBatch by decide),
    dif_pos (show (0 : Fin S16000x128.rank) ∈ tdot.lhsNonContracting by decide)]
  rfl

theorem tdot_lhs1 (i : S16000x128.Idx) (q : tdot.contr.Idx) : (tdot.lhsIdx i q 1).val = (q ⟨0, by decide⟩).val :=
  tdot.lhsIdx_val_of_single rfl i q

theorem tdot_rhs0 (i : S16000x128.Idx) (q : tdot.contr.Idx) : (tdot.rhsIdx i q 0).val = (q ⟨0, by decide⟩).val :=
  tdot.rhsIdx_val_of_single rfl i q

theorem tdot_rhs1 (i : S16000x128.Idx) (q : tdot.contr.Idx) : (tdot.rhsIdx i q 1).val = (i 1).val := by
  unfold DotDims.rhsIdx
  rw [dif_neg (show ¬(1 : Fin S128x128.rank) ∈ tdot.rhsBatch by decide),
    dif_pos (show (1 : Fin S128x128.rank) ∈ tdot.rhsNonContracting by decide)]
  rfl

/-- Entry (n, j) of the product into the zero accumulator: the sum over k of a[n, k] * b[k, j]. -/
theorem matmul_at {φ₁ φ₂ : FTy} (a : FVec Ideal S16000x128 φ₁) (b : FVec Ideal S128x128 φ₂) (n : Fin 16000) (j : Fin 128) :
    matmul tdot none a b (constant (F := Ideal) S16000x128 .f32 0x00000000#32) (ix2 n j)
      = ∑ k : Fin 128, a (ix2 n k) * b (ix2 k j) := by
  show FloatOps.matmul tdot none a b (constant (F := Ideal) S16000x128 .f32 0x00000000#32) (ix2 n j) = _
  rw [Ideal.matmul_constant_zero_apply, ← Equiv.sum_comp (contrEquiv1 tdot 128 rfl rfl).symm]
  refine Finset.sum_congr rfl fun k _ => ?_
  have hk := contrEquiv1_symm_val tdot 128 rfl rfl k
  have el : tdot.lhsIdx (ix2 n j) ((contrEquiv1 tdot 128 rfl rfl).symm k) = ix2 n k := funext fun c => Fin.ext (by
    match c with
    | ⟨0, _⟩ => exact tdot_lhs0 _ _
    | ⟨1, _⟩ => exact (tdot_lhs1 _ _).trans hk)
  have er : tdot.rhsIdx (ix2 n j) ((contrEquiv1 tdot 128 rfl rfl).symm k) = ix2 k j := funext fun c => Fin.ext (by
    match c with
    | ⟨0, _⟩ => exact (tdot_rhs0 _ _).trans hk
    | ⟨1, _⟩ => exact tdot_rhs1 _ _)
  rw [el, er]

end Cert.KernelIdeal.TileValue

end
-- ==== Proof.TilePay2.lean ====
/-
  The tile's three layers at one entry.

  For block row r, node d and feature j the body forms
    h1[k] = max (x[r, d] * ew[d, k] + b0[0, k]) 0,
    h2[k] = max (sum over i of h1[i] * w1[i, k] + b1[0, k]) 0,
    h3[j] = max (sum over k of h2[k] * w2[k, j] + b2[0, j]) 0,
  the first on the rank-3 shape, the two products on the flattened shape (the narrowing of the
  products' operands is the identity on the extended reals), and folds the result back to rank 3.
-/
import proofs.«131067_j1941325218075_2_alg».proof.Proof.TileLayout
import proofs.«131067_j1941325218075_2_alg».proof.Proof.TileMatmul

noncomputable section

namespace Cert.KernelIdeal.TileValue

open Cert.KernelIdeal Cert.KernelIdeal.Gen Idealize.ShloMosaic Idealize.ShloMosaic.ValueIdx

/-- The first layer at entry (1000 r + d, k) of the flattened array:
    max (x[r, d] * ew[d, k] + b0[0, k]) 0. -/
theorem first_at (v0 : Vec Ideal S16x1000 .f32) (v2 : Vec Ideal S1000x128 .f32) (v4 : Vec Ideal S1x128 .f32)
    (c0 : S16x1000.ShapeCasts S16x1000) (c1 : S16x1000.ShapeCasts S16x1000x1) (g0 : S16x1000x1.Broadcasts S16x1000x128)
    (c2 : S1000x128.ShapeCasts S1000x128) (c3 : S1000x128.ShapeCasts S1x1000x128) (g1 : S1x1000x128.Broadcasts S16x1000x128)
    (c4 : S1x128.ShapeCasts S1x128) (c5 : S1x128.ShapeCasts S1x1x128) (g2 : S1x1x128.Broadcasts S16x1000x128)
    (c6 : S16x1000x128.ShapeCasts S16000x128)
    (r : Fin 16) (d : Fin 1000) (k : Fin 128) :
    shapeCast S16000x128
      (maximumf
        (addf
          (mulf
            (broadcastTo S16x1000x128 (shapeCast S16x1000x1 (shapeCast S16x1000 v0 c0) c1) g0)
            (broadcastTo S16x1000x128 (shapeCast S1x1000x128 (shapeCast S1000x128 v2 c2) c3) g1))
          (broadcastTo S16x1000x128 (shapeCast S1x1x128 (shapeCast S1x128 v4 c4) c5) g2))
        (broadcast S16x1000x128 (Scalar.ofBits (F := Ideal) .f32 0x00000000#32)) : FVec Ideal S16x1000x128 .f32)
      c6 (ix2 (flatRow r d) k)
      = max (v0 (ix2 r d) * v2 (ix2 d k) + v4 (ix2 (0 : Fin 1) k)) 0 := by
  refine (cast_flat _ _ r d k).trans ?_
  show max (broadcastTo S16x1000x128 _ _ (ix3 r d k) * broadcastTo S16x1000x128 _ _ (ix3 r d k)
      + broadcastTo S16x1000x128 _ _ (ix3 r d k)) (Ideal.ofBits .f32 0x00000000#32) = _
  rw [bcast_rd1, bcast_1dj, bcast_11j, cast_rd_rd1, shapeCast_ab_1ab_apply, shapeCast_ab_1ab_apply,
    shapeCast_self, shapeCast_self, shapeCast_self, Ideal.ofBits_zero_f32]

/-- A later layer at entry (n, j) of the flattened array:
    max (sum over k of a[n, k] * w[k, j] + b[0, j]) 0. -/
theorem layer_at (a : FVec Ideal S16000x128 .f32) (w : Vec Ideal S128x128 .f32) (b : Vec Ideal S1x128 .f32)
    (hb : FTy.bits .bf16 < FTy.bits .f32)
    (c0 : S128x128.ShapeCasts S128x128) (c1 : S1x128.ShapeCasts S1x128) (g : S1x128.Broadcasts S16000x128)
    (n : Fin 16000) (j : Fin 128) :
    (maximumf
      (addf
        (matmul tdot none (truncf .bf16 a hb) (truncf .bf16 (shapeCast S128x128 w c0) hb)
          (constant (F := Ideal) S16000x128 .f32 0x00000000#32))
        (broadcastTo S16000x128 (shapeCast S1x128 b c1) g))
      (broadcast S16000x128 (Scalar.ofBits (F := Ideal) .f32 0x00000000#32)) : FVec Ideal S16000x128 .f32) (ix2 n j)
      = max ((∑ k : Fin 128, a (ix2 n k) * w (ix2 k j)) + b (ix2 (0 : Fin 1) j)) 0 := by
  show max (matmul tdot none _ _ _ (ix2 n j) + broadcastTo S16000x128 _ _ (ix2 n j)) (Ideal.ofBits .f32 0x00000000#32) = _
  rw [matmul_at, broadcastTo_1b_ab_apply, shapeCast_self, shapeCast_self, Ideal.ofBits_zero_f32]
  rfl

/-- The three layers at entry (r, d, j) of the rank-3 result. -/
def layers (v0 : Vec Ideal S16x1000 .f32) (v2 : Vec Ideal S1000x128 .f32) (v4 : Vec Ideal S1x128 .f32)
    (v17 : Vec Ideal S128x128 .f32) (v19 : Vec Ideal S1x128 .f32) (v28 : Vec Ideal S128x128 .f32) (v30 : Vec Ideal S1x128 .f32)
    (r : Fin 16) (d : Fin 1000) (j : Fin 128) : EReal :=
  max ((∑ k : Fin 128,
      max ((∑ i : Fin 128, max (v0 (ix2 r d) * v2 (ix2 d i) + v4 (ix2 (0 : Fin 1) i)) 0 * v17 (ix2 i k))
        + v19 (ix2 (0 : Fin 1) k)) 0 * v28 (ix2 k j)) + v30 (ix2 (0 : Fin 1) j)) 0

/-- The body's rank-3 payload at (r, d, j) is the three layers there. -/
theorem pay2_at (v0 : Vec Ideal S16x1000 .f32) (v2 : Vec Ideal S1000x128 .f32) (v4 : Vec Ideal S1x128 .f32)
    (v17 : Vec Ideal S128x128 .f32) (v19 : Vec Ideal S1x128 .f32) (v28 : Vec Ideal S128x128 .f32) (v30 : Vec Ideal S1x128 .f32)
    (r : Fin 16) (d : Fin 1000) (j : Fin 128) :
    k0_pay2 (F := Ideal) v0 v2 v4 v17 v19 v28 v30 (ix3 r d j) = layers v0 v2 v4 v17 v19 v28 v30 r d j := by
  unfold k0_pay2 layers
  refine (cast_fold _ _ r d j).trans ?_
  refine (layer_at _ v28 v30 _ _ _ _ (flatRow r d) j).trans ?_
  refine congrArg (fun s => max (s + v30 (ix2 (0 : Fin 1) j)) 0) (Finset.sum_congr rfl fun k _ => ?_)
  refine congrArg (fun s => s * v28 (ix2 k j)) ?_
  refine (layer_at _ v17 v19 _ _ _ _ (flatRow r d) k).trans ?_
  refine congrArg (fun s => max (s + v19 (ix2 (0 : Fin 1) k)) 0) (Finset.sum_congr rfl fun i _ => ?_)
  refine congrArg (fun s => s * v17 (ix2 i k)) ?_
  exact first_at v0 v2 v4 _ _ _ _ _ _ _ _ _ _ r d i

/-- The sum over the node axis of a rank-3 array, at (r, j): the sum over d of the entries (r, d, j). -/
theorem lane_sum (v : FVec Ideal S16x1000x128 .f32) (h : S16x1000x128.Reduces [1] S16x128) (hφ : FKind.Formats .f32)
    (hacc : (0x00000000#32 : BitVec 32) = FKind.add.neutral .f32 hφ) (r : Fin 16) (j : Fin 128) :
    multiReduction .add [1] S16x128 v 0x00000000#32 h hφ hacc (ix2 r j) = ∑ d : Fin 1000, v (ix3 r d j) := by
  refine (Ideal.multiReduction_add_single v _ h hφ hacc (ix2 r j)).trans ?_
  show ∑ d : Fin 1000, v (h.lift (ix2 r j) d) = _
  refine Finset.sum_congr rfl fun d _ => congrArg v (funext fun a => Fin.ext ?_)
  match a with
  | ⟨0, _⟩ => rfl
  | ⟨1, _⟩ => rfl
  | ⟨2, _⟩ => rfl

/-- The body's stored payload at (r, j): the sum over the nodes divided by the constant 1000.0. -/
theorem pay1_at (v39 : FVec Ideal S16x1000x128 .f32) (r : Fin 16) (j : Fin 128) :
    k0_pay1 (F := Ideal) v39 (ix2 r j)
      = Ideal.div (∑ d : Fin 1000, v39 (ix3 r d j)) (Ideal.ofBits .f32 0x447A0000#32) := by
  unfold k0_pay1
  exact congrArg (fun s => Ideal.div s (Ideal.ofBits .f32 0x447A0000#32)) (lane_sum v39 _ _ _ r j)

/-- What the body stores at (r, j), from the blocks it loads. -/
theorem body_at (v0 : Vec Ideal S16x1000 .f32) (v2 : Vec Ideal S1000x128 .f32) (v4 : Vec Ideal S1x128 .f32)
    (v17 : Vec Ideal S128x128 .f32) (v19 : Vec Ideal S1x128 .f32) (v28 : Vec Ideal S128x128 .f32) (v30 : Vec Ideal S1x128 .f32)
    (r : Fin 16) (j : Fin 128) :
    k0_pay1 (F := Ideal) (k0_pay2 (F := Ideal) v0 v2 v4 v17 v19 v28 v30) (ix2 r j)
      = Ideal.div (∑ d : Fin 1000, layers v0 v2 v4 v17 v19 v28 v30 r d j) (Ideal.ofBits .f32 0x447A0000#32) :=
  (pay1_at _ r j).trans (congrArg (fun s => Ideal.div s (Ideal.ofBits .f32 0x447A0000#32))
    (Finset.sum_congr rfl fun d _ => pay2_at v0 v2 v4 v17 v19 v28 v30 r d j))

end Cert.KernelIdeal.TileValue

end
-- ==== Proof.TileBlock.lean ====
/-
  The blocks the tile reads at a grid point.

  The grid has 16 points.  At point t the tile reads rows 16 t .. 16 t + 15 of the padded inputs
  (a [16, 1000] block) and writes the same rows of its [256, 128] result; the six other operands
  (the embedded table, the two transposed weight matrices, the three bias rows) are read whole at
  every point.
-/
import proofs.«131067_j1941325218075_2_alg».proof.Proof.Gen.KernelIdeal.Frame
import Idealize.ShloMosaic.Lib.ValueIdx

noncomputable section

namespace Cert.KernelIdeal.TileValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The printed index maps over the grid: the input block and the output block move with the point
    along the rows, every other operand stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row number, in a 256-row array, of row r of the block of point t. -/
def blockRow (t : Fin cfg0.N) (r : Fin 16) : Fin 256 :=
  ⟨16 * t.val + r.val, by have : t.val < 16 := lt_of_lt_of_eq t.isLt N_0; omega⟩

theorem blockRow_val (t : Fin cfg0.N) (r : Fin 16) : (blockRow t r).val = 16 * t.val + r.val := rfl

/-- The block of padded inputs at point t: entry (r, d) is entry (16 t + r, d) of the array. -/
theorem blk_x (c : Dev nD) (t : Fin cfg0.N) (r : Fin 16) (d : Fin 1000) :
    (iblk m c 0 t : Vec Ideal S16x1000 .f32) (ix2 r d)
      = (V m c main_v86 : S256x1000.Idx → EReal) (ix2 (blockRow t r) d) := by
  obtain ⟨e0, e1, -⟩ := idx_facts t
  unfold iblk
  rw [View.read_apply]
  show (V m c main_v86 : S256x1000.Idx → EReal) (((cfg0.win 0).blk t).view.emb (ix2 r d)) = _
  refine congrArg (V m c main_v86 : S256x1000.Idx → EReal) (funext fun a => Fin.ext ?_)
  match a with
  | ⟨0, _⟩ => show win0_0.index t (0 : Fin 2) * 16 + 1 * r.val = 16 * t.val + r.val; rw [e0]; omega
  | ⟨1, _⟩ => show win0_0.index t (1 : Fin 2) * 1000 + 1 * d.val = d.val; rw [e1]; omega

/-- The embedded table is read whole at every point. -/
theorem blk_ew (c : Dev nD) (t : Fin cfg0.N) :
    (iblk m c 1 t : Vec Ideal S1000x128 .f32) = (V m c main_v7 : S1000x128.Idx → EReal) := by
  obtain ⟨-, -, e0, e1, -⟩ := idx_facts t
  funext y
  unfold iblk
  rw [View.read_apply]
  show (V m c main_v7 : S1000x128.Idx → EReal) (((cfg0.win 1).blk t).view.emb y) = _
  refine congrArg (V m c main_v7 : S1000x128.Idx → EReal) (funext fun a => Fin.ext ?_)
  match a with
  | ⟨0, _⟩ => show win0_1.index t (0 : Fin 2) * 1000 + 1 * (y 0).val = (y 0).val; rw [e0]; omega
  | ⟨1, _⟩ => show win0_1.index t (1 : Fin 2) * 128 + 1 * (y 1).val = (y 1).val; rw [e1]; omega

/-- The first bias row is read whole at every point. -/
theorem blk_b0 (c : Dev nD) (t : Fin cfg0.N) :
    (iblk m c 2 t : Vec Ideal S1x128 .f32) = (V m c main_v87 : S1x128.Idx → EReal) := by
  obtain ⟨-, -, -, -, e0, e1, -⟩ := idx_facts t
  funext y
  unfold iblk
  rw [View.read_apply]
  show (V m c main_v87 : S1x128.Idx → EReal) (((cfg0.win 2).blk t).view.emb y) = _
  refine congrArg (V m c main_v87 : S1x128.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second layer's transposed weights are read whole at every point. -/
theorem blk_w1 (c : Dev nD) (t : Fin cfg0.N) :
    (iblk m c 3 t : Vec Ideal S128x128 .f32) = (V m c main_v90 : S128x128.Idx → EReal) := by
  obtain ⟨-, -, -, -, -, -, e0, e1, -⟩ := idx_facts t
  funext y
  unfold iblk
  rw [View.read_apply]
  show (V m c main_v90 : S128x128.Idx → EReal) (((cfg0.win 3).blk t).view.emb y) = _
  refine congrArg (V m c main_v90 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias row is read whole at every point. -/
theorem blk_b1 (c : Dev nD) (t : Fin cfg0.N) :
    (iblk m c 4 t : Vec Ideal S1x128 .f32) = (V m c main_v88 : S1x128.Idx → EReal) := by
  obtain ⟨-, -, -, -, -, -, -, -, e0, e1, -⟩ := idx_facts t
  funext y
  unfold iblk
  rw [View.read_apply]
  show (V m c main_v88 : S1x128.Idx → EReal) (((cfg0.win 4).blk t).view.emb y) = _
  refine congrArg (V m c main_v88 : S1x128.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The third layer's transposed weights are read whole at every point. -/
theorem blk_w2 (c : Dev nD) (t : Fin cfg0.N) :
    (iblk m c 5 t : Vec Ideal S128x128 .f32) = (V m c main_v91 : S128x128.Idx → EReal) := by
  obtain ⟨-, -, -, -, -, -, -, -, -, -, e0, e1, -⟩ := idx_facts t
  funext y
  unfold iblk
  rw [View.read_apply]
  show (V m c main_v91 : S128x128.Idx → EReal) (((cfg0.win 5).blk t).view.emb y) = _
  refine congrArg (V m c main_v91 : S128x128.Idx → EReal) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The third bias row is read whole at every point. -/
theorem blk_b2 (c : Dev nD) (t : Fin cfg0.N) :
    (iblk m c 6 t : Vec Ideal S1x128 .f32) = (V m c main_v89 : S1x128.Idx → EReal) := by
  obtain ⟨-, -, -, -, -, -, -, -, -, -, -, -, e0, e1, -⟩ := idx_facts t
  funext y
  unfold iblk
  rw [View.read_apply]
  show (V m c main_v89 : S1x128.Idx → EReal) (((cfg0.win 6).blk t).view.emb y) = _
  refine congrArg (V m c main_v89 : S1x128.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Entry (r, j) of the output block of point t is entry (16 t + r, j) of the result array. -/
theorem emb_out (t : Fin cfg0.N) (r : Fin 16) (j : Fin 128) :
    (((cfg0.win 7).blk t).view.emb (ix2 r j) : S256x128.Idx) = ix2 (blockRow t r) j := by
  obtain ⟨-, -, -, -, -, -, -, -, -, -, -, -, -, -, e0, e1⟩ := idx_facts t
  funext a
  apply Fin.ext
  match a with
  | ⟨0, _⟩ => show win0_7.index t (0 : Fin 2) * 16 + 1 * r.val = 16 * t.val + r.val; rw [e0]; omega
  | ⟨1, _⟩ => show win0_7.index t (1 : Fin 2) * 128 + 1 * j.val = j.val; rw [e1]; omega

/-- An index of the result array is in point t's block iff each coordinate is in the block's range. -/
theorem mem_blk (t : Fin cfg0.N) (i : S256x128.Idx) :
    i ∈ ((cfg0.win 7).blk t).view.set ↔ ∀ a : Fin 2, win0_7.index t a * S16x128.size a ≤ (i a).val
      ∧ (i a).val < win0_7.index t a * S16x128.size a + S16x128.size a := by
  show i ∈ ((View.whole main_v92).slice (win0_7.rect t)).set ↔ _
  rw [View.set_slice_whole, Rect.mem_set_unit]
  exact Iff.rfl

/-- The 16 output blocks cover the result array: row i lies in the block of point i / 16. -/
theorem cover_out (i : S256x128.Idx) :
    ∃ t : Fin cfg0.N, (cfg0.win 7).flush t = true ∧ i ∈ ((cfg0.win 7).blk t).view.set := by
  have h0 : (i 0).val < 256 := (i 0).isLt
  have h1 : (i 1).val < 128 := (i 1).isLt
  have hN : cfg0.N = 16 := N_0
  refine ⟨⟨(i 0).val / 16, by rw [hN]; omega⟩, flush0_7 _, ?_⟩
  rw [mem_blk]
  obtain ⟨-, -, -, -, -, -, -, -, -, -, -, -, -, -, e0, e1⟩ :=
    idx_facts (⟨(i 0).val / 16, by rw [hN]; omega⟩ : Fin cfg0.N)
  intro a
  match a with
  | ⟨0, _⟩ =>
    show win0_7.index _ (0 : Fin 2) * 16 ≤ (i 0).val ∧ (i 0).val < win0_7.index _ (0 : Fin 2) * 16 + 16
    rw [e0]
    show (i 0).val / 16 * 16 ≤ (i 0).val ∧ (i 0).val < (i 0).val / 16 * 16 + 16
    omega
  | ⟨1, _⟩ =>
    show win0_7.index _ (1 : Fin 2) * 128 ≤ (i 1).val ∧ (i 1).val < win0_7.index _ (1 : Fin 2) * 128 + 128
    rw [e1]
    omega

end Cert.KernelIdeal.TileValue

end
-- ==== Proof.TileValue.lean ====
/-
  The fused tile's result array.

  Row p of the tile's [256, 128] result is, feature by feature, the sum over the 1000 nodes of the
  three dense layers of node (p, d), divided by the constant 1000.0: at every grid point the body
  stores that value for the 16 rows of its block, and the 16 blocks cover the array.
-/
import proofs.«131067_j1941325218075_2_alg».proof.Proof.TilePay2
import proofs.«131067_j1941325218075_2_alg».proof.Proof.TileBlock
import proofs.«131067_j1941325218075_2_alg».proof.Proof.Spec
import Idealize.ShloMosaic.Lib.Pipeline.Value

noncomputable section

namespace Cert.KernelIdeal.TileValue

open Idealize.ShloMosaic Idealize.ShloMosaic.TcCoe Idealize.SL.Sem Idealize.ShloMosaic.ValueIdx
open Idealize.ShloMosaic.Pipeline (Dat)
open Cert.KernelIdeal Cert.KernelIdeal.Gen

/-- The body's value at block entry (r, j) is the tile's output at row p of the whole arrays, when the
    block of inputs holds row p at its row r and the other operands are the whole arrays. -/
theorem tile_entry (c1000 : EReal) (v0 : Vec Ideal S16x1000 .f32) (v2 : Vec Ideal S1000x128 .f32) (v4 : Vec Ideal S1x128 .f32)
    (v17 : Vec Ideal S128x128 .f32) (v19 : Vec Ideal S1x128 .f32) (v28 : Vec Ideal S128x128 .f32) (v30 : Vec Ideal S1x128 .f32)
    (X : Cert.Gnn.A2 256 1000) (EW : Cert.Gnn.A2 1000 128) (B0 : Cert.Gnn.A2 1 128) (W1 : Cert.Gnn.A2 128 128)
    (B1 : Cert.Gnn.A2 1 128) (W2 : Cert.Gnn.A2 128 128) (B2 : Cert.Gnn.A2 1 128) (p : Fin 256) (r : Fin 16)
    (hx : ∀ d : Fin 1000, v0 (ix2 r d) = X (ix2 p d)) (h2 : v2 = EW) (h4 : v4 = B0) (h17 : v17 = W1) (h19 : v19 = B1)
    (h28 : v28 = W2) (h30 : v30 = B2) (j : Fin 128) :
    Ideal.div (∑ d : Fin 1000, layers v0 v2 v4 v17 v19 v28 v30 r d j) c1000
      = Cert.Gnn.tileOut c1000 X EW B0 W1 B1 W2 B2 p j := by
  subst h2 h4 h17 h19 h28 h30
  unfold Cert.Gnn.tileOut
  refine congrArg (fun s => Ideal.div s c1000) (Finset.sum_congr rfl fun d _ => ?_)
  unfold layers Cert.Gnn.tileLayer Cert.Gnn.tile1
  simp only [hx]

variable (m : (ℓ : Loc nD τ sig) → Buf (Elt Ideal) ℓ)

/-- The tile's result array, from the arrays the region finds. -/
def tileArr (c : Dev nD) : S256x128.Idx → EReal := fun i =>
  Cert.Gnn.tileOut (Ideal.ofBits .f32 0x447A0000#32) (V m c main_v86) (V m c main_v7) (V m c main_v87) (V m c main_v90) (V m c main_v88) (V m c main_v91) (V m c main_v89)
    ⟨(i 0).val, (i 0).isLt⟩ ⟨(i 1).val, (i 1).isLt⟩

theorem hz : (![0, 0] : Fin 2 → Nat) = fun _ => 0 := funext fun a => by fin_cases a <;> rfl

/-- What point t writes back is block t of the tile's result array. -/
theorem flushed_eq (c : Dev nD) (t : Fin cfg0.N) :
    (dats m 0 c).flushed 7 t = ((cfg0.win 7).blk t).view.read (Elt Ideal) (tileArr m c) := by
  show (cfg0.win 7).cut (grid0.coords t) ((dats m 0 c).after 7 t) = _
  rw [after0_7]
  unfold out0_7
  rw [View.canon_unit_zero hz]
  simp only [View.ld_unit_zero (S := S16x1000) hz, View.ld_unit_zero (S := S1000x128) hz,
    View.ld_unit_zero (S := S1x128) hz, View.ld_unit_zero (S := S128x128) hz]
  funext y
  obtain ⟨r, j, rfl⟩ : ∃ (r : Fin 16) (j : Fin 128), y = ix2 r j := ⟨y 0, y 1, eq_ix2 y⟩
  show k0_pay1 (k0_pay2 (iblk m c 0 t) (iblk m c 1 t) (iblk m c 2 t) (iblk m c 3 t) (iblk m c 4 t) (iblk m c 5 t) (iblk m c 6 t)) (ix2 r j)
    = tileArr m c (((cfg0.win 7).blk t).view.emb (ix2 r j))
  rw [emb_out]
  refine (body_at (iblk m c 0 t) (iblk m c 1 t) (iblk m c 2 t) (iblk m c 3 t) (iblk m c 4 t) (iblk m c 5 t) (iblk m c 6 t) r j).trans ?_
  exact tile_entry _ (iblk m c 0 t) (iblk m c 1 t) (iblk m c 2 t) (iblk m c 3 t) (iblk m c 4 t) (iblk m c 5 t) (iblk m c 6 t)
    (V m c main_v86) (V m c main_v7) (V m c main_v87) (V m c main_v90) (V m c main_v88) (V m c main_v91) (V m c main_v89)
    (blockRow t r) r (fun d => blk_x m c t r d) (blk_ew m c t) (blk_b0 m c t) (blk_w1 m c t) (blk_b1 m c t)
    (blk_w2 m c t) (blk_b2 m c t) j

/-- The tile's result array after the run. -/
theorem tile_arr_eq (c : Dev nD) : (dats m 0 c).arrAt 7 cfg0.N = tileArr m c :=
  (dats m 0 c).arrAt_eq_of_cover 7 (tileArr m c) (fun t _ => flushed_eq m c t) cover_out

/-- Entry (p, j) of the tile's result array after the run. -/
theorem tile_arr (c : Dev nD) (p : Fin 256) (j : Fin 128) :
    ((dats (F := Ideal) m 0 c).arrAt 7 cfg0.N : S256x128.Idx → EReal) (ix2 p j)
      = Cert.Gnn.tileOut (Ideal.ofBits .f32 0x447A0000#32) (V m c main_v86) (V m c main_v7) (V m c main_v87) (V m c main_v90) (V m c main_v88) (V m c main_v91) (V m c main_v89) p j :=
  congrFun (tile_arr_eq m c) (ix2 p j)

end Cert.KernelIdeal.TileValue

end
-- ==== Proof.KHostStep.lean ====
/-
  Reading one host operation of the line before the region at a time.

  The line is a list of operations in static single assignment form: the operation at position `n` writes one
  array, which no later operation writes, and reads arrays that no operation from position `n` on writes.  So the
  contents of its result after the WHOLE line are its function applied to the contents of its operands after the
  whole line.  The lemmas below say this for each arity of operation, for any line `ops` whose written references
  are listed (in order) by `wr`; the side conditions are then membership facts about a literal list of references.
-/
import proofs.«131067_j1941325218075_2_alg».proof.Proof.Gen.KernelIdeal.Frame
import Mathlib.Data.List.Forall2
import Idealize.ShloMosaic.PureOps.Ideal.Laws

noncomputable section

namespace Cert.KernelIdeal.HostValue

open Cert.KernelIdeal Cert.KernelIdeal.Gen Idealize.ShloMosaic Idealize.ShloMosaic.TcCoe Idealize.ShloMosaic.StableHlo

section Generic

variable {τ : Topo} {sig : RefSig} {Val : EltTy → Type}

/-- A reference no operation from position `n` on writes holds, after the line, what it held after the first `n`. -/
theorem after_keep (ops : List (HloOp τ sig Val)) (M : Valuation τ sig Val) (n : Nat) (b : DevRef τ sig)
    (h : ∀ o ∈ ops.drop n, b ∉ o.writes) : after ops M b = after (ops.take n) M b := by
  have e : after ops M = after (ops.drop n) (after (ops.take n) M) := by
    conv_lhs => rw [← List.take_append_drop n ops]
    exact StableHlo.after_append _ _ _
  rw [e]
  exact after_of_forall_not_mem _ _ h

/-- A reference that only the operation at position `n` writes, among those from `n` on, holds that operation's result. -/
theorem after_step (ops : List (HloOp τ sig Val)) (M : Valuation τ sig Val) (n : Nat) (op : HloOp τ sig Val)
    (hop : ops[n]? = some op) (b : DevRef τ sig) (h : ∀ o ∈ ops.drop (n + 1), b ∉ o.writes) :
    after ops M b = op.result (after (ops.take n) M) b := by
  rw [after_keep ops M (n + 1) b h, List.take_succ, hop, StableHlo.after_append]
  rfl

/-- `wr` lists, in order, the one reference each operation of `ops` writes. -/
def WritesAre (ops : List (HloOp τ sig Val)) (wr : List (Ref sig .tc)) : Prop :=
  List.Forall₂ (fun op r => op.writes = {Proc.devRef (τ := τ) .tc r}) ops wr

theorem WritesAre.not_mem {ops : List (HloOp τ sig Val)} {wr : List (Ref sig .tc)} (h : WritesAre ops wr)
    {r : Ref sig .tc} (hr : r ∉ wr) : ∀ o ∈ ops, Proc.devRef (τ := τ) .tc r ∉ o.writes := by
  unfold WritesAre at h
  induction h with
  | nil => intro o ho; cases ho
  | cons hab _ ih =>
    intro o ho
    rcases List.mem_cons.mp ho with rfl | ho
    · rw [hab, Finset.mem_singleton]
      exact devRef_ne_of_ne fun e => hr (e ▸ List.mem_cons_self)
    · exact ih (fun hm => hr (List.mem_cons_of_mem _ hm)) o ho

theorem WritesAre.drop {ops : List (HloOp τ sig Val)} {wr : List (Ref sig .tc)} (h : WritesAre ops wr) (n : Nat) :
    WritesAre (ops.drop n) (wr.drop n) := List.forall₂_drop n h

theorem WritesAre.append {l₁ l₂ : List (HloOp τ sig Val)} {w₁ w₂ : List (Ref sig .tc)} (h₁ : WritesAre l₁ w₁) (h₂ : WritesAre l₂ w₂) :
    WritesAre (l₁ ++ l₂) (w₁ ++ w₂) := by
  unfold WritesAre at *
  induction h₁ with
  | nil => exact h₂
  | cons hab _ ih => exact List.Forall₂.cons hab ih

variable {ops : List (HloOp τ sig Val)} {wr : List (Ref sig .tc)}

theorem step_nullary (hw : WritesAre ops wr) (M : Valuation τ sig Val) (n : Nat) {y : Ref sig .tc} {v : y.ty.Contents Val} {hy}
    (hop : ops[n]? = some (nullary y v hy)) (hy' : y ∉ wr.drop (n + 1)) :
    after ops M (Proc.devRef .tc y) = v := by
  rw [after_step ops M n _ hop _ ((hw.drop (n + 1)).not_mem hy'), nullary_result]

theorem step_unary (hw : WritesAre ops wr) (M : Valuation τ sig Val) (n : Nat) {x y : Ref sig .tc} {f : x.ty.Contents Val → y.ty.Contents Val} {hx hy}
    (hop : ops[n]? = some (unary x y f hx hy)) (hy' : y ∉ wr.drop (n + 1)) (hx' : x ∉ wr.drop n) :
    after ops M (Proc.devRef .tc y) = f (after ops M (Proc.devRef .tc x)) := by
  rw [after_step ops M n _ hop _ ((hw.drop (n + 1)).not_mem hy'), unary_result,
    after_keep ops M n _ ((hw.drop n).not_mem hx')]

theorem step_binary (hw : WritesAre ops wr) (M : Valuation τ sig Val) (n : Nat) {a b y : Ref sig .tc} {f : a.ty.Contents Val → b.ty.Contents Val → y.ty.Contents Val} {ha hb hy}
    (hop : ops[n]? = some (binary a b y f ha hb hy)) (hy' : y ∉ wr.drop (n + 1)) (ha' : a ∉ wr.drop n) (hb' : b ∉ wr.drop n) :
    after ops M (Proc.devRef .tc y) = f (after ops M (Proc.devRef .tc a)) (after ops M (Proc.devRef .tc b)) := by
  rw [after_step ops M n _ hop _ ((hw.drop (n + 1)).not_mem hy'), binary_result,
    after_keep ops M n (Proc.devRef .tc a) ((hw.drop n).not_mem ha'), after_keep ops M n (Proc.devRef .tc b) ((hw.drop n).not_mem hb')]

theorem step_ternary (hw : WritesAre ops wr) (M : Valuation τ sig Val) (n : Nat) {c a b y : Ref sig .tc}
    {f : c.ty.Contents Val → a.ty.Contents Val → b.ty.Contents Val → y.ty.Contents Val} {hc ha hb hy}
    (hop : ops[n]? = some (ternary c a b y f hc ha hb hy)) (hy' : y ∉ wr.drop (n + 1))
    (hc' : c ∉ wr.drop n) (ha' : a ∉ wr.drop n) (hb' : b ∉ wr.drop n) :
    after ops M (Proc.devRef .tc y)
      = f (after ops M (Proc.devRef .tc c)) (after ops M (Proc.devRef .tc a)) (after ops M (Proc.devRef .tc b)) := by
  rw [after_step ops M n _ hop _ ((hw.drop (n + 1)).not_mem hy'), ternary_result,
    after_keep ops M n (Proc.devRef .tc c) ((hw.drop n).not_mem hc'), after_keep ops M n (Proc.devRef .tc a) ((hw.drop n).not_mem ha'),
    after_keep ops M n (Proc.devRef .tc b) ((hw.drop n).not_mem hb')]

theorem step_reshape (hw : WritesAre ops wr) (M : Valuation τ sig Val) (n : Nat) {x y : Ref sig .tc} {he : x.ty.elt = y.ty.elt} {hn : x.ty.shape.ShapeCasts y.ty.shape} {hx hy}
    (hop : ops[n]? = some (reshape x y he hn hx hy)) (hy' : y ∉ wr.drop (n + 1)) (hx' : x ∉ wr.drop n) :
    after ops M (Proc.devRef .tc y) = fun i => he ▸ shapeCast y.ty.shape (after ops M (Proc.devRef .tc x)) hn i := by
  rw [after_step ops M n _ hop _ ((hw.drop (n + 1)).not_mem hy'), reshape_result,
    after_keep ops M n (Proc.devRef .tc x) ((hw.drop n).not_mem hx')]

end Generic

/-! ## This program's line -/

/-- The host operations before the region, as one list. -/
abbrev opsAll : List (HloOp τ sig (Elt Ideal)) :=
  List.flatten [hostOps0, hostOps0_1, hostOps0_2, hostOps0_3, hostOps0_4, hostOps0_5, hostOps0_6, hostOps0_7, hostOps0_8, hostOps0_9, hostOps0_10]

/-- The reference each operation writes, stretch by stretch, in order. -/
def wr0 : List (Ref sig .tc) :=
  main_v0 :: main_v1 :: main_v2 :: main_v3 :: main_v4 :: main_v5 :: main_v6 :: main_v7 ::
    main_v8 :: main_v9 :: main_v10 :: main_v11 :: main_v12 :: main_v13 :: main_cst :: main_v14 ::
    main_c :: main_v15 :: main_v16 :: main_c_0 :: main_v17 :: main_v18 :: main_v19 :: main_v20 ::
    main_cst_1 :: main_v21 :: main_v22 :: main_cst_2 :: main_v23 :: main_v24 :: main_c_3 :: main_v25 ::
    main_v26 :: main_c_4 :: main_v27 :: main_v28 :: main_v29 :: main_v30 :: main_v31 :: main_c_5 ::
    main_v32 :: main_v33 :: main_c_6 :: main_v34 :: main_v35 :: main_v36 :: main_v37 :: main_v38 ::
    main_v39 :: main_cst_7 :: main_v40 :: main_c_8 :: main_v41 :: main_v42 :: main_c_9 :: main_v43 ::
    main_v44 :: main_v45 :: main_c_10 :: main_v46 :: main_v47 :: main_c_11 :: main_v48 :: main_v49 ::
    main_v50 :: main_v51 :: main_v52 :: main_v53 :: main_v54 :: main_v55 :: []

set_option maxRecDepth 100000 in
theorem wr0_ok : WritesAre (τ := τ) (hostOps0 (F := Ideal)) wr0 := by
  unfold WritesAre wr0
  repeat' constructor

def wr1 : List (Ref sig .tc) :=
  main_call0_cst :: main_call0_v0 :: main_call0_v1 :: main_call0_v2 :: main_call0_c :: main_call0_v3 :: main_call0_v4 :: main_call0_v5 ::
    main_call0_v6 :: main_call0_cst_0 :: main_call0_call0_v0 :: main_call0_call0_v1 :: main_v56 :: []

set_option maxRecDepth 100000 in
theorem wr1_ok : WritesAre (τ := τ) (hostOps0_1 (F := Ideal)) wr1 := by
  unfold WritesAre wr1
  repeat' constructor

def wr2 : List (Ref sig .tc) :=
  main_v57 :: main_v58 :: main_v59 :: main_v60 :: main_v61 :: main_v62 :: main_v63 :: main_v64 ::
    main_v65 :: main_v66 :: []

set_option maxRecDepth 100000 in
theorem wr2_ok : WritesAre (τ := τ) (hostOps0_2 (F := Ideal)) wr2 := by
  unfold WritesAre wr2
  repeat' constructor

def wr3 : List (Ref sig .tc) :=
  main_call1_cst :: main_call1_v0 :: main_v67 :: []

set_option maxRecDepth 100000 in
theorem wr3_ok : WritesAre (τ := τ) (hostOps0_3 (F := Ideal)) wr3 := by
  unfold WritesAre wr3
  repeat' constructor

def wr4 : List (Ref sig .tc) :=
  main_v68 :: main_v69 :: main_v70 :: main_v71 :: main_v72 :: main_v73 :: []

set_option maxRecDepth 100000 in
theorem wr4_ok : WritesAre (τ := τ) (hostOps0_4 (F := Ideal)) wr4 := by
  unfold WritesAre wr4
  repeat' constructor

def wr5 : List (Ref sig .tc) :=
  main_call2_cst :: main_call2_v0 :: main_v74 :: []

set_option maxRecDepth 100000 in
theorem wr5_ok : WritesAre (τ := τ) (hostOps0_5 (F := Ideal)) wr5 := by
  unfold WritesAre wr5
  repeat' constructor

def wr6 : List (Ref sig .tc) :=
  main_v75 :: main_v76 :: main_v77 :: main_v78 :: main_v79 :: main_v80 :: []

set_option maxRecDepth 100000 in
theorem wr6_ok : WritesAre (τ := τ) (hostOps0_6 (F := Ideal)) wr6 := by
  unfold WritesAre wr6
  repeat' constructor

def wr7 : List (Ref sig .tc) :=
  main_call3_cst :: main_call3_v0 :: main_v81 :: []

set_option maxRecDepth 100000 in
theorem wr7_ok : WritesAre (τ := τ) (hostOps0_7 (F := Ideal)) wr7 := by
  unfold WritesAre wr7
  repeat' constructor

def wr8 : List (Ref sig .tc) :=
  main_cst_12 :: main_v82 :: main_cst_13 :: main_v83 :: main_v84 :: main_v85 :: main_c_14 :: []

set_option maxRecDepth 100000 in
theorem wr8_ok : WritesAre (τ := τ) (hostOps0_8 (F := Ideal)) wr8 := by
  unfold WritesAre wr8
  repeat' constructor

def wr9 : List (Ref sig .tc) :=
  main_call4_v0 :: main_v86 :: []

set_option maxRecDepth 100000 in
theorem wr9_ok : WritesAre (τ := τ) (hostOps0_9 (F := Ideal)) wr9 := by
  unfold WritesAre wr9
  repeat' constructor

def wr10 : List (Ref sig .tc) :=
  main_v87 :: main_v88 :: main_v89 :: main_v90 :: main_v91 :: []

set_option maxRecDepth 100000 in
theorem wr10_ok : WritesAre (τ := τ) (hostOps0_10 (F := Ideal)) wr10 := by
  unfold WritesAre wr10
  repeat' constructor

/-- The reference each operation of the line writes, in order. -/
def wrAll : List (Ref sig .tc) := wr0 ++ (wr1 ++ (wr2 ++ (wr3 ++ (wr4 ++ (wr5 ++ (wr6 ++ (wr7 ++ (wr8 ++ (wr9 ++ (wr10 ++ []))))))))))

theorem wrAll_ok : WritesAre (τ := τ) opsAll wrAll :=
  wr0_ok.append (wr1_ok.append (wr2_ok.append (wr3_ok.append (wr4_ok.append (wr5_ok.append (wr6_ok.append (wr7_ok.append (wr8_ok.append (wr9_ok.append (wr10_ok.append List.Forall₂.nil))))))))))

end Cert.KernelIdeal.HostValue
end
-- ==== Proof.KHostIdx.lean ====
/-
  The layout operations that prepare the fused tile's inputs, read at an index, over arbitrary arrays:
  the transposed weights, the biases as one-row matrices, the rows 1..255 of `x` followed by a zero row,
  and a product with a transposed weight matrix as a sum over the contracted index.
-/
import proofs.«131067_j1941325218075_2_alg».proof.Proof.Gen.KernelIdeal
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.HostValue

open Cert.KernelIdeal Cert.KernelIdeal.Gen Idealize.ShloMosaic Idealize.ShloMosaic.ValueIdx

/-- A transposed 128 x 128 matrix at `(k, j)` is the matrix at `(j, k)`. -/
theorem transpose128_apply (W : S128x128.Idx → EReal) (k j : Fin 128) :
    transpose S128x128 [1, 0] W transposes_S128x128_S128x128_1_0 (ix2 k j) = W (ix2 j k) :=
  transpose_apply [1, 0] W transposes_S128x128_S128x128_1_0 (ix2 k j) (ix2 j k) (fun b => match b with
    | ⟨0, _⟩ => rfl
    | ⟨1, _⟩ => rfl)

/-- A vector of 128 entries reshaped to one row: entry `(0, j)` is entry `j`. -/
theorem reshapeRow_apply (b : S128.Idx → EReal) (j : Fin 128) :
    shapeCast S1x128 b shapeCasts_S128_S1x128 (ix2 0 j) = b (ix1 j) :=
  shapeCast_apply b shapeCasts_S128_S1x128 (ix2 0 j) (ix1 j)
    (by rewrite [Shape.rowMajor_val_one, Shape.rowMajor_val_two]; show j.val = 0 * 128 + j.val; omega)

/-- Rows 1..255 of a 256-row array followed by one row of the padding value. -/
theorem padSlice_apply (x : S256x1000.Idx → EReal) (z : S_.Idx → EReal) (p : Fin 256) (d : Fin 1000) :
    pad S256x1000 ![0, 0] ![1, 0] ![0, 0]
        (extractStridedSlice S255x1000 ![1, 0] x slices_S256x1000_S255x1000_1_0) z pads_S255x1000_S256x1000_010_000 h_S_ (ix2 p d)
      = if h : p.val < 255 then x (ix2 ⟨p.val + 1, by omega⟩ d) else z ix0 := by
  by_cases h : p.val < 255
  · rw [dif_pos h]
    refine (pad_apply_of_inside ![0, 0] ![1, 0] ![0, 0] (extractStridedSlice S255x1000 ![1, 0] x slices_S256x1000_S255x1000_1_0) z pads_S255x1000_S256x1000_010_000 h_S_ (ix2 p d)
      (ix2 (⟨p.val, h⟩ : Fin 255) d) (fun a => match a with
        | ⟨0, _⟩ => by show p.val = 0 + p.val * (0 + 1); omega
        | ⟨1, _⟩ => by show d.val = 0 + d.val * (0 + 1); omega)).trans ?_
    exact extractStridedSlice_apply ![1, 0] x slices_S256x1000_S255x1000_1_0 (ix2 (⟨p.val, h⟩ : Fin 255) d)
      (ix2 ⟨p.val + 1, by omega⟩ d) (fun a => match a with
        | ⟨0, _⟩ => by show p.val + 1 = 1 + p.val; omega
        | ⟨1, _⟩ => by show d.val = 0 + d.val; omega)
  · rw [dif_neg h]
    refine (pad_apply_of_not_inside ![0, 0] ![1, 0] ![0, 0] (extractStridedSlice S255x1000 ![1, 0] x slices_S256x1000_S255x1000_1_0) z pads_S255x1000_S256x1000_010_000 h_S_ (ix2 p d) (0 : Fin 2) (by
      show ¬(0 ≤ p.val ∧ (p.val - 0) % (0 + 1) = 0 ∧ (p.val - 0) / (0 + 1) < 255); omega)).trans ?_
    exact congrArg z (funext fun a => a.elim0)

/-- The integer 0 converted to a float is 0. -/
theorem sitofp_zero_apply (i : S_.Idx) :
    (sitofp .f32 (constantI S_ 32 0#32) : FVec Ideal S_ .f32) i = 0 := by
  show ((((0#32 : BitVec 32).toInt : ℝ)) : EReal) = 0
  simp

theorem lhs_dotW_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_dotW_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_dotW_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_dotW_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A 1000 x 128 array times a 128 x 128 matrix, at `(d, j)`: the sum over `k` of `A[d, k] * B[k, j]`. -/
theorem dotW_apply (A : FVec Ideal S1000x128 .f32) (B : FVec Ideal S128x128 .f32) (d : Fin 1000) (j : Fin 128) :
    Host.dotGeneral (F := Ideal) (φ₁ := .f32) (φ₂ := .f32) dot_S1000x128_S128x128_S1000x128_1_0_0_1_n_n none A B (ix2 d j)
      = ∑ k : Fin 128, A (ix2 d k) * B (ix2 k j) := by
  simp only [Host.dotGeneral]
  rw [Ideal.dotGeneral_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 d j) ((ValueIdx.contrEquiv1 dot_S1000x128_S128x128_S1000x128_1_0_0_1_n_n 128 rfl rfl).symm k) = ix2 d k := funext fun a => Fin.ext (by
    match a with
    | ⟨0, _⟩ => exact lhs_dotW_0 _ _
    | ⟨1, _⟩ => exact (lhs_dotW_1 _ _).trans hk)
  have er : dot_S1000x128_S128x128_S1000x128_1_0_0_1_n_n.rhsIdx (ix2 d j) ((ValueIdx.contrEquiv1 dot_S1000x128_S128x128_S1000x128_1_0_0_1_n_n 128 rfl rfl).symm k) = ix2 k j := funext fun a => Fin.ext (by
    match a with
    | ⟨0, _⟩ => exact (rhs_dotW_0 _ _).trans hk
    | ⟨1, _⟩ => exact rhs_dotW_1 _ _)
  rw [el, er]

/-- … and with the matrix a transposed weight: the sum over `k` of `A[d, k] * W[j, k]`. -/
theorem dotWT_apply (A : FVec Ideal S1000x128 .f32) (W : FVec Ideal S128x128 .f32) (d : Fin 1000) (j : Fin 128) :
    Host.dotGeneral (F := Ideal) (φ₁ := .f32) (φ₂ := .f32) dot_S1000x128_S128x128_S1000x128_1_0_0_1_n_n none A
        (transpose S128x128 [1, 0] W transposes_S128x128_S128x128_1_0) (ix2 d j)
      = ∑ k : Fin 128, A (ix2 d k) * W (ix2 j k) := by
  rw [dotW_apply]
  exact Finset.sum_congr rfl fun k _ => congrArg (A (ix2 d k) * ·) (transpose128_apply W k j)

end Cert.KernelIdeal.HostValue
end
-- ==== Proof.KHostIn.lean ====
/-
  The arrays the host operations hand to the fused dense tile, read at an index: the padded batch rows 1..255,
  the embedding table times the transposed first weight matrix, the three biases as rows, and the two later
  weight matrices transposed.
-/
import proofs.«131067_j1941325218075_2_alg».proof.Proof.KHostStep
import proofs.«131067_j1941325218075_2_alg».proof.Proof.KHostIdx
import proofs.«131067_j1941325218075_2_alg».proof.Proof.Spec

noncomputable section

namespace Cert.KernelIdeal.HostValue

open Cert.KernelIdeal Cert.KernelIdeal.Gen Idealize.ShloMosaic Idealize.ShloMosaic.TcCoe Idealize.ShloMosaic.ValueIdx Idealize.ShloMosaic.StableHlo

variable (m : (ℓ : Loc nD τ sig) → Buf (Elt Ideal) ℓ) (c : Dev nD)

/-! ## The operations that write the tile's inputs, one at a time -/

theorem V_main_v6 : (Gen.V (F := Ideal) m c main_v6 : (⟨S128x128, .f32⟩ : BufTy).Contents (Elt Ideal)) = transpose S128x128 [1, 0] (Gen.V (F := Ideal) m c main_arg6 : (⟨S128x128, .f32⟩ : BufTy).Contents (Elt Ideal)) transposes_S128x128_S128x128_1_0 :=
  step_unary wrAll_ok _ 6 rfl (by decide) (by decide)

theorem V_main_v7 : (Gen.V (F := Ideal) m c main_v7 : (⟨S1000x128, .f32⟩ : BufTy).Contents (Elt Ideal)) = Host.dotGeneral (F := Ideal) (φ₁ := .f32) (φ₂ := .f32) dot_S1000x128_S128x128_S1000x128_1_0_0_1_n_n none (Gen.V (F := Ideal) m c main_v5 : (⟨S1000x128, .f32⟩ : BufTy).Contents (Elt Ideal)) (Gen.V (F := Ideal) m c main_v6 : (⟨S128x128, .f32⟩ : BufTy).Contents (Elt Ideal)) :=
  step_binary wrAll_ok _ 7 rfl (by decide) (by decide) (by decide)

theorem V_main_v85 : (Gen.V (F := Ideal) m c main_v85 : (⟨S255x1000, .f32⟩ : BufTy).Contents (Elt Ideal)) = extractStridedSlice S255x1000 ![1, 0] (Gen.V (F := Ideal) m c main_v0 : (⟨S256x1000, .f32⟩ : BufTy).Contents (Elt Ideal)) slices_S256x1000_S255x1000_1_0 :=
  step_unary wrAll_ok _ 119 rfl (by decide) (by decide)

theorem V_main_c_14 : (Gen.V (F := Ideal) m c main_c_14 : (⟨S_, .i32⟩ : BufTy).Contents (Elt Ideal)) = constantI S_ 32 0#32 :=
  step_nullary wrAll_ok _ 120 rfl (by decide)

theorem V_main_call4_v0 : (Gen.V (F := Ideal) m c main_call4_v0 : (⟨S_, .f32⟩ : BufTy).Contents (Elt Ideal)) = (sitofp (F := Ideal) .f32 : (⟨S_, .i32⟩ : BufTy).Contents (Elt Ideal) → (⟨S_, .f32⟩ : BufTy).Contents (Elt Ideal)) (Gen.V (F := Ideal) m c main_c_14 : (⟨S_, .i32⟩ : BufTy).Contents (Elt Ideal)) :=
  step_unary wrAll_ok _ 121 rfl (by decide) (by decide)

theorem V_main_v86 : (Gen.V (F := Ideal) m c main_v86 : (⟨S256x1000, .f32⟩ : BufTy).Contents (Elt Ideal)) = pad S256x1000 ![0, 0] ![1, 0] ![0, 0] (Gen.V (F := Ideal) m c main_v85 : (⟨S255x1000, .f32⟩ : BufTy).Contents (Elt Ideal)) (Gen.V (F := Ideal) m c main_call4_v0 : (⟨S_, .f32⟩ : BufTy).Contents (Elt Ideal)) pads_S255x1000_S256x1000_010_000 h_S_ :=
  step_binary wrAll_ok _ 122 rfl (by decide) (by decide) (by decide)

theorem V_main_v87 : (Gen.V (F := Ideal) m c main_v87 : (⟨S1x128, .f32⟩ : BufTy).Contents (Elt Ideal)) = shapeCast S1x128 (Gen.V (F := Ideal) m c main_arg7 : (⟨S128, .f32⟩ : BufTy).Contents (Elt Ideal)) shapeCasts_S128_S1x128 :=
  step_reshape (x := main_arg7) (y := main_v87) (he := rfl) (hn := shapeCasts_S128_S1x128) wrAll_ok _ 123 rfl (by decide) (by decide)

theorem V_main_v88 : (Gen.V (F := Ideal) m c main_v88 : (⟨S1x128, .f32⟩ : BufTy).Contents (Elt Ideal)) = shapeCast S1x128 (Gen.V (F := Ideal) m c main_arg9 : (⟨S128, .f32⟩ : BufTy).Contents (Elt Ideal)) shapeCasts_S128_S1x128 :=
  step_reshape (x := main_arg9) (y := main_v88) (he := rfl) (hn := shapeCasts_S128_S1x128) wrAll_ok _ 124 rfl (by decide) (by decide)

theorem V_main_v89 : (Gen.V (F := Ideal) m c main_v89 : (⟨S1x128, .f32⟩ : BufTy).Contents (Elt Ideal)) = shapeCast S1x128 (Gen.V (F := Ideal) m c main_arg11 : (⟨S128, .f32⟩ : BufTy).Contents (Elt Ideal)) shapeCasts_S128_S1x128 :=
  step_reshape (x := main_arg11) (y := main_v89) (he := rfl) (hn := shapeCasts_S128_S1x128) wrAll_ok _ 125 rfl (by decide) (by decide)

theorem V_main_v90 : (Gen.V (F := Ideal) m c main_v90 : (⟨S128x128, .f32⟩ : BufTy).Contents (Elt Ideal)) = transpose S128x128 [1, 0] (Gen.V (F := Ideal) m c main_arg8 : (⟨S128x128, .f32⟩ : BufTy).Contents (Elt Ideal)) transposes_S128x128_S128x128_1_0 :=
  step_unary wrAll_ok _ 126 rfl (by decide) (by decide)

theorem V_main_v91 : (Gen.V (F := Ideal) m c main_v91 : (⟨S128x128, .f32⟩ : BufTy).Contents (Elt Ideal)) = transpose S128x128 [1, 0] (Gen.V (F := Ideal) m c main_arg10 : (⟨S128x128, .f32⟩ : BufTy).Contents (Elt Ideal)) transposes_S128x128_S128x128_1_0 :=
  step_unary wrAll_ok _ 127 rfl (by decide) (by decide)

/-! ## The tile's inputs at an index

`x` is the concatenated input (`main_v0`), `emb` the embedding table after its linear map (`main_v5`), the weights and
biases the argument arrays `main_arg6 … main_arg11`. -/

/-- The tile's first input: rows 1..255 of `x`, then one zero row. -/
theorem V_main_v86_apply (p : Fin 256) (d : Fin 1000) :
    (Gen.V (F := Ideal) m c main_v86 : S256x1000.Idx → EReal) (ix2 p d)
      = if h : p.val < 255 then (Gen.V (F := Ideal) m c main_v0 : S256x1000.Idx → EReal) (ix2 ⟨p.val + 1, by omega⟩ d) else (0 : EReal) := by
  rw [V_main_v86, V_main_v85, V_main_call4_v0, V_main_c_14]
  refine (padSlice_apply _ _ p d).trans ?_
  by_cases h : p.val < 255
  · rw [dif_pos h, dif_pos h]
  · rw [dif_neg h, dif_neg h]
    exact sitofp_zero_apply ix0

/-- The tile's second input: `emb` times the transposed first weight matrix. -/
theorem V_main_v7_apply (d : Fin 1000) (j : Fin 128) :
    (Gen.V (F := Ideal) m c main_v7 : S1000x128.Idx → EReal) (ix2 d j)
      = Cert.Gnn.lin (Gen.V (F := Ideal) m c main_arg6)
          (fun k => (Gen.V (F := Ideal) m c main_v5 : S1000x128.Idx → EReal) (ix2 d k)) j := by
  rw [V_main_v7, V_main_v6]
  exact dotWT_apply _ _ d j

/-- The biases as one-row matrices. -/
theorem V_main_v87_apply (j : Fin 128) :
    (Gen.V (F := Ideal) m c main_v87 : S1x128.Idx → EReal) (ix2 0 j) = (Gen.V (F := Ideal) m c main_arg7 : S128.Idx → EReal) (ix1 j) := by
  rw [V_main_v87]
  exact reshapeRow_apply _ j
theorem V_main_v88_apply (j : Fin 128) :
    (Gen.V (F := Ideal) m c main_v88 : S1x128.Idx → EReal) (ix2 0 j) = (Gen.V (F := Ideal) m c main_arg9 : S128.Idx → EReal) (ix1 j) := by
  rw [V_main_v88]
  exact reshapeRow_apply _ j
theorem V_main_v89_apply (j : Fin 128) :
    (Gen.V (F := Ideal) m c main_v89 : S1x128.Idx → EReal) (ix2 0 j) = (Gen.V (F := Ideal) m c main_arg11 : S128.Idx → EReal) (ix1 j) := by
  rw [V_main_v89]
  exact reshapeRow_apply _ j

/-- The second and third weight matrices, transposed. -/
theorem V_main_v90_apply (k j : Fin 128) :
    (Gen.V (F := Ideal) m c main_v90 : S128x128.Idx → EReal) (ix2 k j) = (Gen.V (F := Ideal) m c main_arg8 : S128x128.Idx → EReal) (ix2 j k) := by
  rw [V_main_v90]
  exact transpose128_apply _ k j
theorem V_main_v91_apply (k j : Fin 128) :
    (Gen.V (F := Ideal) m c main_v91 : S128x128.Idx → EReal) (ix2 k j) = (Gen.V (F := Ideal) m c main_arg10 : S128x128.Idx → EReal) (ix2 j k) := by
  rw [V_main_v91]
  exact transpose128_apply _ k j

end Cert.KernelIdeal.HostValue
end
-- ==== Proof.KHostLayer.lean ====
/-
  Batch row 0 through the dense adjacency matrix, over arbitrary arrays: the embedded nodes `x[0, d] * emb[d, k]`,
  one layer `relu (A (H W^T) + bias)` read at an index as a sum over the source nodes, and the mean over the nodes.
-/
import proofs.«131067_j1941325218075_2_alg».proof.Proof.KHostIdx
import proofs.«131067_j1941325218075_2_alg».proof.Proof.Spec
import Idealize.ShloMosaic.Lib.IdealHost

noncomputable section

namespace Cert.KernelIdeal.HostValue

open Cert.KernelIdeal Cert.KernelIdeal.Gen Idealize.ShloMosaic Idealize.ShloMosaic.ValueIdx

/-- Row 0 of `x`, as a column, broadcast along the feature axis. -/
theorem xRow0_apply (x : FVec Ideal S256x1000 .f32) (d : Fin 1000) (k : Fin 128) :
    broadcastInDim S1000x128 ![0, 1] bcast_S1000x1_S1000x128_0_1
        (broadcastInDim S1000x1 ![0] bcast_S1000_S1000x1_0
          (shapeCast S1000 (extractStridedSlice S1x1000 ![0, 0] x slices_S256x1000_S1x1000_0_0) shapeCasts_S1x1000_S1000)) (ix2 d k)
      = x (ix2 0 d) :=
  (broadcastInDim_apply _ bcast_S1000x1_S1000x128_0_1 _ (ix2 d k) (ix2 d (0 : Fin 1)) (fun a => match a with
    | ⟨0, _⟩ => by show d.val = if (1000 : Nat) = 1 then 0 else d.val; rw [if_neg (by decide)]
    | ⟨1, _⟩ => by show 0 = if (1 : Nat) = 1 then 0 else k.val; rw [if_pos rfl])).trans <|
  (broadcastInDim_apply _ bcast_S1000_S1000x1_0 _ (ix2 d (0 : Fin 1)) (ix1 d) (fun a => match a with
    | ⟨0, _⟩ => by show d.val = if (1000 : Nat) = 1 then 0 else d.val; rw [if_neg (by decide)])).trans <|
  (shapeCast_apply _ shapeCasts_S1x1000_S1000 (ix1 d) (ix2 (0 : Fin 1) d)
    (by rewrite [Shape.rowMajor_val_two, Shape.rowMajor_val_one]; show 0 * 1000 + d.val = d.val; omega)).trans <|
  extractStridedSlice_apply ![0, 0] x slices_S256x1000_S1x1000_0_0 (ix2 (0 : Fin 1) d) (ix2 (0 : Fin 256) d) (fun a => match a with
    | ⟨0, _⟩ => by show 0 = 0 + 0; omega
    | ⟨1, _⟩ => by show d.val = 0 + d.val; omega)

/-- A bias as a row, broadcast over the nodes. -/
theorem biasRows_apply (b : FVec Ideal S128 .f32) (t : Fin 1000) (j : Fin 128) :
    broadcastInDim S1000x128 ![0, 1] bcast_S1x128_S1000x128_0_1 (broadcastInDim S1x128 ![1] bcast_S128_S1x128_1 b) (ix2 t j)
      = b (ix1 j) :=
  (broadcastInDim_apply _ bcast_S1x128_S1000x128_0_1 _ (ix2 t j) (ix2 (0 : Fin 1) j) (fun a => match a with
    | ⟨0, _⟩ => by show 0 = if (1 : Nat) = 1 then 0 else t.val; rw [if_pos rfl]
    | ⟨1, _⟩ => by show j.val = if (128 : Nat) = 1 then 0 else j.val; rw [if_neg (by decide)])).trans <|
  broadcastInDim_apply _ bcast_S128_S1x128_1 b (ix2 (0 : Fin 1) j) (ix1 j) (fun a => match a with
    | ⟨0, _⟩ => by show j.val = if (128 : Nat) = 1 then 0 else j.val; rw [if_neg (by decide)])

/-- The constant `+0.0` broadcast to the nodes' features. -/
theorem zeros_apply (i : S1000x128.Idx) :
    broadcastInDim S1000x128 ![] bcast_S_S1000x128 (constant (F := Ideal) S_ .f32 0x00000000#32) i = 0 :=
  (broadcastInDim_scalar_apply bcast_S_S1000x128 _ i).trans Cert.Gnn.ofBits_zero

theorem lhs_dotA_0 (i : S1000x128.Idx) (q : dot_S1000x1000_S1000x128_S1000x128_1_0_0_1_n_n.contr.Idx) :
    (dot_S1000x1000_S1000x128_S1000x128_1_0_0_1_n_n.lhsIdx i q 0).val = (i 0).val := by
  unfold DotDims.lhsIdx
  rw [dif_neg (show ¬(0 : Fin S1000x1000.rank) ∈ dot_S1000x1000_S1000x128_S1000x128_1_0_0_1_n_n.lhsBatch by decide), dif_pos (show (0 : Fin S1000x1000.rank) ∈ dot_S1000x1000_S1000x128_S1000x128_1_0_0_1_n_n.lhsNonContracting by decide)]
  rfl
theorem lhs_dotA_1 (i : S1000x128.Idx) (q : dot_S1000x1000_S1000x128_S1000x128_1_0_0_1_n_n.contr.Idx) :
    (dot_S1000x1000_S1000x128_S1000x128_1_0_0_1_n_n.lhsIdx i q 1).val = (q ⟨0, by decide⟩).val :=
  dot_S1000x1000_S1000x128_S1000x128_1_0_0_1_n_n.lhsIdx_val_of_single rfl i q
theorem rhs_dotA_0 (i : S1000x128.Idx) (q : dot_S1000x1000_S1000x128_S1000x128_1_0_0_1_n_n.contr.Idx) :
    (dot_S1000x1000_S1000x128_S1000x128_1_0_0_1_n_n.rhsIdx i q 0).val = (q ⟨0, by decide⟩).val :=
  dot_S1000x1000_S1000x128_S1000x128_1_0_0_1_n_n.rhsIdx_val_of_single rfl i q
theorem rhs_dotA_1 (i : S1000x128.Idx) (q : dot_S1000x1000_S1000x128_S1000x128_1_0_0_1_n_n.contr.Idx) :
    (dot_S1000x1000_S1000x128_S1000x128_1_0_0_1_n_n.rhsIdx i q 1).val = (i 1).val := by
  unfold DotDims.rhsIdx
  rw [dif_neg (show ¬(1 : Fin S1000x128.rank) ∈ dot_S1000x1000_S1000x128_S1000x128_1_0_0_1_n_n.rhsBatch by decide), dif_pos (show (1 : Fin S1000x128.rank) ∈ dot_S1000x1000_S1000x128_S1000x128_1_0_0_1_n_n.rhsNonContracting by decide)]
  rfl

/-- The adjacency matrix times a node array, at `(t, j)`: the sum over the source nodes `s` of `A[t, s] * B[s, j]`. -/
theorem dotA_apply (A : FVec Ideal S1000x1000 .f32) (B : FVec Ideal S1000x128 .f32) (t : Fin 1000) (j : Fin 128) :
    Host.dotGeneral (F := Ideal) (φ₁ := .f32) (φ₂ := .f32) dot_S1000x1000_S1000x128_S1000x128_1_0_0_1_n_n none A B (ix2 t j)
      = ∑ s : Fin 1000, A (ix2 t s) * B (ix2 s j) := by
  simp only [Host.dotGeneral]
  rw [Ideal.dotGeneral_apply, ← Equiv.sum_comp (ValueIdx.contrEquiv1 dot_S1000x1000_S1000x128_S1000x128_1_0_0_1_n_n 1000 rfl rfl).symm]
  refine Finset.sum_congr rfl fun k _ => ?_
  have hk := ValueIdx.contrEquiv1_symm_val dot_S1000x1000_S1000x128_S1000x128_1_0_0_1_n_n 1000 rfl rfl k
  have el : dot_S1000x1000_S1000x128_S1000x128_1_0_0_1_n_n.lhsIdx (ix2 t j) ((ValueIdx.contrEquiv1 dot_S1000x1000_S1000x128_S1000x128_1_0_0_1_n_n 1000 rfl rfl).symm k) = ix2 t k := funext fun a => Fin.ext (by
    match a with
    | ⟨0, _⟩ => exact lhs_dotA_0 _ _
    | ⟨1, _⟩ => exact (lhs_dotA_1 _ _).trans hk)
  have er : dot_S1000x1000_S1000x128_S1000x128_1_0_0_1_n_n.rhsIdx (ix2 t j) ((ValueIdx.contrEquiv1 dot_S1000x1000_S1000x128_S1000x128_1_0_0_1_n_n 1000 rfl rfl).symm k) = ix2 k j := funext fun a => Fin.ext (by
    match a with
    | ⟨0, _⟩ => exact (rhs_dotA_0 _ _).trans hk
    | ⟨1, _⟩ => exact rhs_dotA_1 _ _)
  rw [el, er]

/-- One layer on batch row 0: `relu (A (H W^T) + bias)` at node `t`, feature `j`. -/
theorem layer_apply (A : FVec Ideal S1000x1000 .f32) (H : FVec Ideal S1000x128 .f32) (W : FVec Ideal S128x128 .f32)
    (b : FVec Ideal S128 .f32) (t : Fin 1000) (j : Fin 128) :
    maximumf (F := Ideal) (φ := .f32)
        (addf (F := Ideal) (φ := .f32)
          (Host.dotGeneral (F := Ideal) (φ₁ := .f32) (φ₂ := .f32) dot_S1000x1000_S1000x128_S1000x128_1_0_0_1_n_n none A
            (Host.dotGeneral (F := Ideal) (φ₁ := .f32) (φ₂ := .f32) dot_S1000x128_S128x128_S1000x128_1_0_0_1_n_n none H
              (transpose S128x128 [1, 0] W transposes_S128x128_S128x128_1_0)))
          (broadcastInDim S1000x128 ![0, 1] bcast_S1x128_S1000x128_0_1 (broadcastInDim S1x128 ![1] bcast_S128_S1x128_1 b)))
        (broadcastInDim S1000x128 ![] bcast_S_S1000x128 (constant (F := Ideal) S_ .f32 0x00000000#32)) (ix2 t j)
      = max ((∑ s : Fin 1000, A (ix2 t s) * Cert.Gnn.lin W (fun k => H (ix2 s k)) j) + b (ix1 j)) 0 := by
  show max (Host.dotGeneral (F := Ideal) (φ₁ := .f32) (φ₂ := .f32) dot_S1000x1000_S1000x128_S1000x128_1_0_0_1_n_n none A _ (ix2 t j)
      + broadcastInDim S1000x128 ![0, 1] bcast_S1x128_S1000x128_0_1 (broadcastInDim S1x128 ![1] bcast_S128_S1x128_1 b) (ix2 t j))
    (broadcastInDim S1000x128 ![] bcast_S_S1000x128 (constant (F := Ideal) S_ .f32 0x00000000#32) (ix2 t j)) = _
  rw [dotA_apply, biasRows_apply, zeros_apply]
  refine congrArg (fun u => max (u + b (ix1 j)) 0) (Finset.sum_congr rfl fun s _ => ?_)
  exact congrArg (A (ix2 t s) * ·) (dotWT_apply H W s j)

/-- The mean over the nodes: the host sum over axis 0 from `+0.0`, divided by the constant `1000.0`. -/
theorem mean_apply (H : FVec Ideal S1000x128 .f32) (j : Fin 128) :
    Host.divf (F := Ideal) (φ := .f32)
        (Host.reduceAdd (F := Ideal) (φ := .f32) H (constant (F := Ideal) S_ .f32 0x00000000#32) reducesTo_S1000x128_S128_d0 h_S_)
        (broadcastInDim S128 ![] bcast_S_S128 (constant (F := Ideal) S_ .f32 0x447A0000#32)) (ix1 j)
      = Ideal.div ((0 : EReal) + ∑ d : Fin 1000, H (ix2 d j)) (Ideal.ofBits .f32 0x447A0000#32) := by
  have hR : S1000x128.Reduces [0] S128 := by decide
  rw [hostDivf_apply, hostReduceAdd_apply, Ideal.hostReduceAdd_single reducesTo_S1000x128_S128_d0 hR]
  refine congrArg₂ Ideal.div (congrArg₂ (· + ·) Cert.Gnn.ofBits_zero (Finset.sum_congr rfl fun d _ => congrArg H ?_)) ?_
  · funext a
    match a with
    | ⟨0, _⟩ => rfl
    | ⟨1, _⟩ => rfl
  · exact broadcastInDim_scalar_apply bcast_S_S128 _ (ix1 j)

end Cert.KernelIdeal.HostValue
end
-- ==== Proof.KHostOut.lean ====
/-
  Batch row 0's path through the host operations after the adjacency matrix (`main_v57`): the embedded nodes, three
  layers, the mean over the nodes.  Given that `main_v57` holds the normalised adjacency matrix of `src`, `tgt`,
  the result `main_v84` is the mean of the specification's `graph3`.
-/
import proofs.«131067_j1941325218075_2_alg».proof.Proof.KHostStep
import proofs.«131067_j1941325218075_2_alg».proof.Proof.KHostIdx
import proofs.«131067_j1941325218075_2_alg».proof.Proof.KHostLayer
import proofs.«131067_j1941325218075_2_alg».proof.Proof.Spec

noncomputable section

namespace Cert.KernelIdeal.HostValue

open Cert.KernelIdeal Cert.KernelIdeal.Gen Idealize.ShloMosaic Idealize.ShloMosaic.TcCoe Idealize.ShloMosaic.ValueIdx Idealize.ShloMosaic.StableHlo

variable (m : (ℓ : Loc nD τ sig) → Buf (Elt Ideal) ℓ) (c : Dev nD)

/-! ## The operations of batch row 0's path, one at a time -/

theorem V_main_v8 : (Gen.V (F := Ideal) m c main_v8 : (⟨S1x1000, .f32⟩ : BufTy).Contents (Elt Ideal)) = extractStridedSlice S1x1000 ![0, 0] (Gen.V (F := Ideal) m c main_v0 : (⟨S256x1000, .f32⟩ : BufTy).Contents (Elt Ideal)) slices_S256x1000_S1x1000_0_0 :=
  step_unary wrAll_ok _ 8 rfl (by decide) (by decide)

theorem V_main_v9 : (Gen.V (F := Ideal) m c main_v9 : (⟨S1000, .f32⟩ : BufTy).Contents (Elt Ideal)) = shapeCast S1000 (Gen.V (F := Ideal) m c main_v8 : (⟨S1x1000, .f32⟩ : BufTy).Contents (Elt Ideal)) shapeCasts_S1x1000_S1000 :=
  step_reshape (x := main_v8) (y := main_v9) (he := rfl) (hn := shapeCasts_S1x1000_S1000) wrAll_ok _ 9 rfl (by decide) (by decide)

theorem V_main_v58 : (Gen.V (F := Ideal) m c main_v58 : (⟨S1000x1, .f32⟩ : BufTy).Contents (Elt Ideal)) = (broadcastInDim S1000x1 ![0] bcast_S1000_S1000x1_0 : (⟨S1000, .f32⟩ : BufTy).Contents (Elt Ideal) → (⟨S1000x1, .f32⟩ : BufTy).Contents (Elt Ideal)) (Gen.V (F := Ideal) m c main_v9 : (⟨S1000, .f32⟩ : BufTy).Contents (Elt Ideal)) :=
  step_unary wrAll_ok _ 84 rfl (by decide) (by decide)

theorem V_main_v59 : (Gen.V (F := Ideal) m c main_v59 : (⟨S1000x128, .f32⟩ : BufTy).Contents (Elt Ideal)) = (broadcastInDim S1000x128 ![0, 1] bcast_S1000x1_S1000x128_0_1 : (⟨S1000x1, .f32⟩ : BufTy).Contents (Elt Ideal) → (⟨S1000x128, .f32⟩ : BufTy).Contents (Elt Ideal)) (Gen.V (F := Ideal) m c main_v58 : (⟨S1000x1, .f32⟩ : BufTy).Contents (Elt Ideal)) :=
  step_unary wrAll_ok _ 85 rfl (by decide) (by decide)

theorem V_main_v60 : (Gen.V (F := Ideal) m c main_v60 : (⟨S1000x128, .f32⟩ : BufTy).Contents (Elt Ideal)) = (mulf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v59 : (⟨S1000x128, .f32⟩ : BufTy).Contents (Elt Ideal)) (Gen.V (F := Ideal) m c main_v5 : (⟨S1000x128, .f32⟩ : BufTy).Contents (Elt Ideal)) :=
  step_binary wrAll_ok _ 86 rfl (by decide) (by decide) (by decide)

theorem V_main_v61 : (Gen.V (F := Ideal) m c main_v61 : (⟨S128x128, .f32⟩ : BufTy).Contents (Elt Ideal)) = transpose S128x128 [1, 0] (Gen.V (F := Ideal) m c main_arg6 : (⟨S128x128, .f32⟩ : BufTy).Contents (Elt Ideal)) transposes_S128x128_S128x128_1_0 :=
  step_unary wrAll_ok _ 87 rfl (by decide) (by decide)

theorem V_main_v62 : (Gen.V (F := Ideal) m c main_v62 : (⟨S1000x128, .f32⟩ : BufTy).Contents (Elt Ideal)) = Host.dotGeneral (F := Ideal) (φ₁ := .f32) (φ₂ := .f32) dot_S1000x128_S128x128_S1000x128_1_0_0_1_n_n none (Gen.V (F := Ideal) m c main_v60 : (⟨S1000x128, .f32⟩ : BufTy).Contents (Elt Ideal)) (Gen.V (F := Ideal) m c main_v61 : (⟨S128x128, .f32⟩ : BufTy).Contents (Elt Ideal)) :=
  step_binary wrAll_ok _ 88 rfl (by decide) (by decide) (by decide)

theorem V_main_v63 : (Gen.V (F := Ideal) m c main_v63 : (⟨S1000x128, .f32⟩ : BufTy).Contents (Elt Ideal)) = Host.dotGeneral (F := Ideal) (φ₁ := .f32) (φ₂ := .f32) dot_S1000x1000_S1000x128_S1000x128_1_0_0_1_n_n none (Gen.V (F := Ideal) m c main_v57 : (⟨S1000x1000, .f32⟩ : BufTy).Contents (Elt Ideal)) (Gen.V (F := Ideal) m c main_v62 : (⟨S1000x128, .f32⟩ : BufTy).Contents (Elt Ideal)) :=
  step_binary wrAll_ok _ 89 rfl (by decide) (by decide) (by decide)

theorem V_main_v64 : (Gen.V (F := Ideal) m c main_v64 : (⟨S1x128, .f32⟩ : BufTy).Contents (Elt Ideal)) = (broadcastInDim S1x128 ![1] bcast_S128_S1x128_1 : (⟨S128, .f32⟩ : BufTy).Contents (Elt Ideal) → (⟨S1x128, .f32⟩ : BufTy).Contents (Elt Ideal)) (Gen.V (F := Ideal) m c main_arg7 : (⟨S128, .f32⟩ : BufTy).Contents (Elt Ideal)) :=
  step_unary wrAll_ok _ 90 rfl (by decide) (by decide)

theorem V_main_v65 : (Gen.V (F := Ideal) m c main_v65 : (⟨S1000x128, .f32⟩ : BufTy).Contents (Elt Ideal)) = (broadcastInDim S1000x128 ![0, 1] bcast_S1x128_S1000x128_0_1 : (⟨S1x128, .f32⟩ : BufTy).Contents (Elt Ideal) → (⟨S1000x128, .f32⟩ : BufTy).Contents (Elt Ideal)) (Gen.V (F := Ideal) m c main_v64 : (⟨S1x128, .f32⟩ : BufTy).Contents (Elt Ideal)) :=
  step_unary wrAll_ok _ 91 rfl (by decide) (by decide)

theorem V_main_v66 : (Gen.V (F := Ideal) m c main_v66 : (⟨S1000x128, .f32⟩ : BufTy).Contents (Elt Ideal)) = (addf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v63 : (⟨S1000x128, .f32⟩ : BufTy).Contents (Elt Ideal)) (Gen.V (F := Ideal) m c main_v65 : (⟨S1000x128, .f32⟩ : BufTy).Contents (Elt Ideal)) :=
  step_binary wrAll_ok _ 92 rfl (by decide) (by decide) (by decide)

theorem V_main_call1_cst : (Gen.V (F := Ideal) m c main_call1_cst : (⟨S_, .f32⟩ : BufTy).Contents (Elt Ideal)) = constant (F := Ideal) S_ .f32 0x00000000#32 :=
  step_nullary wrAll_ok _ 93 rfl (by decide)

theorem V_main_call1_v0 : (Gen.V (F := Ideal) m c main_call1_v0 : (⟨S1000x128, .f32⟩ : BufTy).Contents (Elt Ideal)) = (broadcastInDim S1000x128 ![] bcast_S_S1000x128 : (⟨S_, .f32⟩ : BufTy).Contents (Elt Ideal) → (⟨S1000x128, .f32⟩ : BufTy).Contents (Elt Ideal)) (Gen.V (F := Ideal) m c main_call1_cst : (⟨S_, .f32⟩ : BufTy).Contents (Elt Ideal)) :=
  step_unary wrAll_ok _ 94 rfl (by decide) (by decide)

theorem V_main_v67 : (Gen.V (F := Ideal) m c main_v67 : (⟨S1000x128, .f32⟩ : BufTy).Contents (Elt Ideal)) = (maximumf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v66 : (⟨S1000x128, .f32⟩ : BufTy).Contents (Elt Ideal)) (Gen.V (F := Ideal) m c main_call1_v0 : (⟨S1000x128, .f32⟩ : BufTy).Contents (Elt Ideal)) :=
  step_binary wrAll_ok _ 95 rfl (by decide) (by decide) (by decide)

theorem V_main_v68 : (Gen.V (F := Ideal) m c main_v68 : (⟨S128x128, .f32⟩ : BufTy).Contents (Elt Ideal)) = transpose S128x128 [1, 0] (Gen.V (F := Ideal) m c main_arg8 : (⟨S128x128, .f32⟩ : BufTy).Contents (Elt Ideal)) transposes_S128x128_S128x128_1_0 :=
  step_unary wrAll_ok _ 96 rfl (by decide) (by decide)

theorem V_main_v69 : (Gen.V (F := Ideal) m c main_v69 : (⟨S1000x128, .f32⟩ : BufTy).Contents (Elt Ideal)) = Host.dotGeneral (F := Ideal) (φ₁ := .f32) (φ₂ := .f32) dot_S1000x128_S128x128_S1000x128_1_0_0_1_n_n none (Gen.V (F := Ideal) m c main_v67 : (⟨S1000x128, .f32⟩ : BufTy).Contents (Elt Ideal)) (Gen.V (F := Ideal) m c main_v68 : (⟨S128x128, .f32⟩ : BufTy).Contents (Elt Ideal)) :=
  step_binary wrAll_ok _ 97 rfl (by decide) (by decide) (by decide)

theorem V_main_v70 : (Gen.V (F := Ideal) m c main_v70 : (⟨S1000x128, .f32⟩ : BufTy).Contents (Elt Ideal)) = Host.dotGeneral (F := Ideal) (φ₁ := .f32) (φ₂ := .f32) dot_S1000x1000_S1000x128_S1000x128_1_0_0_1_n_n none (Gen.V (F := Ideal) m c main_v57 : (⟨S1000x1000, .f32⟩ : BufTy).Contents (Elt Ideal)) (Gen.V (F := Ideal) m c main_v69 : (⟨S1000x128, .f32⟩ : BufTy).Contents (Elt Ideal)) :=
  step_binary wrAll_ok _ 98 rfl (by decide) (by decide) (by decide)

theorem V_main_v71 : (Gen.V (F := Ideal) m c main_v71 : (⟨S1x128, .f32⟩ : BufTy).Contents (Elt Ideal)) = (broadcastInDim S1x128 ![1] bcast_S128_S1x128_1 : (⟨S128, .f32⟩ : BufTy).Contents (Elt Ideal) → (⟨S1x128, .f32⟩ : BufTy).Contents (Elt Ideal)) (Gen.V (F := Ideal) m c main_arg9 : (⟨S128, .f32⟩ : BufTy).Contents (Elt Ideal)) :=
  step_unary wrAll_ok _ 99 rfl (by decide) (by decide)

theorem V_main_v72 : (Gen.V (F := Ideal) m c main_v72 : (⟨S1000x128, .f32⟩ : BufTy).Contents (Elt Ideal)) = (broadcastInDim S1000x128 ![0, 1] bcast_S1x128_S1000x128_0_1 : (⟨S1x128, .f32⟩ : BufTy).Contents (Elt Ideal) → (⟨S1000x128, .f32⟩ : BufTy).Contents (Elt Ideal)) (Gen.V (F := Ideal) m c main_v71 : (⟨S1x128, .f32⟩ : BufTy).Contents (Elt Ideal)) :=
  step_unary wrAll_ok _ 100 rfl (by decide) (by decide)

theorem V_main_v73 : (Gen.V (F := Ideal) m c main_v73 : (⟨S1000x128, .f32⟩ : BufTy).Contents (Elt Ideal)) = (addf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v70 : (⟨S1000x128, .f32⟩ : BufTy).Contents (Elt Ideal)) (Gen.V (F := Ideal) m c main_v72 : (⟨S1000x128, .f32⟩ : BufTy).Contents (Elt Ideal)) :=
  step_binary wrAll_ok _ 101 rfl (by decide) (by decide) (by decide)

theorem V_main_call2_cst : (Gen.V (F := Ideal) m c main_call2_cst : (⟨S_, .f32⟩ : BufTy).Contents (Elt Ideal)) = constant (F := Ideal) S_ .f32 0x00000000#32 :=
  step_nullary wrAll_ok _ 102 rfl (by decide)

theorem V_main_call2_v0 : (Gen.V (F := Ideal) m c main_call2_v0 : (⟨S1000x128, .f32⟩ : BufTy).Contents (Elt Ideal)) = (broadcastInDim S1000x128 ![] bcast_S_S1000x128 : (⟨S_, .f32⟩ : BufTy).Contents (Elt Ideal) → (⟨S1000x128, .f32⟩ : BufTy).Contents (Elt Ideal)) (Gen.V (F := Ideal) m c main_call2_cst : (⟨S_, .f32⟩ : BufTy).Contents (Elt Ideal)) :=
  step_unary wrAll_ok _ 103 rfl (by decide) (by decide)

theorem V_main_v74 : (Gen.V (F := Ideal) m c main_v74 : (⟨S1000x128, .f32⟩ : BufTy).Contents (Elt Ideal)) = (maximumf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v73 : (⟨S1000x128, .f32⟩ : BufTy).Contents (Elt Ideal)) (Gen.V (F := Ideal) m c main_call2_v0 : (⟨S1000x128, .f32⟩ : BufTy).Contents (Elt Ideal)) :=
  step_binary wrAll_ok _ 104 rfl (by decide) (by decide) (by decide)

theorem V_main_v75 : (Gen.V (F := Ideal) m c main_v75 : (⟨S128x128, .f32⟩ : BufTy).Contents (Elt Ideal)) = transpose S128x128 [1, 0] (Gen.V (F := Ideal) m c main_arg10 : (⟨S128x128, .f32⟩ : BufTy).Contents (Elt Ideal)) transposes_S128x128_S128x128_1_0 :=
  step_unary wrAll_ok _ 105 rfl (by decide) (by decide)

theorem V_main_v76 : (Gen.V (F := Ideal) m c main_v76 : (⟨S1000x128, .f32⟩ : BufTy).Contents (Elt Ideal)) = Host.dotGeneral (F := Ideal) (φ₁ := .f32) (φ₂ := .f32) dot_S1000x128_S128x128_S1000x128_1_0_0_1_n_n none (Gen.V (F := Ideal) m c main_v74 : (⟨S1000x128, .f32⟩ : BufTy).Contents (Elt Ideal)) (Gen.V (F := Ideal) m c main_v75 : (⟨S128x128, .f32⟩ : BufTy).Contents (Elt Ideal)) :=
  step_binary wrAll_ok _ 106 rfl (by decide) (by decide) (by decide)

theorem V_main_v77 : (Gen.V (F := Ideal) m c main_v77 : (⟨S1000x128, .f32⟩ : BufTy).Contents (Elt Ideal)) = Host.dotGeneral (F := Ideal) (φ₁ := .f32) (φ₂ := .f32) dot_S1000x1000_S1000x128_S1000x128_1_0_0_1_n_n none (Gen.V (F := Ideal) m c main_v57 : (⟨S1000x1000, .f32⟩ : BufTy).Contents (Elt Ideal)) (Gen.V (F := Ideal) m c main_v76 : (⟨S1000x128, .f32⟩ : BufTy).Contents (Elt Ideal)) :=
  step_binary wrAll_ok _ 107 rfl (by decide) (by decide) (by decide)

theorem V_main_v78 : (Gen.V (F := Ideal) m c main_v78 : (⟨S1x128, .f32⟩ : BufTy).Contents (Elt Ideal)) = (broadcastInDim S1x128 ![1] bcast_S128_S1x128_1 : (⟨S128, .f32⟩ : BufTy).Contents (Elt Ideal) → (⟨S1x128, .f32⟩ : BufTy).Contents (Elt Ideal)) (Gen.V (F := Ideal) m c main_arg11 : (⟨S128, .f32⟩ : BufTy).Contents (Elt Ideal)) :=
  step_unary wrAll_ok _ 108 rfl (by decide) (by decide)

theorem V_main_v79 : (Gen.V (F := Ideal) m c main_v79 : (⟨S1000x128, .f32⟩ : BufTy).Contents (Elt Ideal)) = (broadcastInDim S1000x128 ![0, 1] bcast_S1x128_S1000x128_0_1 : (⟨S1x128, .f32⟩ : BufTy).Contents (Elt Ideal) → (⟨S1000x128, .f32⟩ : BufTy).Contents (Elt Ideal)) (Gen.V (F := Ideal) m c main_v78 : (⟨S1x128, .f32⟩ : BufTy).Contents (Elt Ideal)) :=
  step_unary wrAll_ok _ 109 rfl (by decide) (by decide)

theorem V_main_v80 : (Gen.V (F := Ideal) m c main_v80 : (⟨S1000x128, .f32⟩ : BufTy).Contents (Elt Ideal)) = (addf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v77 : (⟨S1000x128, .f32⟩ : BufTy).Contents (Elt Ideal)) (Gen.V (F := Ideal) m c main_v79 : (⟨S1000x128, .f32⟩ : BufTy).Contents (Elt Ideal)) :=
  step_binary wrAll_ok _ 110 rfl (by decide) (by decide) (by decide)

theorem V_main_call3_cst : (Gen.V (F := Ideal) m c main_call3_cst : (⟨S_, .f32⟩ : BufTy).Contents (Elt Ideal)) = constant (F := Ideal) S_ .f32 0x00000000#32 :=
  step_nullary wrAll_ok _ 111 rfl (by decide)

theorem V_main_call3_v0 : (Gen.V (F := Ideal) m c main_call3_v0 : (⟨S1000x128, .f32⟩ : BufTy).Contents (Elt Ideal)) = (broadcastInDim S1000x128 ![] bcast_S_S1000x128 : (⟨S_, .f32⟩ : BufTy).Contents (Elt Ideal) → (⟨S1000x128, .f32⟩ : BufTy).Contents (Elt Ideal)) (Gen.V (F := Ideal) m c main_call3_cst : (⟨S_, .f32⟩ : BufTy).Contents (Elt Ideal)) :=
  step_unary wrAll_ok _ 112 rfl (by decide) (by decide)

theorem V_main_v81 : (Gen.V (F := Ideal) m c main_v81 : (⟨S1000x128, .f32⟩ : BufTy).Contents (Elt Ideal)) = (maximumf (F := Ideal) (φ := .f32) : (⟨S1000x128, .f32⟩ : BufTy).Contents (Elt Ideal) → (⟨S1000x128, .f32⟩ : BufTy).Contents (Elt Ideal) → (⟨S1000x128, .f32⟩ : BufTy).Contents (Elt Ideal)) (Gen.V (F := Ideal) m c main_v80 : (⟨S1000x128, .f32⟩ : BufTy).Contents (Elt Ideal)) (Gen.V (F := Ideal) m c main_call3_v0 : (⟨S1000x128, .f32⟩ : BufTy).Contents (Elt Ideal)) :=
  step_binary wrAll_ok _ 113 rfl (by decide) (by decide) (by decide)

theorem V_main_cst_12 : (Gen.V (F := Ideal) m c main_cst_12 : (⟨S_, .f32⟩ : BufTy).Contents (Elt Ideal)) = constant (F := Ideal) S_ .f32 0x00000000#32 :=
  step_nullary wrAll_ok _ 114 rfl (by decide)

theorem V_main_v82 : (Gen.V (F := Ideal) m c main_v82 : (⟨S128, .f32⟩ : BufTy).Contents (Elt Ideal)) = Host.reduceAdd (F := Ideal) (φ := .f32) (Gen.V (F := Ideal) m c main_v81 : (⟨S1000x128, .f32⟩ : BufTy).Contents (Elt Ideal)) (Gen.V (F := Ideal) m c main_cst_12 : (⟨S_, .f32⟩ : BufTy).Contents (Elt Ideal)) reducesTo_S1000x128_S128_d0 h_S_ :=
  step_binary wrAll_ok _ 115 rfl (by decide) (by decide) (by decide)

theorem V_main_cst_13 : (Gen.V (F := Ideal) m c main_cst_13 : (⟨S_, .f32⟩ : BufTy).Contents (Elt Ideal)) = constant (F := Ideal) S_ .f32 0x447A0000#32 :=
  step_nullary wrAll_ok _ 116 rfl (by decide)

theorem V_main_v83 : (Gen.V (F := Ideal) m c main_v83 : (⟨S128, .f32⟩ : BufTy).Contents (Elt Ideal)) = (broadcastInDim S128 ![] bcast_S_S128 : (⟨S_, .f32⟩ : BufTy).Contents (Elt Ideal) → (⟨S128, .f32⟩ : BufTy).Contents (Elt Ideal)) (Gen.V (F := Ideal) m c main_cst_13 : (⟨S_, .f32⟩ : BufTy).Contents (Elt Ideal)) :=
  step_unary wrAll_ok _ 117 rfl (by decide) (by decide)

theorem V_main_v84 : (Gen.V (F := Ideal) m c main_v84 : (⟨S128, .f32⟩ : BufTy).Contents (Elt Ideal)) = (Host.divf (F := Ideal) (φ := .f32) : (⟨S128, .f32⟩ : BufTy).Contents (Elt Ideal) → (⟨S128, .f32⟩ : BufTy).Contents (Elt Ideal) → (⟨S128, .f32⟩ : BufTy).Contents (Elt Ideal)) (Gen.V (F := Ideal) m c main_v82 : (⟨S128, .f32⟩ : BufTy).Contents (Elt Ideal)) (Gen.V (F := Ideal) m c main_v83 : (⟨S128, .f32⟩ : BufTy).Contents (Elt Ideal)) :=
  step_binary wrAll_ok _ 118 rfl (by decide) (by decide) (by decide)

/-! ## Composition -/

/-- One layer in the specification's form, given that the matrix is the normalised adjacency matrix. -/
theorem layer_adj (src tgt : Fin 32000 → Fin 1000) (A : FVec Ideal S1000x1000 .f32) (H : FVec Ideal S1000x128 .f32)
    (W : FVec Ideal S128x128 .f32) (b : FVec Ideal S128 .f32) (hA : ∀ t s : Fin 1000, A (ix2 t s) = Cert.Gnn.adj src tgt t s)
    (t : Fin 1000) (j : Fin 128) :
    maximumf (F := Ideal) (φ := .f32)
        (addf (F := Ideal) (φ := .f32)
          (Host.dotGeneral (F := Ideal) (φ₁ := .f32) (φ₂ := .f32) dot_S1000x1000_S1000x128_S1000x128_1_0_0_1_n_n none A
            (Host.dotGeneral (F := Ideal) (φ₁ := .f32) (φ₂ := .f32) dot_S1000x128_S128x128_S1000x128_1_0_0_1_n_n none H
              (transpose S128x128 [1, 0] W transposes_S128x128_S128x128_1_0)))
          (broadcastInDim S1000x128 ![0, 1] bcast_S1x128_S1000x128_0_1 (broadcastInDim S1x128 ![1] bcast_S128_S1x128_1 b)))
        (broadcastInDim S1000x128 ![] bcast_S_S1000x128 (constant (F := Ideal) S_ .f32 0x00000000#32)) (ix2 t j)
      = Cert.Gnn.adjLayer src tgt W b (fun s k => H (ix2 s k)) t j := by
  rw [layer_apply]
  unfold Cert.Gnn.adjLayer
  exact congrArg (fun u => max (u + b (ix1 j)) 0) (Finset.sum_congr rfl fun s _ => by rw [hA])

/-- The embedded nodes of batch row 0, over arbitrary arrays: `x[0, d] * emb[d, k]`. -/
theorem embRow0_apply (x : FVec Ideal S256x1000 .f32) (emb : FVec Ideal S1000x128 .f32) (d : Fin 1000) (k : Fin 128) :
    mulf (F := Ideal) (φ := .f32)
        (broadcastInDim S1000x128 ![0, 1] bcast_S1000x1_S1000x128_0_1
          (broadcastInDim S1000x1 ![0] bcast_S1000_S1000x1_0
            (shapeCast S1000 (extractStridedSlice S1x1000 ![0, 0] x slices_S256x1000_S1x1000_0_0) shapeCasts_S1x1000_S1000)))
        emb (ix2 d k)
      = Cert.Gnn.h0 x emb 0 d k := by
  rw [mulf_apply, xRow0_apply]
  rfl

/-- The embedded nodes of batch row 0: `x[0, d] * emb[d, k]`. -/
theorem V_main_v60_fun :
    (fun (d : Fin 1000) (k : Fin 128) => (Gen.V (F := Ideal) m c main_v60 : S1000x128.Idx → EReal) (ix2 d k))
      = fun d k => Cert.Gnn.h0 (Gen.V (F := Ideal) m c main_v0) (Gen.V (F := Ideal) m c main_v5) 0 d k := by
  funext d k
  rw [V_main_v60, V_main_v59, V_main_v58, V_main_v9, V_main_v8]
  exact embRow0_apply _ _ d k

/-- Layer 1's result as one term over its inputs. -/
theorem V_main_v67_term :
    (Gen.V (F := Ideal) m c main_v67 : FVec Ideal S1000x128 .f32)
      = maximumf (F := Ideal) (φ := .f32)
          (addf (F := Ideal) (φ := .f32)
            (Host.dotGeneral (F := Ideal) (φ₁ := .f32) (φ₂ := .f32) dot_S1000x1000_S1000x128_S1000x128_1_0_0_1_n_n none
              (Gen.V (F := Ideal) m c main_v57 : FVec Ideal S1000x1000 .f32)
              (Host.dotGeneral (F := Ideal) (φ₁ := .f32) (φ₂ := .f32) dot_S1000x128_S128x128_S1000x128_1_0_0_1_n_n none
                (Gen.V (F := Ideal) m c main_v60 : FVec Ideal S1000x128 .f32)
                (transpose S128x128 [1, 0] (Gen.V (F := Ideal) m c main_arg6 : FVec Ideal S128x128 .f32) transposes_S128x128_S128x128_1_0)))
            (broadcastInDim S1000x128 ![0, 1] bcast_S1x128_S1000x128_0_1
              (broadcastInDim S1x128 ![1] bcast_S128_S1x128_1 (Gen.V (F := Ideal) m c main_arg7 : FVec Ideal S128 .f32))))
          (broadcastInDim S1000x128 ![] bcast_S_S1000x128 (constant (F := Ideal) S_ .f32 0x00000000#32)) := by
  rw [V_main_v67, V_main_call1_v0, V_main_call1_cst, V_main_v66, V_main_v65, V_main_v64, V_main_v63, V_main_v62, V_main_v61]

/-- Layer 1 at a node, given the adjacency matrix. -/
theorem V_main_v67_fun (src tgt : Fin 32000 → Fin 1000)
    (hA : ∀ t s : Fin 1000, (Gen.V (F := Ideal) m c main_v57 : S1000x1000.Idx → EReal) (ix2 t s) = Cert.Gnn.adj src tgt t s) :
    (fun (t : Fin 1000) (j : Fin 128) => (Gen.V (F := Ideal) m c main_v67 : S1000x128.Idx → EReal) (ix2 t j))
      = Cert.Gnn.adjLayer src tgt (Gen.V (F := Ideal) m c main_arg6) (Gen.V (F := Ideal) m c main_arg7)
          (fun s k => (Gen.V (F := Ideal) m c main_v60 : S1000x128.Idx → EReal) (ix2 s k)) := by
  funext t j
  rw [V_main_v67_term]
  exact layer_adj src tgt _ _ _ _ hA t j

/-- Layer 2's result as one term over its inputs. -/
theorem V_main_v74_term :
    (Gen.V (F := Ideal) m c main_v74 : FVec Ideal S1000x128 .f32)
      = maximumf (F := Ideal) (φ := .f32)
          (addf (F := Ideal) (φ := .f32)
            (Host.dotGeneral (F := Ideal) (φ₁ := .f32) (φ₂ := .f32) dot_S1000x1000_S1000x128_S1000x128_1_0_0_1_n_n none
              (Gen.V (F := Ideal) m c main_v57 : FVec Ideal S1000x1000 .f32)
              (Host.dotGeneral (F := Ideal) (φ₁ := .f32) (φ₂ := .f32) dot_S1000x128_S128x128_S1000x128_1_0_0_1_n_n none
                (Gen.V (F := Ideal) m c main_v67 : FVec Ideal S1000x128 .f32)
                (transpose S128x128 [1, 0] (Gen.V (F := Ideal) m c main_arg8 : FVec Ideal S128x128 .f32) transposes_S128x128_S128x128_1_0)))
            (broadcastInDim S1000x128 ![0, 1] bcast_S1x128_S1000x128_0_1
              (broadcastInDim S1x128 ![1] bcast_S128_S1x128_1 (Gen.V (F := Ideal) m c main_arg9 : FVec Ideal S128 .f32))))
          (broadcastInDim S1000x128 ![] bcast_S_S1000x128 (constant (F := Ideal) S_ .f32 0x00000000#32)) := by
  rw [V_main_v74, V_main_call2_v0, V_main_call2_cst, V_main_v73, V_main_v72, V_main_v71, V_main_v70, V_main_v69, V_main_v68]

/-- Layer 2 at a node, given the adjacency matrix. -/
theorem V_main_v74_fun (src tgt : Fin 32000 → Fin 1000)
    (hA : ∀ t s : Fin 1000, (Gen.V (F := Ideal) m c main_v57 : S1000x1000.Idx → EReal) (ix2 t s) = Cert.Gnn.adj src tgt t s) :
    (fun (t : Fin 1000) (j : Fin 128) => (Gen.V (F := Ideal) m c main_v74 : S1000x128.Idx → EReal) (ix2 t j))
      = Cert.Gnn.adjLayer src tgt (Gen.V (F := Ideal) m c main_arg8) (Gen.V (F := Ideal) m c main_arg9)
          (fun s k => (Gen.V (F := Ideal) m c main_v67 : S1000x128.Idx → EReal) (ix2 s k)) := by
  funext t j
  rw [V_main_v74_term]
  exact layer_adj src tgt _ _ _ _ hA t j

/-- Layer 3's result as one term over its inputs. -/
theorem V_main_v81_term :
    (Gen.V (F := Ideal) m c main_v81 : FVec Ideal S1000x128 .f32)
      = maximumf (F := Ideal) (φ := .f32)
          (addf (F := Ideal) (φ := .f32)
            (Host.dotGeneral (F := Ideal) (φ₁ := .f32) (φ₂ := .f32) dot_S1000x1000_S1000x128_S1000x128_1_0_0_1_n_n none
              (Gen.V (F := Ideal) m c main_v57 : FVec Ideal S1000x1000 .f32)
              (Host.dotGeneral (F := Ideal) (φ₁ := .f32) (φ₂ := .f32) dot_S1000x128_S128x128_S1000x128_1_0_0_1_n_n none
                (Gen.V (F := Ideal) m c main_v74 : FVec Ideal S1000x128 .f32)
                (transpose S128x128 [1, 0] (Gen.V (F := Ideal) m c main_arg10 : FVec Ideal S128x128 .f32) transposes_S128x128_S128x128_1_0)))
            (broadcastInDim S1000x128 ![0, 1] bcast_S1x128_S1000x128_0_1
              (broadcastInDim S1x128 ![1] bcast_S128_S1x128_1 (Gen.V (F := Ideal) m c main_arg11 : FVec Ideal S128 .f32))))
          (broadcastInDim S1000x128 ![] bcast_S_S1000x128 (constant (F := Ideal) S_ .f32 0x00000000#32)) := by
  rw [V_main_v81, V_main_call3_v0, V_main_call3_cst, V_main_v80, V_main_v79, V_main_v78, V_main_v77, V_main_v76, V_main_v75]

/-- Layer 3 at a node, given the adjacency matrix. -/
theorem V_main_v81_fun (src tgt : Fin 32000 → Fin 1000)
    (hA : ∀ t s : Fin 1000, (Gen.V (F := Ideal) m c main_v57 : S1000x1000.Idx → EReal) (ix2 t s) = Cert.Gnn.adj src tgt t s) :
    (fun (t : Fin 1000) (j : Fin 128) => (Gen.V (F := Ideal) m c main_v81 : S1000x128.Idx → EReal) (ix2 t j))
      = Cert.Gnn.adjLayer src tgt (Gen.V (F := Ideal) m c main_arg10) (Gen.V (F := Ideal) m c main_arg11)
          (fun s k => (Gen.V (F := Ideal) m c main_v74 : S1000x128.Idx → EReal) (ix2 s k)) := by
  funext t j
  rw [V_main_v81_term]
  exact layer_adj src tgt _ _ _ _ hA t j

/-- Batch row 0 after the three layers is the specification's `graph3`. -/
theorem V_main_v81_graph3 (src tgt : Fin 32000 → Fin 1000)
    (hA : ∀ t s : Fin 1000, (Gen.V (F := Ideal) m c main_v57 : S1000x1000.Idx → EReal) (ix2 t s) = Cert.Gnn.adj src tgt t s) (d : Fin 1000) (j : Fin 128) :
    (Gen.V (F := Ideal) m c main_v81 : S1000x128.Idx → EReal) (ix2 d j)
      = Cert.Gnn.graph3 src tgt (Gen.V (F := Ideal) m c main_v0) (Gen.V (F := Ideal) m c main_v5)
          (Gen.V (F := Ideal) m c main_arg6) (Gen.V (F := Ideal) m c main_arg7) (Gen.V (F := Ideal) m c main_arg8)
          (Gen.V (F := Ideal) m c main_arg9) (Gen.V (F := Ideal) m c main_arg10) (Gen.V (F := Ideal) m c main_arg11) d j := by
  have h3 := congrFun (congrFun (V_main_v81_fun m c src tgt hA) d) j
  rw [V_main_v74_fun m c src tgt hA, V_main_v67_fun m c src tgt hA, V_main_v60_fun m c] at h3
  exact h3

/-- The graph path's result as one term over the last layer. -/
theorem V_main_v84_term :
    (Gen.V (F := Ideal) m c main_v84 : FVec Ideal S128 .f32)
      = Host.divf (F := Ideal) (φ := .f32)
          (Host.reduceAdd (F := Ideal) (φ := .f32) (Gen.V (F := Ideal) m c main_v81 : FVec Ideal S1000x128 .f32)
            (constant (F := Ideal) S_ .f32 0x00000000#32) reducesTo_S1000x128_S128_d0 h_S_)
          (broadcastInDim S128 ![] bcast_S_S128 (constant (F := Ideal) S_ .f32 0x447A0000#32)) := by
  rw [V_main_v84, V_main_v83, V_main_cst_13, V_main_v82, V_main_cst_12]

set_option maxHeartbeats 1000000 in
/-- The graph path's result: the mean over the nodes of `graph3`, given the adjacency matrix. -/
theorem V_main_v84_apply (src tgt : Fin 32000 → Fin 1000)
    (hA : ∀ t s : Fin 1000, (Gen.V (F := Ideal) m c main_v57 : S1000x1000.Idx → EReal) (ix2 t s) = Cert.Gnn.adj src tgt t s) (j : Fin 128) :
    (Gen.V (F := Ideal) m c main_v84 : S128.Idx → EReal) (ix1 j)
      = Ideal.div ((0 : EReal) + ∑ d : Fin 1000,
          Cert.Gnn.graph3 src tgt (Gen.V (F := Ideal) m c main_v0) (Gen.V (F := Ideal) m c main_v5)
            (Gen.V (F := Ideal) m c main_arg6) (Gen.V (F := Ideal) m c main_arg7) (Gen.V (F := Ideal) m c main_arg8)
            (Gen.V (F := Ideal) m c main_arg9) (Gen.V (F := Ideal) m c main_arg10) (Gen.V (F := Ideal) m c main_arg11) d j)
          (Ideal.ofBits .f32 0x447A0000#32) := by
  rw [V_main_v84_term]
  refine (mean_apply _ j).trans ?_
  refine congrArg (fun u : EReal => Ideal.div ((0 : EReal) + u) (Ideal.ofBits .f32 0x447A0000#32)) ?_
  exact Finset.sum_congr rfl fun d _ => V_main_v81_graph3 m c src tgt hA d j

end Cert.KernelIdeal.HostValue
end
-- ==== Proof.KAdjIdx.lean ====
/-
  The index arrays of the adjacency matrix, read at an index.

  The edge array has two rows of 32000 words: row 0 the edges' sources, row 1 their targets.  Each row is
  cut out and flattened; a negative index would be wrapped around by adding 1000, which leaves a word
  below 1000 as it is (its sign bit is clear); the indices are then laid out as a column [32000, 1], and
  for the matrix scatter the target and source columns are joined into [32000, 2].
-/
import proofs.«131067_j1941325218075_2_alg».proof.Proof.Gen.KernelIdeal
import Idealize.ShloMosaic.Lib.ValueLayout
import Idealize.ShloMosaic.Lib.IdealHost

noncomputable section

namespace Cert.KernelIdeal.AdjValue

open Cert.KernelIdeal Idealize.ShloMosaic Idealize.ShloMosaic.ValueIdx

/-- Row 0 of the edge array, flattened: entry e is edge[0, e]. -/
theorem row0_apply (E : IVec S2x32000 32) (hs : S2x32000.Slices ![0, 0] S1x32000) (hc : S1x32000.ShapeCasts S32000)
    (e : Fin 32000) :
    shapeCast S32000 (extractStridedSlice S1x32000 ![0, 0] E hs) hc (ix1 e) = E (ix2 (0 : Fin 2) e) :=
  (shapeCast_1a_a_apply _ hc e).trans
    (extractStridedSlice_apply ![0, 0] E hs (ix2 (0 : Fin 1) e) (ix2 (0 : Fin 2) e) fun a =>
      match a with
      | ⟨0, _⟩ => rfl
      | ⟨1, _⟩ => (Nat.zero_add _).symm)

/-- Row 1 of the edge array, flattened: entry e is edge[1, e]. -/
theorem row1_apply (E : IVec S2x32000 32) (hs : S2x32000.Slices ![1, 0] S1x32000) (hc : S1x32000.ShapeCasts S32000)
    (e : Fin 32000) :
    shapeCast S32000 (extractStridedSlice S1x32000 ![1, 0] E hs) hc (ix1 e) = E (ix2 (1 : Fin 2) e) :=
  (shapeCast_1a_a_apply _ hc e).trans
    (extractStridedSlice_apply ![1, 0] E hs (ix2 (0 : Fin 1) e) (ix2 (1 : Fin 2) e) fun a =>
      match a with
      | ⟨0, _⟩ => rfl
      | ⟨1, _⟩ => (Nat.zero_add _).symm)

/-- A word below 1000 read as a signed number is itself. -/
theorem toInt_of_lt (w : BitVec 32) (hw : w.toNat < 1000) : w.toInt = (w.toNat : Int) := by
  rw [BitVec.toInt_eq_toNat_cond, if_pos (by omega)]

/-- A word below 1000 is not negative, so the wrap-around keeps it. -/
theorem sel_id (w : BitVec 32) (hw : w.toNat < 1000) :
    Scalar.select (IntOp.cmpi .slt w 0#32) (IntOp.addi w 1000#32) w = w := by
  have h : IntOp.cmpi .slt w 0#32 = 0#1 := by
    have hs : w.slt 0#32 = false := by
      unfold BitVec.slt
      rw [toInt_of_lt w hw]
      exact decide_eq_false (by simp)
    show BitVec.ofBool (w.slt 0#32) = 0#1
    rw [hs]; rfl
  rw [h]; exact select_zero _ _

/-- The wrap-around of a vector of indices at an entry below 1000: the entry itself. -/
theorem wrap_apply (x : IVec S32000 32) (h0 : S_.BroadcastsInDim S32000 ![]) (i : S32000.Idx) (hi : (x i).toNat < 1000) :
    select (cmpi .slt x (broadcastInDim S32000 ![] h0 (constantI S_ 32 0#32)))
      (addi x (broadcastInDim S32000 ![] h0 (constantI S_ 32 1000#32))) x i = x i := by
  show Scalar.select (IntOp.cmpi .slt (x i) (broadcastInDim S32000 ![] h0 (constantI S_ 32 0#32) i))
    (IntOp.addi (x i) (broadcastInDim S32000 ![] h0 (constantI S_ 32 1000#32) i)) (x i) = x i
  rw [broadcastInDim_scalar_apply, broadcastInDim_scalar_apply]
  exact sel_id (x i) hi

/-- A vector of indices laid out as a column: entry (e, 0) is entry e. -/
theorem col_apply (x : IVec S32000 32) (h : S32000.BroadcastsInDim S32000x1 ![0]) (e : Fin 32000) (u : Fin 1) :
    broadcastInDim S32000x1 ![0] h x (ix2 e u) = x (ix1 e) :=
  broadcastInDim_apply ![0] h x (ix2 e u) (ix1 e) fun a =>
    match a with
    | ⟨0, _⟩ => by
      show e.val = if (32000 : Nat) = 1 then 0 else e.val
      rw [if_neg (by decide)]

end Cert.KernelIdeal.AdjValue

end
-- ==== Proof.RefOps.lean ====
/-
  Scatter-add and gather along axis 0 read at an index, and the numbering of the 256 x 1000 nodes.

  A scatter-add along axis 0 adds update row `e` into the operand row whose number is the (signed) start index
  `idx[e, 0]`; rows whose start index is outside the operand are dropped.  A gather along axis 0 reads the operand
  row whose number is the start index clamped into the operand.  Node `(b, d)` has the number `b * 1000 + d`, so
  a start index below 1000 names node `(0, idx)`.
-/
import proofs.«131067_j1941325218075_2_alg».proof.Proof.Gen.ReferenceIdeal
import Idealize.ShloMosaic.PureOps.Ideal
import Idealize.ShloMosaic.Lib.ValueIdx

noncomputable section

namespace Cert.ReferenceIdeal.RefValue

open Cert.ReferenceIdeal Cert.ReferenceIdeal.Gen Idealize.ShloMosaic Idealize.ShloMosaic.ValueIdx

/-! ### A scatter's result index -/

/-- An update lands on `i` exactly when start plus window coordinate is `i`'s coordinate on every axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro hi a
      have h1 := congrFun (Option.some.inj hi) a
      have h2 := h a
      rw [← h1]
      show d.start j idx a + (d.window j a : Int) = (((d.start j idx a + d.window j a).toNat : Nat) : Int)
      omega
    · intro H
      refine congrArg some (funext fun a => Fin.ext ?_)
      show (d.start j idx a + d.window j a).toNat = (i a).val
      have := H a
      omega
  · rw [dif_neg h]
    constructor
    · intro hc; cases hc
    · intro H
      exfalso
      apply h
      intro a
      have h1 := H a
      have h2 := (i a).isLt
      omega

/-! ### Scatter-add of a vector: operand `[256000]`, start indices `[32000, 1]`, updates `[32000]` -/

theorem scatter1_start (idx : IVec S32000x1 32) (e : Fin 32000) (a : Fin 1) :
    scatter_S256000_S32000x1_S32000_n_0_0_1.start (ix1 e) idx a = (idx (ix2 e 0)).toInt := by
  obtain rfl : a = 0 := Subsingleton.elim _ _
  unfold ScatterDims.start
  rw [dif_pos (show (0 : Fin 1) ∈ scatter_S256000_S32000x1_S32000_n_0_0_1.scatterDimsToOperandDims from
    List.mem_singleton.mpr rfl)]
  refine congrArg (fun k => (idx k).toInt) ?_
  funext b; refine Fin.ext ?_
  match b with
  | ⟨0, _⟩ => rfl
  | ⟨1, _⟩ => rfl

theorem scatter1_window (e : Fin 32000) (a : Fin 1) :
    scatter_S256000_S32000x1_S32000_n_0_0_1.window (ix1 e) a = 0 := by
  obtain rfl : a = 0 := Subsingleton.elim _ _
  rfl

/-- A rank-1 index of the edges is `ix1` of its coordinate. -/
theorem eq_ix1e (j : S32000.Idx) : j = ix1 (⟨(j 0).val, (j 0).isLt⟩ : Fin 32000) := by
  funext a; match a with | ⟨0, _⟩ => rfl

/-- The vector scatter-add at element `n`: the operand's element plus the updates whose start index is `n`. -/
theorem scatter1_apply (x : S256000.Idx → EReal) (idx : IVec S32000x1 32) (upd : S32000.Idx → EReal)
    (n : Fin 256000) :
    Ideal.hostScatterAdd scatter_S256000_S32000x1_S32000_n_0_0_1 x idx upd (ix1 n)
      = x (ix1 n) + ∑ e ∈ Finset.univ.filter (fun e : Fin 32000 => (idx (ix2 e 0)).toInt = (n.val : Int)),
          upd (ix1 e) := by
  unfold Ideal.hostScatterAdd
  refine congrArg (fun t => x (ix1 n) + t) ?_
  refine Finset.sum_nbij' (fun j : S32000.Idx => (⟨(j 0).val, (j 0).isLt⟩ : Fin 32000)) (fun e => ix1 e) ?_ ?_ ?_ ?_ ?_
  · intro j hj
    have hj2 := (Finset.mem_filter.mp hj).2
    refine Finset.mem_filter.mpr ⟨Finset.mem_univ _, ?_⟩
    rw [eq_ix1e j] at hj2
    have h := (resultIdx?_eq_some_iff _ _ idx (ix1 n)).mp hj2 0
    rw [scatter1_start, scatter1_window] at h
    simpa using h
  · intro e he
    have he2 := (Finset.mem_filter.mp he).2
    refine Finset.mem_filter.mpr ⟨Finset.mem_univ _, ?_⟩
    refine (resultIdx?_eq_some_iff _ _ idx (ix1 n)).mpr fun a => ?_
    obtain rfl : a = 0 := Subsingleton.elim _ _
    rw [scatter1_start, scatter1_window]
    simpa using he2
  · intro j _; exact (eq_ix1e j).symm
  · intro e _; rfl
  · intro j _; exact congrArg upd (eq_ix1e j)

/-! ### Scatter-add of rows: operand `[256000, 128]`, start indices `[32000, 1]`, updates `[32000, 128]` -/

theorem scatter2_start0 (idx : IVec S32000x1 32) (e : Fin 32000) (j : Fin 128) :
    scatter_S256000x128_S32000x1_S32000x128_1_0_0_1.start (ix2 e j) idx 0 = (idx (ix2 e 0)).toInt := by
  unfold ScatterDims.start
  rw [dif_pos (show (0 : Fin 2) ∈ scatter_S256000x128_S32000x1_S32000x128_1_0_0_1.scatterDimsToOperandDims from
    List.mem_singleton.mpr rfl)]
  refine congrArg (fun k => (idx k).toInt) ?_
  funext b; refine Fin.ext ?_
  match b with
  | ⟨0, _⟩ => rfl
  | ⟨1, _⟩ => rfl

theorem scatter2_start1 (idx : IVec S32000x1 32) (e : Fin 32000) (j : Fin 128) :
    scatter_S256000x128_S32000x1_S32000x128_1_0_0_1.start (ix2 e j) idx 1 = 0 := by
  unfold ScatterDims.start
  rw [dif_neg (show ¬ (1 : Fin 2) ∈ scatter_S256000x128_S32000x1_S32000x128_1_0_0_1.scatterDimsToOperandDims by decide)]

theorem scatter2_window0 (e : Fin 32000) (j : Fin 128) :
    scatter_S256000x128_S32000x1_S32000x128_1_0_0_1.window (ix2 e j) 0 = 0 := rfl

theorem scatter2_window1 (e : Fin 32000) (j : Fin 128) :
    scatter_S256000x128_S32000x1_S32000x128_1_0_0_1.window (ix2 e j) 1 = j.val := rfl

/-- A rank-2 index of the edge rows is `ix2` of its coordinates. -/
theorem eq_ix2e (i : S32000x128.Idx) :
    i = ix2 (⟨(i 0).val, (i 0).isLt⟩ : Fin 32000) (⟨(i 1).val, (i 1).isLt⟩ : Fin 128) := by
  funext a; match a with | ⟨0, _⟩ => rfl | ⟨1, _⟩ => rfl

/-- The row scatter-add at `(n, j)`: the operand's element plus column `j` of the update rows whose start index is `n`. -/
theorem scatter2_apply (x : S256000x128.Idx → EReal) (idx : IVec S32000x1 32) (upd : S32000x128.Idx → EReal)
    (n : Fin 256000) (j : Fin 128) :
    Ideal.hostScatterAdd scatter_S256000x128_S32000x1_S32000x128_1_0_0_1 x idx upd (ix2 n j)
      = x (ix2 n j) + ∑ e ∈ Finset.univ.filter (fun e : Fin 32000 => (idx (ix2 e 0)).toInt = (n.val : Int)),
          upd (ix2 e j) := by
  unfold Ideal.hostScatterAdd
  refine congrArg (fun t => x (ix2 n j) + t) ?_
  refine Finset.sum_nbij' (fun i : S32000x128.Idx => (⟨(i 0).val, (i 0).isLt⟩ : Fin 32000)) (fun e => ix2 e j)
    ?_ ?_ ?_ ?_ ?_
  · intro i hi
    have hi2 := (Finset.mem_filter.mp hi).2
    refine Finset.mem_filter.mpr ⟨Finset.mem_univ _, ?_⟩
    rw [eq_ix2e i] at hi2
    have h := (resultIdx?_eq_some_iff _ _ idx (ix2 n j)).mp hi2 0
    rw [scatter2_start0, scatter2_window0] at h
    simpa using h
  · intro e he
    have he2 := (Finset.mem_filter.mp he).2
    refine Finset.mem_filter.mpr ⟨Finset.mem_univ _, ?_⟩
    refine (resultIdx?_eq_some_iff _ _ idx (ix2 n j)).mpr fun a => ?_
    match a with
    | ⟨0, _⟩ =>
      show scatter_S256000x128_S32000x1_S32000x128_1_0_0_1.start (ix2 e j) idx 0
        + ((scatter_S256000x128_S32000x1_S32000x128_1_0_0_1.window (ix2 e j) 0 : Nat) : Int) = ((n.val : Nat) : Int)
      rw [scatter2_start0, scatter2_window0]
      simpa using he2
    | ⟨1, _⟩ =>
      show scatter_S256000x128_S32000x1_S32000x128_1_0_0_1.start (ix2 e j) idx 1
        + ((scatter_S256000x128_S32000x1_S32000x128_1_0_0_1.window (ix2 e j) 1 : Nat) : Int) = ((j.val : Nat) : Int)
      rw [scatter2_start1, scatter2_window1]
      simp
  · intro i hi
    have hi2 := (Finset.mem_filter.mp hi).2
    rw [eq_ix2e i] at hi2
    have h := (resultIdx?_eq_some_iff _ _ idx (ix2 n j)).mp hi2 1
    rw [scatter2_start1, scatter2_window1] at h
    have h1 : (i 1).val = j.val := by
      have h' : (0 : Int) + (((i 1).val : Nat) : Int) = ((j.val : Nat) : Int) := h
      omega
    rw [eq_ix2e i]
    funext a; match a with
    | ⟨0, _⟩ => rfl
    | ⟨1, _⟩ => exact Fin.ext h1.symm
  · intro e _; rfl
  · intro i hi
    have hi2 := (Finset.mem_filter.mp hi).2
    rw [eq_ix2e i] at hi2
    have h := (resultIdx?_eq_some_iff _ _ idx (ix2 n j)).mp hi2 1
    rw [scatter2_start1, scatter2_window1] at h
    have h1 : (i 1).val = j.val := by
      have h' : (0 : Int) + (((i 1).val : Nat) : Int) = ((j.val : Nat) : Int) := h
      omega
    refine congrArg upd ?_
    funext a; match a with
    | ⟨0, _⟩ => rfl
    | ⟨1, _⟩ => exact Fin.ext h1

/-! ### Gathers along axis 0 -/

/-- The vector gather at `e`: the operand at the start index `idx[e, 0]`, clamped into the operand. -/
theorem gather1_apply {α : Type} (x : S256000.Idx → α) (idx : IVec S32000x1 32) (e : Fin 32000) (n : Fin 256000)
    (hn : min (idx (ix2 e 0)).toInt.toNat 255999 = n.val) :
    Host.gather gather_S256000_S32000x1_S32000_n_0_n_n_0_1_1 x idx (ix1 e) = x (ix1 n) := by
  unfold Host.gather
  refine congrArg x ?_
  funext a
  obtain rfl : a = 0 := Subsingleton.elim _ _
  refine Fin.ext ?_
  show gather_S256000_S32000x1_S32000_n_0_n_n_0_1_1.start (ix1 e) idx 0
    + gather_S256000_S32000x1_S32000_n_0_n_n_0_1_1.batchCoord (ix1 e) 0
    + gather_S256000_S32000x1_S32000_n_0_n_n_0_1_1.offCoord (ix1 e) 0 = n.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S256000_S32000x1_S32000_n_0_n_n_0_1_1.startIndexMap from
    List.mem_singleton.mpr rfl)]
  have hsi : gather_S256000_S32000x1_S32000_n_0_n_n_0_1_1.siIdx (ix1 e)
      ⟨List.idxOf (0 : Fin 1) gather_S256000_S32000x1_S32000_n_0_n_n_0_1_1.startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  exact hn

/-- The row gather at `(e, j)`: column `j` of the operand row at the start index `idx[e, 0]`, clamped. -/
theorem gather2_apply {α : Type} (x : S256000x128.Idx → α) (idx : IVec S32000x1 32) (e : Fin 32000) (j : Fin 128)
    (n : Fin 256000) (hn : min (idx (ix2 e 0)).toInt.toNat 255999 = n.val) :
    Host.gather gather_S256000x128_S32000x1_S32000x128_1_0_n_n_0_1_1128 x idx (ix2 e j) = x (ix2 n j) := by
  unfold Host.gather
  refine congrArg x ?_
  funext a
  refine Fin.ext ?_
  match a with
  | ⟨0, _⟩ =>
    show gather_S256000x128_S32000x1_S32000x128_1_0_n_n_0_1_1128.start (ix2 e j) idx 0
      + gather_S256000x128_S32000x1_S32000x128_1_0_n_n_0_1_1128.batchCoord (ix2 e j) 0
      + gather_S256000x128_S32000x1_S32000x128_1_0_n_n_0_1_1128.offCoord (ix2 e j) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256000x128_S32000x1_S32000x128_1_0_n_n_0_1_1128.startIndexMap from
      List.mem_singleton.mpr rfl)]
    have hsi : gather_S256000x128_S32000x1_S32000x128_1_0_n_n_0_1_1128.siIdx (ix2 e j)
        ⟨List.idxOf (0 : Fin 2) gather_S256000x128_S32000x1_S32000x128_1_0_n_n_0_1_1128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    exact hn
  | ⟨1, _⟩ =>
    show gather_S256000x128_S32000x1_S32000x128_1_0_n_n_0_1_1128.start (ix2 e j) idx 1
      + gather_S256000x128_S32000x1_S32000x128_1_0_n_n_0_1_1128.batchCoord (ix2 e j) 1
      + gather_S256000x128_S32000x1_S32000x128_1_0_n_n_0_1_1128.offCoord (ix2 e j) 1 = j.val
    rw [GatherDims.batchCoord_eq_zero _ _ _ List.not_mem_nil]
    unfold GatherDims.start
    rw [dif_neg (show ¬ (1 : Fin 2) ∈ gather_S256000x128_S32000x1_S32000x128_1_0_n_n_0_1_1128.startIndexMap by decide)]
    rw [Nat.zero_add]
    unfold GatherDims.offCoord
    rw [dif_pos (show (1 : Fin 2) ∈ gather_S256000x128_S32000x1_S32000x128_1_0_n_n_0_1_1128.sKept by decide)]
    rfl

/-! ### Start indices below 1000, and the node numbering -/

/-- Node `(b, d)`'s number among the 256000. -/
def node (b : Fin 256) (d : Fin 1000) : Fin 256000 :=
  ⟨b.val * 1000 + d.val, by have := b.isLt; have := d.isLt; omega⟩

theorem node_val (b : Fin 256) (d : Fin 1000) : (node b d).val = b.val * 1000 + d.val := rfl

/-- A word below 1000 read signed is itself. -/
theorem toInt_of_lt (w : BitVec 32) (hw : w.toNat < 1000) : w.toInt = (w.toNat : Int) := by
  rw [BitVec.toInt_eq_toNat_cond, if_pos (by omega)]

/-- A start index below 1000 needs no wrap-around: `select (w < 0) (w + 256000) w = w`. -/
theorem sel_id (w : BitVec 32) (hw : w.toNat < 1000) :
    Scalar.select (IntOp.cmpi .slt w 0#32) (IntOp.addi w 256000#32) w = w := by
  have h : IntOp.cmpi .slt w 0#32 = 0#1 := by
    have hs : w.slt 0#32 = false := by
      unfold BitVec.slt
      rw [toInt_of_lt w hw]
      exact decide_eq_false (by simp)
    show BitVec.ofBool (w.slt 0#32) = 0#1
    rw [hs]; rfl
  rw [h]; exact select_zero _ _

/-- A start index below 1000, clamped into the 256000 nodes, is node `(0, w)`. -/
theorem clamp_of_lt (w : BitVec 32) (hw : w.toNat < 1000) :
    min w.toInt.toNat 255999 = (node 0 ⟨w.toNat, hw⟩).val := by
  rw [toInt_of_lt w hw, Int.toNat_natCast, node_val]
  show min w.toNat 255999 = 0 * 1000 + w.toNat
  omega

/-- A start index below 1000 is node `(b, d)`'s number exactly when `b = 0` and it is `d`. -/
theorem toInt_eq_node_iff (w : BitVec 32) (hw : w.toNat < 1000) (b : Fin 256) (d : Fin 1000) :
    w.toInt = ((node b d).val : Int) ↔ (b = 0 ∧ (⟨w.toNat, hw⟩ : Fin 1000) = d) := by
  rw [toInt_of_lt w hw, node_val]
  have hd := d.isLt
  constructor
  · intro h
    have hb : b.val = 0 := by omega
    exact ⟨Fin.ext hb, Fin.ext (by show w.toNat = d.val; omega)⟩
  · rintro ⟨rfl, h⟩
    have : w.toNat = d.val := congrArg Fin.val h
    show (w.toNat : Int) = (((0 : Fin 256).val * 1000 + d.val : Nat) : Int)
    simp [this]

end Cert.ReferenceIdeal.RefValue

end
-- ==== Proof.KAdjScat.lean ====
/-
  Scatter-add, gather and concatenation of the adjacency matrix, read at an index.

  The degree vector is a scatter-add along axis 0 of a vector of 1000 entries: update e is added to the
  entry its (signed) start index idx[e, 0] names.  The normalisation of an edge is gathered from the
  vector of 1000 entries at a start index (clamped into 0 .. 999).  The matrix is a scatter-add into
  1000 x 1000 entries: update e is added at row idx[e, 0], column idx[e, 1].
-/
import proofs.«131067_j1941325218075_2_alg».proof.Proof.Gen.KernelIdeal
import proofs.«131067_j1941325218075_2_alg».proof.Proof.RefOps
import Idealize.ShloMosaic.Lib.Pipeline.Value
import Idealize.ShloMosaic.Lib.ValueIdx

noncomputable section

namespace Cert.KernelIdeal.AdjValue

open Cert.KernelIdeal Idealize.ShloMosaic Idealize.ShloMosaic.ValueIdx

/-- The vector scatter's dimension record. -/
abbrev sc1 : ScatterDims S1000 S32000x1 S32000 := scatter_S1000_S32000x1_S32000_n_0_0_1
/-- The matrix scatter's dimension record. -/
abbrev sc2 : ScatterDims S1000x1000 S32000x2 S32000 := scatter_S1000x1000_S32000x2_S32000_n_01_01_1
/-- The gather's dimension record. -/
abbrev g1 : GatherDims S1000 S32000x1 S32000 := gather_S1000_S32000x1_S32000_n_0_n_n_0_1_1

/-- A rank-1 index of the edges is its coordinate. -/
theorem eq_ix1e (j : S32000.Idx) : j = ix1 (⟨(j 0).val, (j 0).isLt⟩ : Fin 32000) := by
  funext a; match a with | ⟨0, _⟩ => rfl

/-! ### The vector scatter-add -/

theorem sc1_start (idx : IVec S32000x1 32) (e : Fin 32000) (a : Fin 1) :
    sc1.start (ix1 e) idx a = (idx (ix2 e 0)).toInt := by
  obtain rfl : a = 0 := Subsingleton.elim _ _
  unfold ScatterDims.start
  rw [dif_pos (show (0 : Fin 1) ∈ sc1.scatterDimsToOperandDims from List.mem_singleton.mpr rfl)]
  refine congrArg (fun k => (idx k).toInt) ?_
  funext b; refine Fin.ext ?_
  match b with
  | ⟨0, _⟩ => rfl
  | ⟨1, _⟩ => rfl

theorem sc1_window (e : Fin 32000) (a : Fin 1) : sc1.window (ix1 e) a = 0 := by
  obtain rfl : a = 0 := Subsingleton.elim _ _
  rfl

/-- The vector scatter-add at entry d: the operand's entry plus the updates whose start index is d. -/
theorem scatter1_apply (x : S1000.Idx → EReal) (idx : IVec S32000x1 32) (upd : S32000.Idx → EReal) (d : Fin 1000) :
    Ideal.hostScatterAdd sc1 x idx upd (ix1 d)
      = x (ix1 d) + ∑ e ∈ Finset.univ.filter (fun e : Fin 32000 => (idx (ix2 e 0)).toInt = (d.val : Int)),
          upd (ix1 e) := by
  unfold Ideal.hostScatterAdd
  refine congrArg (fun t => x (ix1 d) + t) ?_
  refine Finset.sum_nbij' (fun j : S32000.Idx => (⟨(j 0).val, (j 0).isLt⟩ : Fin 32000)) (fun e => ix1 e) ?_ ?_ ?_ ?_ ?_
  · intro j hj
    have hj2 := (Finset.mem_filter.mp hj).2
    refine Finset.mem_filter.mpr ⟨Finset.mem_univ _, ?_⟩
    rw [eq_ix1e j] at hj2
    have h := (Cert.ReferenceIdeal.RefValue.resultIdx?_eq_some_iff _ _ idx (ix1 d)).mp hj2 0
    rw [sc1_start, sc1_window] at h
    simpa using h
  · intro e he
    have he2 := (Finset.mem_filter.mp he).2
    refine Finset.mem_filter.mpr ⟨Finset.mem_univ _, ?_⟩
    refine (Cert.ReferenceIdeal.RefValue.resultIdx?_eq_some_iff _ _ idx (ix1 d)).mpr fun a => ?_
    obtain rfl : a = 0 := Subsingleton.elim _ _
    rw [sc1_start, sc1_window]
    simpa using he2
  · intro j _; exact (eq_ix1e j).symm
  · intro e _; rfl
  · intro j _; exact congrArg upd (eq_ix1e j)

/-! ### The gather -/

/-- The gather at e: the operand at the start index idx[e, 0] clamped into 0 .. 999. -/
theorem gather1_apply {α : Type} (x : S1000.Idx → α) (idx : IVec S32000x1 32) (e : Fin 32000) (n : Fin 1000)
    (hn : min (idx (ix2 e 0)).toInt.toNat 999 = n.val) :
    Host.gather g1 x idx (ix1 e) = x (ix1 n) := by
  unfold Host.gather
  refine congrArg x ?_
  funext a
  obtain rfl : a = 0 := Subsingleton.elim _ _
  refine Fin.ext ?_
  show g1.start (ix1 e) idx 0 + g1.batchCoord (ix1 e) 0 + g1.offCoord (ix1 e) 0 = n.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ g1.startIndexMap from List.mem_singleton.mpr rfl)]
  have hsi : g1.siIdx (ix1 e)
      ⟨List.idxOf (0 : Fin 1) g1.startIndexMap, List.idxOf_lt_length_iff.2 (List.mem_singleton.mpr rfl)⟩ = ix2 e 0 := by
    funext b; refine Fin.ext ?_
    match b with
    | ⟨0, _⟩ => rfl
    | ⟨1, _⟩ => rfl
  rw [hsi]
  exact hn

/-! ### The matrix scatter-add -/

theorem sc2_start0 (idx : IVec S32000x2 32) (e : Fin 32000) :
    sc2.start (ix1 e) idx (0 : Fin 2) = (idx (ix2 e (0 : Fin 2))).toInt := by
  unfold ScatterDims.start
  rw [dif_pos (show (0 : Fin 2) ∈ sc2.scatterDimsToOperandDims from by decide)]
  refine congrArg (fun k => (idx k).toInt) ?_
  funext b; refine Fin.ext ?_
  match b with
  | ⟨0, _⟩ => rfl
  | ⟨1, _⟩ => rfl

theorem sc2_start1 (idx : IVec S32000x2 32) (e : Fin 32000) :
    sc2.start (ix1 e) idx (1 : Fin 2) = (idx (ix2 e (1 : Fin 2))).toInt := by
  unfold ScatterDims.start
  rw [dif_pos (show (1 : Fin 2) ∈ sc2.scatterDimsToOperandDims from by decide)]
  refine congrArg (fun k => (idx k).toInt) ?_
  funext b; refine Fin.ext ?_
  match b with
  | ⟨0, _⟩ => rfl
  | ⟨1, _⟩ => rfl

theorem sc2_window (e : Fin 32000) (a : Fin 2) : sc2.window (ix1 e) a = 0 := by
  match a with
  | ⟨0, _⟩ => rfl
  | ⟨1, _⟩ => rfl

/-- The matrix scatter-add at entry (t, s): the operand's entry plus the updates whose start index is (t, s). -/
theorem scatter2_apply (x : S1000x1000.Idx → EReal) (idx : IVec S32000x2 32) (upd : S32000.Idx → EReal) (t s : Fin 1000) :
    Ideal.hostScatterAdd sc2 x idx upd (ix2 t s)
      = x (ix2 t s) + ∑ e ∈ Finset.univ.filter (fun e : Fin 32000 =>
          (idx (ix2 e (0 : Fin 2))).toInt = (t.val : Int) ∧ (idx (ix2 e (1 : Fin 2))).toInt = (s.val : Int)),
          upd (ix1 e) := by
  unfold Ideal.hostScatterAdd
  refine congrArg (fun z => x (ix2 t s) + z) ?_
  refine Finset.sum_nbij' (fun j : S32000.Idx => (⟨(j 0).val, (j 0).isLt⟩ : Fin 32000)) (fun e => ix1 e) ?_ ?_ ?_ ?_ ?_
  · intro j hj
    have hj2 := (Finset.mem_filter.mp hj).2
    refine Finset.mem_filter.mpr ⟨Finset.mem_univ _, ?_⟩
    rw [eq_ix1e j] at hj2
    have H := (Cert.ReferenceIdeal.RefValue.resultIdx?_eq_some_iff _ _ idx (ix2 t s)).mp hj2
    have h0 := H (0 : Fin 2)
    have h1 := H (1 : Fin 2)
    rw [sc2_start0, sc2_window] at h0
    rw [sc2_start1, sc2_window] at h1
    exact ⟨by simpa using h0, by simpa using h1⟩
  · intro e he
    obtain ⟨h0, h1⟩ := (Finset.mem_filter.mp he).2
    refine Finset.mem_filter.mpr ⟨Finset.mem_univ _, ?_⟩
    refine (Cert.ReferenceIdeal.RefValue.resultIdx?_eq_some_iff _ _ idx (ix2 t s)).mpr fun a => ?_
    match a with
    | ⟨0, _⟩ =>
      show sc2.start (ix1 e) idx (0 : Fin 2) + (sc2.window (ix1 e) (0 : Fin 2) : Int) = ((t.val : Nat) : Int)
      rw [sc2_start0, sc2_window]; simpa using h0
    | ⟨1, _⟩ =>
      show sc2.start (ix1 e) idx (1 : Fin 2) + (sc2.window (ix1 e) (1 : Fin 2) : Int) = ((s.val : Nat) : Int)
      rw [sc2_start1, sc2_window]; simpa using h1
  · intro j _; exact (eq_ix1e j).symm
  · intro e _; rfl
  · intro j _; exact congrArg upd (eq_ix1e j)

/-! ### Two index columns side by side -/

/-- Column 0 of the joined index array is the first column. -/
theorem cat0_apply (a b : IVec S32000x1 32) (h : Shape.Concatenates [S32000x1, S32000x1] S32000x2 1) (e : Fin 32000) :
    concatenate S32000x2 1 [⟨S32000x1, a⟩, ⟨S32000x1, b⟩] h (ix2 e (0 : Fin 2)) = a (ix2 e (0 : Fin 1)) :=
  concatenate_apply_piece (t := S32000x2) (1 : Fin 2) [⟨S32000x1, a⟩, ⟨S32000x1, b⟩] h (ix2 e (0 : Fin 2)) 0 (by simp) S32000x1 a rfl rfl 0 rfl
    (ix2 e (0 : Fin 1))
    (fun c hc => match c with
      | ⟨0, _⟩ => rfl
      | ⟨1, _⟩ => absurd rfl hc)
    rfl

/-- Column 1 of the joined index array is the second column. -/
theorem cat1_apply (a b : IVec S32000x1 32) (h : Shape.Concatenates [S32000x1, S32000x1] S32000x2 1) (e : Fin 32000) :
    concatenate S32000x2 1 [⟨S32000x1, a⟩, ⟨S32000x1, b⟩] h (ix2 e (1 : Fin 2)) = b (ix2 e (0 : Fin 1)) :=
  concatenate_apply_piece (t := S32000x2) (1 : Fin 2) [⟨S32000x1, a⟩, ⟨S32000x1, b⟩] h (ix2 e (1 : Fin 2)) 1 (by simp) S32000x1 b rfl rfl 1 rfl
    (ix2 e (0 : Fin 1))
    (fun c hc => match c with
      | ⟨0, _⟩ => rfl
      | ⟨1, _⟩ => absurd rfl hc)
    rfl

end Cert.KernelIdeal.AdjValue

end
-- ==== Proof.KAdjSteps.lean ====
/-
  The host operations that build the adjacency matrix, one at a time: each buffer the region finds is its
  operation applied to the buffers it reads (the edge rows, the wrapped indices, the degrees, their
  inverse square roots, the edges' coefficients, the joined index columns, the scattered matrix, the sum
  with the diagonal).
-/
import proofs.«131067_j1941325218075_2_alg».proof.Proof.KHostStep
import Idealize.ShloMosaic.Lib.Pipeline.Value
import Idealize.ShloMosaic.Lib.ValueIdx

noncomputable section

namespace Cert.KernelIdeal.AdjValue

open Cert.KernelIdeal Cert.KernelIdeal.Gen Cert.KernelIdeal.HostValue Idealize.ShloMosaic Idealize.ShloMosaic.TcCoe Idealize.ShloMosaic.ValueIdx Idealize.ShloMosaic.StableHlo

variable (m : (ℓ : Loc nD τ sig) → Buf (Elt Ideal) ℓ) (c : Dev nD)

theorem V_main_v10 : (Gen.V (F := Ideal) m c main_v10 : (⟨S1x32000, .i32⟩ : BufTy).Contents (Elt Ideal)) = extractStridedSlice S1x32000 ![0, 0] (Gen.V (F := Ideal) m c main_arg3 : (⟨S2x32000, .i32⟩ : BufTy).Contents (Elt Ideal)) slices_S2x32000_S1x32000_0_0 :=
  step_unary wrAll_ok _ 10 rfl (by decide) (by decide)

theorem V_main_v11 : (Gen.V (F := Ideal) m c main_v11 : (⟨S32000, .i32⟩ : BufTy).Contents (Elt Ideal)) = shapeCast S32000 (Gen.V (F := Ideal) m c main_v10 : (⟨S1x32000, .i32⟩ : BufTy).Contents (Elt Ideal)) shapeCasts_S1x32000_S32000 :=
  step_reshape (x := main_v10) (y := main_v11) (he := rfl) (hn := shapeCasts_S1x32000_S32000) wrAll_ok _ 11 rfl (by decide) (by decide)

theorem V_main_v12 : (Gen.V (F := Ideal) m c main_v12 : (⟨S1x32000, .i32⟩ : BufTy).Contents (Elt Ideal)) = extractStridedSlice S1x32000 ![1, 0] (Gen.V (F := Ideal) m c main_arg3 : (⟨S2x32000, .i32⟩ : BufTy).Contents (Elt Ideal)) slices_S2x32000_S1x32000_1_0 :=
  step_unary wrAll_ok _ 12 rfl (by decide) (by decide)

theorem V_main_v13 : (Gen.V (F := Ideal) m c main_v13 : (⟨S32000, .i32⟩ : BufTy).Contents (Elt Ideal)) = shapeCast S32000 (Gen.V (F := Ideal) m c main_v12 : (⟨S1x32000, .i32⟩ : BufTy).Contents (Elt Ideal)) shapeCasts_S1x32000_S32000 :=
  step_reshape (x := main_v12) (y := main_v13) (he := rfl) (hn := shapeCasts_S1x32000_S32000) wrAll_ok _ 13 rfl (by decide) (by decide)

theorem V_main_cst : (Gen.V (F := Ideal) m c main_cst : (⟨S_, .f32⟩ : BufTy).Contents (Elt Ideal)) = constant (F := Ideal) S_ .f32 0x3F800000#32 :=
  step_nullary wrAll_ok _ 14 rfl (by decide)

theorem V_main_v14 : (Gen.V (F := Ideal) m c main_v14 : (⟨S1000, .f32⟩ : BufTy).Contents (Elt Ideal)) = broadcastInDim S1000 ![] bcast_S_S1000 (Gen.V (F := Ideal) m c main_cst : (⟨S_, .f32⟩ : BufTy).Contents (Elt Ideal)) :=
  step_unary wrAll_ok _ 15 rfl (by decide) (by decide)

theorem V_main_c : (Gen.V (F := Ideal) m c main_c : (⟨S_, .i32⟩ : BufTy).Contents (Elt Ideal)) = constantI S_ 32 0#32 :=
  step_nullary wrAll_ok _ 16 rfl (by decide)

theorem V_main_v15 : (Gen.V (F := Ideal) m c main_v15 : (⟨S32000, .i32⟩ : BufTy).Contents (Elt Ideal)) = broadcastInDim S32000 ![] bcast_S_S32000 (Gen.V (F := Ideal) m c main_c : (⟨S_, .i32⟩ : BufTy).Contents (Elt Ideal)) :=
  step_unary wrAll_ok _ 17 rfl (by decide) (by decide)

theorem V_main_v16 : (Gen.V (F := Ideal) m c main_v16 : (⟨S32000, .i1⟩ : BufTy).Contents (Elt Ideal)) = cmpi .slt (Gen.V (F := Ideal) m c main_v13 : (⟨S32000, .i32⟩ : BufTy).Contents (Elt Ideal)) (Gen.V (F := Ideal) m c main_v15 : (⟨S32000, .i32⟩ : BufTy).Contents (Elt Ideal)) :=
  step_binary wrAll_ok _ 18 rfl (by decide) (by decide) (by decide)

theorem V_main_c_0 : (Gen.V (F := Ideal) m c main_c_0 : (⟨S_, .i32⟩ : BufTy).Contents (Elt Ideal)) = constantI S_ 32 1000#32 :=
  step_nullary wrAll_ok _ 19 rfl (by decide)

theorem V_main_v17 : (Gen.V (F := Ideal) m c main_v17 : (⟨S32000, .i32⟩ : BufTy).Contents (Elt Ideal)) = broadcastInDim S32000 ![] bcast_S_S32000 (Gen.V (F := Ideal) m c main_c_0 : (⟨S_, .i32⟩ : BufTy).Contents (Elt Ideal)) :=
  step_unary wrAll_ok _ 20 rfl (by decide) (by decide)

theorem V_main_v18 : (Gen.V (F := Ideal) m c main_v18 : (⟨S32000, .i32⟩ : BufTy).Contents (Elt Ideal)) = addi (Gen.V (F := Ideal) m c main_v13 : (⟨S32000, .i32⟩ : BufTy).Contents (Elt Ideal)) (Gen.V (F := Ideal) m c main_v17 : (⟨S32000, .i32⟩ : BufTy).Contents (Elt Ideal)) :=
  step_binary wrAll_ok _ 21 rfl (by decide) (by decide) (by decide)

theorem V_main_v19 : (Gen.V (F := Ideal) m c main_v19 : (⟨S32000, .i32⟩ : BufTy).Contents (Elt Ideal)) = select (Gen.V (F := Ideal) m c main_v16 : (⟨S32000, .i1⟩ : BufTy).Contents (Elt Ideal)) (Gen.V (F := Ideal) m c main_v18 : (⟨S32000, .i32⟩ : BufTy).Contents (Elt Ideal)) (Gen.V (F := Ideal) m c main_v13 : (⟨S32000, .i32⟩ : BufTy).Contents (Elt Ideal)) :=
  step_ternary wrAll_ok _ 22 rfl (by decide) (by decide) (by decide) (by decide)

theorem V_main_v20 : (Gen.V (F := Ideal) m c main_v20 : (⟨S32000x1, .i32⟩ : BufTy).Contents (Elt Ideal)) = broadcastInDim S32000x1 ![0] bcast_S32000_S32000x1_0 (Gen.V (F := Ideal) m c main_v19 : (⟨S32000, .i32⟩ : BufTy).Contents (Elt Ideal)) :=
  step_unary wrAll_ok _ 23 rfl (by decide) (by decide)

theorem V_main_cst_1 : (Gen.V (F := Ideal) m c main_cst_1 : (⟨S_, .f32⟩ : BufTy).Contents (Elt Ideal)) = constant (F := Ideal) S_ .f32 0x3F800000#32 :=
  step_nullary wrAll_ok _ 24 rfl (by decide)

theorem V_main_v21 : (Gen.V (F := Ideal) m c main_v21 : (⟨S32000, .f32⟩ : BufTy).Contents (Elt Ideal)) = broadcastInDim S32000 ![] bcast_S_S32000 (Gen.V (F := Ideal) m c main_cst_1 : (⟨S_, .f32⟩ : BufTy).Contents (Elt Ideal)) :=
  step_unary wrAll_ok _ 25 rfl (by decide) (by decide)

theorem V_main_v22 : (Gen.V (F := Ideal) m c main_v22 : (⟨S1000, .f32⟩ : BufTy).Contents (Elt Ideal)) = Host.scatterAdd (F := Ideal) (φ := .f32) scatter_S1000_S32000x1_S32000_n_0_0_1 (Gen.V (F := Ideal) m c main_v14 : (⟨S1000, .f32⟩ : BufTy).Contents (Elt Ideal)) (Gen.V (F := Ideal) m c main_v20 : (⟨S32000x1, .i32⟩ : BufTy).Contents (Elt Ideal)) (Gen.V (F := Ideal) m c main_v21 : (⟨S32000, .f32⟩ : BufTy).Contents (Elt Ideal)) :=
  step_ternary wrAll_ok _ 26 rfl (by decide) (by decide) (by decide) (by decide)

theorem V_main_cst_2 : (Gen.V (F := Ideal) m c main_cst_2 : (⟨S_, .f32⟩ : BufTy).Contents (Elt Ideal)) = constant (F := Ideal) S_ .f32 0xBF000000#32 :=
  step_nullary wrAll_ok _ 27 rfl (by decide)

theorem V_main_v23 : (Gen.V (F := Ideal) m c main_v23 : (⟨S1000, .f32⟩ : BufTy).Contents (Elt Ideal)) = broadcastInDim S1000 ![] bcast_S_S1000 (Gen.V (F := Ideal) m c main_cst_2 : (⟨S_, .f32⟩ : BufTy).Contents (Elt Ideal)) :=
  step_unary wrAll_ok _ 28 rfl (by decide) (by decide)

theorem V_main_v24 : (Gen.V (F := Ideal) m c main_v24 : (⟨S1000, .f32⟩ : BufTy).Contents (Elt Ideal)) = Host.powf (F := Ideal) (φ := .f32) (Gen.V (F := Ideal) m c main_v22 : (⟨S1000, .f32⟩ : BufTy).Contents (Elt Ideal)) (Gen.V (F := Ideal) m c main_v23 : (⟨S1000, .f32⟩ : BufTy).Contents (Elt Ideal)) :=
  step_binary wrAll_ok _ 29 rfl (by decide) (by decide) (by decide)

theorem V_main_c_3 : (Gen.V (F := Ideal) m c main_c_3 : (⟨S_, .i32⟩ : BufTy).Contents (Elt Ideal)) = constantI S_ 32 0#32 :=
  step_nullary wrAll_ok _ 30 rfl (by decide)

theorem V_main_v25 : (Gen.V (F := Ideal) m c main_v25 : (⟨S32000, .i32⟩ : BufTy).Contents (Elt Ideal)) = broadcastInDim S32000 ![] bcast_S_S32000 (Gen.V (F := Ideal) m c main_c_3 : (⟨S_, .i32⟩ : BufTy).Contents (Elt Ideal)) :=
  step_unary wrAll_ok _ 31 rfl (by decide) (by decide)

theorem V_main_v26 : (Gen.V (F := Ideal) m c main_v26 : (⟨S32000, .i1⟩ : BufTy).Contents (Elt Ideal)) = cmpi .slt (Gen.V (F := Ideal) m c main_v11 : (⟨S32000, .i32⟩ : BufTy).Contents (Elt Ideal)) (Gen.V (F := Ideal) m c main_v25 : (⟨S32000, .i32⟩ : BufTy).Contents (Elt Ideal)) :=
  step_binary wrAll_ok _ 32 rfl (by decide) (by decide) (by decide)

theorem V_main_c_4 : (Gen.V (F := Ideal) m c main_c_4 : (⟨S_, .i32⟩ : BufTy).Contents (Elt Ideal)) = constantI S_ 32 1000#32 :=
  step_nullary wrAll_ok _ 33 rfl (by decide)

theorem V_main_v27 : (Gen.V (F := Ideal) m c main_v27 : (⟨S32000, .i32⟩ : BufTy).Contents (Elt Ideal)) = broadcastInDim S32000 ![] bcast_S_S32000 (Gen.V (F := Ideal) m c main_c_4 : (⟨S_, .i32⟩ : BufTy).Contents (Elt Ideal)) :=
  step_unary wrAll_ok _ 34 rfl (by decide) (by decide)

theorem V_main_v28 : (Gen.V (F := Ideal) m c main_v28 : (⟨S32000, .i32⟩ : BufTy).Contents (Elt Ideal)) = addi (Gen.V (F := Ideal) m c main_v11 : (⟨S32000, .i32⟩ : BufTy).Contents (Elt Ideal)) (Gen.V (F := Ideal) m c main_v27 : (⟨S32000, .i32⟩ : BufTy).Contents (Elt Ideal)) :=
  step_binary wrAll_ok _ 35 rfl (by decide) (by decide) (by decide)

theorem V_main_v29 : (Gen.V (F := Ideal) m c main_v29 : (⟨S32000, .i32⟩ : BufTy).Contents (Elt Ideal)) = select (Gen.V (F := Ideal) m c main_v26 : (⟨S32000, .i1⟩ : BufTy).Contents (Elt Ideal)) (Gen.V (F := Ideal) m c main_v28 : (⟨S32000, .i32⟩ : BufTy).Contents (Elt Ideal)) (Gen.V (F := Ideal) m c main_v11 : (⟨S32000, .i32⟩ : BufTy).Contents (Elt Ideal)) :=
  step_ternary wrAll_ok _ 36 rfl (by decide) (by decide) (by decide) (by decide)

theorem V_main_v30 : (Gen.V (F := Ideal) m c main_v30 : (⟨S32000x1, .i32⟩ : BufTy).Contents (Elt Ideal)) = broadcastInDim S32000x1 ![0] bcast_S32000_S32000x1_0 (Gen.V (F := Ideal) m c main_v29 : (⟨S32000, .i32⟩ : BufTy).Contents (Elt Ideal)) :=
  step_unary wrAll_ok _ 37 rfl (by decide) (by decide)

theorem V_main_v31 : (Gen.V (F := Ideal) m c main_v31 : (⟨S32000, .f32⟩ : BufTy).Contents (Elt Ideal)) = Host.gather gather_S1000_S32000x1_S32000_n_0_n_n_0_1_1 (Gen.V (F := Ideal) m c main_v24 : (⟨S1000, .f32⟩ : BufTy).Contents (Elt Ideal)) (Gen.V (F := Ideal) m c main_v30 : (⟨S32000x1, .i32⟩ : BufTy).Contents (Elt Ideal)) :=
  step_binary wrAll_ok _ 38 rfl (by decide) (by decide) (by decide)

theorem V_main_c_5 : (Gen.V (F := Ideal) m c main_c_5 : (⟨S_, .i32⟩ : BufTy).Contents (Elt Ideal)) = constantI S_ 32 0#32 :=
  step_nullary wrAll_ok _ 39 rfl (by decide)

theorem V_main_v32 : (Gen.V (F := Ideal) m c main_v32 : (⟨S32000, .i32⟩ : BufTy).Contents (Elt Ideal)) = broadcastInDim S32000 ![] bcast_S_S32000 (Gen.V (F := Ideal) m c main_c_5 : (⟨S_, .i32⟩ : BufTy).Contents (Elt Ideal)) :=
  step_unary wrAll_ok _ 40 rfl (by decide) (by decide)

theorem V_main_v33 : (Gen.V (F := Ideal) m c main_v33 : (⟨S32000, .i1⟩ : BufTy).Contents (Elt Ideal)) = cmpi .slt (Gen.V (F := Ideal) m c main_v13 : (⟨S32000, .i32⟩ : BufTy).Contents (Elt Ideal)) (Gen.V (F := Ideal) m c main_v32 : (⟨S32000, .i32⟩ : BufTy).Contents (Elt Ideal)) :=
  step_binary wrAll_ok _ 41 rfl (by decide) (by decide) (by decide)

theorem V_main_c_6 : (Gen.V (F := Ideal) m c main_c_6 : (⟨S_, .i32⟩ : BufTy).Contents (Elt Ideal)) = constantI S_ 32 1000#32 :=
  step_nullary wrAll_ok _ 42 rfl (by decide)

theorem V_main_v34 : (Gen.V (F := Ideal) m c main_v34 : (⟨S32000, .i32⟩ : BufTy).Contents (Elt Ideal)) = broadcastInDim S32000 ![] bcast_S_S32000 (Gen.V (F := Ideal) m c main_c_6 : (⟨S_, .i32⟩ : BufTy).Contents (Elt Ideal)) :=
  step_unary wrAll_ok _ 43 rfl (by decide) (by decide)

theorem V_main_v35 : (Gen.V (F := Ideal) m c main_v35 : (⟨S32000, .i32⟩ : BufTy).Contents (Elt Ideal)) = addi (Gen.V (F := Ideal) m c main_v13 : (⟨S32000, .i32⟩ : BufTy).Contents (Elt Ideal)) (Gen.V (F := Ideal) m c main_v34 : (⟨S32000, .i32⟩ : BufTy).Contents (Elt Ideal)) :=
  step_binary wrAll_ok _ 44 rfl (by decide) (by decide) (by decide)

theorem V_main_v36 : (Gen.V (F := Ideal) m c main_v36 : (⟨S32000, .i32⟩ : BufTy).Contents (Elt Ideal)) = select (Gen.V (F := Ideal) m c main_v33 : (⟨S32000, .i1⟩ : BufTy).Contents (Elt Ideal)) (Gen.V (F := Ideal) m c main_v35 : (⟨S32000, .i32⟩ : BufTy).Contents (Elt Ideal)) (Gen.V (F := Ideal) m c main_v13 : (⟨S32000, .i32⟩ : BufTy).Contents (Elt Ideal)) :=
  step_ternary wrAll_ok _ 45 rfl (by decide) (by decide) (by decide) (by decide)

theorem V_main_v37 : (Gen.V (F := Ideal) m c main_v37 : (⟨S32000x1, .i32⟩ : BufTy).Contents (Elt Ideal)) = broadcastInDim S32000x1 ![0] bcast_S32000_S32000x1_0 (Gen.V (F := Ideal) m c main_v36 : (⟨S32000, .i32⟩ : BufTy).Contents (Elt Ideal)) :=
  step_unary wrAll_ok _ 46 rfl (by decide) (by decide)

theorem V_main_v38 : (Gen.V (F := Ideal) m c main_v38 : (⟨S32000, .f32⟩ : BufTy).Contents (Elt Ideal)) = Host.gather gather_S1000_S32000x1_S32000_n_0_n_n_0_1_1 (Gen.V (F := Ideal) m c main_v24 : (⟨S1000, .f32⟩ : BufTy).Contents (Elt Ideal)) (Gen.V (F := Ideal) m c main_v37 : (⟨S32000x1, .i32⟩ : BufTy).Contents (Elt Ideal)) :=
  step_binary wrAll_ok _ 47 rfl (by decide) (by decide) (by decide)

theorem V_main_v39 : (Gen.V (F := Ideal) m c main_v39 : (⟨S32000, .f32⟩ : BufTy).Contents (Elt Ideal)) = mulf (F := Ideal) (φ := .f32) (Gen.V (F := Ideal) m c main_v31 : (⟨S32000, .f32⟩ : BufTy).Contents (Elt Ideal)) (Gen.V (F := Ideal) m c main_v38 : (⟨S32000, .f32⟩ : BufTy).Contents (Elt Ideal)) :=
  step_binary wrAll_ok _ 48 rfl (by decide) (by decide) (by decide)

theorem V_main_cst_7 : (Gen.V (F := Ideal) m c main_cst_7 : (⟨S_, .f32⟩ : BufTy).Contents (Elt Ideal)) = constant (F := Ideal) S_ .f32 0x00000000#32 :=
  step_nullary wrAll_ok _ 49 rfl (by decide)

theorem V_main_v40 : (Gen.V (F := Ideal) m c main_v40 : (⟨S1000x1000, .f32⟩ : BufTy).Contents (Elt Ideal)) = broadcastInDim S1000x1000 ![] bcast_S_S1000x1000 (Gen.V (F := Ideal) m c main_cst_7 : (⟨S_, .f32⟩ : BufTy).Contents (Elt Ideal)) :=
  step_unary wrAll_ok _ 50 rfl (by decide) (by decide)

theorem V_main_c_8 : (Gen.V (F := Ideal) m c main_c_8 : (⟨S_, .i32⟩ : BufTy).Contents (Elt Ideal)) = constantI S_ 32 0#32 :=
  step_nullary wrAll_ok _ 51 rfl (by decide)

theorem V_main_v41 : (Gen.V (F := Ideal) m c main_v41 : (⟨S32000, .i32⟩ : BufTy).Contents (Elt Ideal)) = broadcastInDim S32000 ![] bcast_S_S32000 (Gen.V (F := Ideal) m c main_c_8 : (⟨S_, .i32⟩ : BufTy).Contents (Elt Ideal)) :=
  step_unary wrAll_ok _ 52 rfl (by decide) (by decide)

theorem V_main_v42 : (Gen.V (F := Ideal) m c main_v42 : (⟨S32000, .i1⟩ : BufTy).Contents (Elt Ideal)) = cmpi .slt (Gen.V (F := Ideal) m c main_v13 : (⟨S32000, .i32⟩ : BufTy).Contents (Elt Ideal)) (Gen.V (F := Ideal) m c main_v41 : (⟨S32000, .i32⟩ : BufTy).Contents (Elt Ideal)) :=
  step_binary wrAll_ok _ 53 rfl (by decide) (by decide) (by decide)

theorem V_main_c_9 : (Gen.V (F := Ideal) m c main_c_9 : (⟨S_, .i32⟩ : BufTy).Contents (Elt Ideal)) = constantI S_ 32 1000#32 :=
  step_nullary wrAll_ok _ 54 rfl (by decide)

theorem V_main_v43 : (Gen.V (F := Ideal) m c main_v43 : (⟨S32000, .i32⟩ : BufTy).Contents (Elt Ideal)) = broadcastInDim S32000 ![] bcast_S_S32000 (Gen.V (F := Ideal) m c main_c_9 : (⟨S_, .i32⟩ : BufTy).Contents (Elt Ideal)) :=
  step_unary wrAll_ok _ 55 rfl (by decide) (by decide)

theorem V_main_v44 : (Gen.V (F := Ideal) m c main_v44 : (⟨S32000, .i32⟩ : BufTy).Contents (Elt Ideal)) = addi (Gen.V (F := Ideal) m c main_v13 : (⟨S32000, .i32⟩ : BufTy).Contents (Elt Ideal)) (Gen.V (F := Ideal) m c main_v43 : (⟨S32000, .i32⟩ : BufTy).Contents (Elt Ideal)) :=
  step_binary wrAll_ok _ 56 rfl (by decide) (by decide) (by decide)

theorem V_main_v45 : (Gen.V (F := Ideal) m c main_v45 : (⟨S32000, .i32⟩ : BufTy).Contents (Elt Ideal)) = select (Gen.V (F := Ideal) m c main_v42 : (⟨S32000, .i1⟩ : BufTy).Contents (Elt Ideal)) (Gen.V (F := Ideal) m c main_v44 : (⟨S32000, .i32⟩ : BufTy).Contents (Elt Ideal)) (Gen.V (F := Ideal) m c main_v13 : (⟨S32000, .i32⟩ : BufTy).Contents (Elt Ideal)) :=
  step_ternary wrAll_ok _ 57 rfl (by decide) (by decide) (by decide) (by decide)

theorem V_main_c_10 : (Gen.V (F := Ideal) m c main_c_10 : (⟨S_, .i32⟩ : BufTy).Contents (Elt Ideal)) = constantI S_ 32 0#32 :=
  step_nullary wrAll_ok _ 58 rfl (by decide)

theorem V_main_v46 : (Gen.V (F := Ideal) m c main_v46 : (⟨S32000, .i32⟩ : BufTy).Contents (Elt Ideal)) = broadcastInDim S32000 ![] bcast_S_S32000 (Gen.V (F := Ideal) m c main_c_10 : (⟨S_, .i32⟩ : BufTy).Contents (Elt Ideal)) :=
  step_unary wrAll_ok _ 59 rfl (by decide) (by decide)

theorem V_main_v47 : (Gen.V (F := Ideal) m c main_v47 : (⟨S32000, .i1⟩ : BufTy).Contents (Elt Ideal)) = cmpi .slt (Gen.V (F := Ideal) m c main_v11 : (⟨S32000, .i32⟩ : BufTy).Contents (Elt Ideal)) (Gen.V (F := Ideal) m c main_v46 : (⟨S32000, .i32⟩ : BufTy).Contents (Elt Ideal)) :=
  step_binary wrAll_ok _ 60 rfl (by decide) (by decide) (by decide)

theorem V_main_c_11 : (Gen.V (F := Ideal) m c main_c_11 : (⟨S_, .i32⟩ : BufTy).Contents (Elt Ideal)) = constantI S_ 32 1000#32 :=
  step_nullary wrAll_ok _ 61 rfl (by decide)

theorem V_main_v48 : (Gen.V (F := Ideal) m c main_v48 : (⟨S32000, .i32⟩ : BufTy).Contents (Elt Ideal)) = broadcastInDim S32000 ![] bcast_S_S32000 (Gen.V (F := Ideal) m c main_c_11 : (⟨S_, .i32⟩ : BufTy).Contents (Elt Ideal)) :=
  step_unary wrAll_ok _ 62 rfl (by decide) (by decide)

theorem V_main_v49 : (Gen.V (F := Ideal) m c main_v49 : (⟨S32000, .i32⟩ : BufTy).Contents (Elt Ideal)) = addi (Gen.V (F := Ideal) m c main_v11 : (⟨S32000, .i32⟩ : BufTy).Contents (Elt Ideal)) (Gen.V (F := Ideal) m c main_v48 : (⟨S32000, .i32⟩ : BufTy).Contents (Elt Ideal)) :=
  step_binary wrAll_ok _ 63 rfl (by decide) (by decide) (by decide)

theorem V_main_v50 : (Gen.V (F := Ideal) m c main_v50 : (⟨S32000, .i32⟩ : BufTy).Contents (Elt Ideal)) = select (Gen.V (F := Ideal) m c main_v47 : (⟨S32000, .i1⟩ : BufTy).Contents (Elt Ideal)) (Gen.V (F := Ideal) m c main_v49 : (⟨S32000, .i32⟩ : BufTy).Contents (Elt Ideal)) (Gen.V (F := Ideal) m c main_v11 : (⟨S32000, .i32⟩ : BufTy).Contents (Elt Ideal)) :=
  step_ternary wrAll_ok _ 64 rfl (by decide) (by decide) (by decide) (by decide)

theorem V_main_v51 : (Gen.V (F := Ideal) m c main_v51 : (⟨S32000x1, .i32⟩ : BufTy).Contents (Elt Ideal)) = broadcastInDim S32000x1 ![0] bcast_S32000_S32000x1_0 (Gen.V (F := Ideal) m c main_v45 : (⟨S32000, .i32⟩ : BufTy).Contents (Elt Ideal)) :=
  step_unary wrAll_ok _ 65 rfl (by decide) (by decide)

theorem V_main_v52 : (Gen.V (F := Ideal) m c main_v52 : (⟨S32000x1, .i32⟩ : BufTy).Contents (Elt Ideal)) = broadcastInDim S32000x1 ![0] bcast_S32000_S32000x1_0 (Gen.V (F := Ideal) m c main_v50 : (⟨S32000, .i32⟩ : BufTy).Contents (Elt Ideal)) :=
  step_unary wrAll_ok _ 66 rfl (by decide) (by decide)

theorem V_main_v53 : (Gen.V (F := Ideal) m c main_v53 : (⟨S32000x2, .i32⟩ : BufTy).Contents (Elt Ideal)) = concatenate S32000x2 1 [⟨S32000x1, (Gen.V (F := Ideal) m c main_v51 : (⟨S32000x1, .i32⟩ : BufTy).Contents (Elt Ideal))⟩, ⟨S32000x1, (Gen.V (F := Ideal) m c main_v52 : (⟨S32000x1, .i32⟩ : BufTy).Contents (Elt Ideal))⟩] concatenates_S32000x1_S32000x1_S32000x2_d1 :=
  step_binary wrAll_ok _ 67 rfl (by decide) (by decide) (by decide)

theorem V_main_v54 : (Gen.V (F := Ideal) m c main_v54 : (⟨S1000x1000, .f32⟩ : BufTy).Contents (Elt Ideal)) = Host.scatterAdd (F := Ideal) (φ := .f32) scatter_S1000x1000_S32000x2_S32000_n_01_01_1 (Gen.V (F := Ideal) m c main_v40 : (⟨S1000x1000, .f32⟩ : BufTy).Contents (Elt Ideal)) (Gen.V (F := Ideal) m c main_v53 : (⟨S32000x2, .i32⟩ : BufTy).Contents (Elt Ideal)) (Gen.V (F := Ideal) m c main_v39 : (⟨S32000, .f32⟩ : BufTy).Contents (Elt Ideal)) :=
  step_ternary wrAll_ok _ 68 rfl (by decide) (by decide) (by decide) (by decide)

theorem V_main_v55 : (Gen.V (F := Ideal) m c main_v55 : (⟨S1000, .f32⟩ : BufTy).Contents (Elt Ideal)) = mulf (F := Ideal) (φ := .f32) (Gen.V (F := Ideal) m c main_v24 : (⟨S1000, .f32⟩ : BufTy).Contents (Elt Ideal)) (Gen.V (F := Ideal) m c main_v24 : (⟨S1000, .f32⟩ : BufTy).Contents (Elt Ideal)) :=
  step_binary wrAll_ok _ 69 rfl (by decide) (by decide) (by decide)

theorem V_main_v57 : (Gen.V (F := Ideal) m c main_v57 : (⟨S1000x1000, .f32⟩ : BufTy).Contents (Elt Ideal)) = addf (F := Ideal) (φ := .f32) (Gen.V (F := Ideal) m c main_v54 : (⟨S1000x1000, .f32⟩ : BufTy).Contents (Elt Ideal)) (Gen.V (F := Ideal) m c main_v56 : (⟨S1000x1000, .f32⟩ : BufTy).Contents (Elt Ideal)) :=
  step_binary wrAll_ok _ 83 rfl (by decide) (by decide) (by decide)

end Cert.KernelIdeal.AdjValue

end
-- ==== Proof.KDiag.lean ====
/-
  The diagonal matrix of the squared inverse square roots of the degrees.

  The vector v24 * v24 is laid on the diagonal of a 1000 x 1000 matrix: the row coordinate (plus a broadcast 0)
  is compared with the column coordinate, the vector is broadcast along the rows, and a select takes the
  vector's entry where the coordinates agree and 0.0 elsewhere.  Both coordinates are below 1000, so their
  32-bit words agree exactly when they do; the pad in front of the broadcast has no padding at all.
-/
import proofs.«131067_j1941325218075_2_alg».proof.Proof.KHostStep
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.DiagValue

open Cert.KernelIdeal Cert.KernelIdeal.Gen Cert.KernelIdeal.HostValue
open Idealize.ShloMosaic Idealize.ShloMosaic.TcCoe Idealize.ShloMosaic.ValueIdx Idealize.ShloMosaic.StableHlo
open Cert.KernelIdeal.Facts

variable (m : (ℓ : Loc nD τ sig) → Buf (Elt Ideal) ℓ) (c : Dev nD)

/-! ## The operations, one at a time -/

theorem V_main_v55 : (Gen.V (F := Ideal) m c main_v55 : (⟨S1000, .f32⟩ : BufTy).Contents (Elt Ideal)) = mulf (F := Ideal) (s := S1000) (φ := .f32) (Gen.V (F := Ideal) m c main_v24 : (⟨S1000, .f32⟩ : BufTy).Contents (Elt Ideal)) (Gen.V (F := Ideal) m c main_v24 : (⟨S1000, .f32⟩ : BufTy).Contents (Elt Ideal)) :=
  step_binary wrAll_ok _ 69 rfl (by decide) (by decide) (by decide)

theorem V_call0_cst : (Gen.V (F := Ideal) m c main_call0_cst : (⟨S_, .f32⟩ : BufTy).Contents (Elt Ideal)) = constant (F := Ideal) S_ .f32 0x00000000#32 :=
  step_nullary wrAll_ok _ 70 rfl (by decide)

theorem V_call0_v0 : (Gen.V (F := Ideal) m c main_call0_v0 : (⟨S1000, .f32⟩ : BufTy).Contents (Elt Ideal)) = pad S1000 ![0] ![0] ![0] (Gen.V (F := Ideal) m c main_v55 : (⟨S1000, .f32⟩ : BufTy).Contents (Elt Ideal)) (Gen.V (F := Ideal) m c main_call0_cst : (⟨S_, .f32⟩ : BufTy).Contents (Elt Ideal)) pads_S1000_S1000_000 h_S_ :=
  step_binary wrAll_ok _ 71 rfl (by decide) (by decide) (by decide)

theorem V_call0_v1 : (Gen.V (F := Ideal) m c main_call0_v1 : (⟨S1000x1000, .i32⟩ : BufTy).Contents (Elt Ideal)) = iotaInDim S1000x1000 32 0 :=
  step_nullary wrAll_ok _ 72 rfl (by decide)

theorem V_call0_v2 : (Gen.V (F := Ideal) m c main_call0_v2 : (⟨S1000x1000, .i32⟩ : BufTy).Contents (Elt Ideal)) = iotaInDim S1000x1000 32 1 :=
  step_nullary wrAll_ok _ 73 rfl (by decide)

theorem V_call0_c : (Gen.V (F := Ideal) m c main_call0_c : (⟨S_, .i32⟩ : BufTy).Contents (Elt Ideal)) = constantI S_ 32 0#32 :=
  step_nullary wrAll_ok _ 74 rfl (by decide)

theorem V_call0_v3 : (Gen.V (F := Ideal) m c main_call0_v3 : (⟨S1000x1000, .i32⟩ : BufTy).Contents (Elt Ideal)) = broadcastInDim S1000x1000 ![] bcast_S_S1000x1000 (Gen.V (F := Ideal) m c main_call0_c : (⟨S_, .i32⟩ : BufTy).Contents (Elt Ideal)) :=
  step_unary wrAll_ok _ 75 rfl (by decide) (by decide)

theorem V_call0_v4 : (Gen.V (F := Ideal) m c main_call0_v4 : (⟨S1000x1000, .i32⟩ : BufTy).Contents (Elt Ideal)) = addi (Gen.V (F := Ideal) m c main_call0_v1 : (⟨S1000x1000, .i32⟩ : BufTy).Contents (Elt Ideal)) (Gen.V (F := Ideal) m c main_call0_v3 : (⟨S1000x1000, .i32⟩ : BufTy).Contents (Elt Ideal)) :=
  step_binary wrAll_ok _ 76 rfl (by decide) (by decide) (by decide)

theorem V_call0_v5 : (Gen.V (F := Ideal) m c main_call0_v5 : (⟨S1000x1000, .i1⟩ : BufTy).Contents (Elt Ideal)) = cmpi .eq (Gen.V (F := Ideal) m c main_call0_v4 : (⟨S1000x1000, .i32⟩ : BufTy).Contents (Elt Ideal)) (Gen.V (F := Ideal) m c main_call0_v2 : (⟨S1000x1000, .i32⟩ : BufTy).Contents (Elt Ideal)) :=
  step_binary wrAll_ok _ 77 rfl (by decide) (by decide) (by decide)

theorem V_call0_v6 : (Gen.V (F := Ideal) m c main_call0_v6 : (⟨S1000x1, .f32⟩ : BufTy).Contents (Elt Ideal)) = broadcastInDim S1000x1 ![0] bcast_S1000_S1000x1_0 (Gen.V (F := Ideal) m c main_call0_v0 : (⟨S1000, .f32⟩ : BufTy).Contents (Elt Ideal)) :=
  step_unary wrAll_ok _ 78 rfl (by decide) (by decide)

theorem V_call0_cst_0 : (Gen.V (F := Ideal) m c main_call0_cst_0 : (⟨S_, .f32⟩ : BufTy).Contents (Elt Ideal)) = constant (F := Ideal) S_ .f32 0x00000000#32 :=
  step_nullary wrAll_ok _ 79 rfl (by decide)

theorem V_call0_call0_v0 : (Gen.V (F := Ideal) m c main_call0_call0_v0 : (⟨S1000x1000, .f32⟩ : BufTy).Contents (Elt Ideal)) = broadcastInDim S1000x1000 ![0, 1] bcast_S1000x1_S1000x1000_0_1 (Gen.V (F := Ideal) m c main_call0_v6 : (⟨S1000x1, .f32⟩ : BufTy).Contents (Elt Ideal)) :=
  step_unary wrAll_ok _ 80 rfl (by decide) (by decide)

theorem V_call0_call0_v1 : (Gen.V (F := Ideal) m c main_call0_call0_v1 : (⟨S1000x1000, .f32⟩ : BufTy).Contents (Elt Ideal)) = broadcastInDim S1000x1000 ![] bcast_S_S1000x1000 (Gen.V (F := Ideal) m c main_call0_cst_0 : (⟨S_, .f32⟩ : BufTy).Contents (Elt Ideal)) :=
  step_unary wrAll_ok _ 81 rfl (by decide) (by decide)

theorem V_main_v56 : (Gen.V (F := Ideal) m c main_v56 : (⟨S1000x1000, .f32⟩ : BufTy).Contents (Elt Ideal)) = select (Gen.V (F := Ideal) m c main_call0_v5 : (⟨S1000x1000, .i1⟩ : BufTy).Contents (Elt Ideal)) (Gen.V (F := Ideal) m c main_call0_call0_v0 : (⟨S1000x1000, .f32⟩ : BufTy).Contents (Elt Ideal)) (Gen.V (F := Ideal) m c main_call0_call0_v1 : (⟨S1000x1000, .f32⟩ : BufTy).Contents (Elt Ideal)) :=
  step_ternary wrAll_ok _ 82 rfl (by decide) (by decide) (by decide) (by decide)

/-! ## At an index -/

/-- The condition is 1 exactly on the diagonal: two coordinates below 1000 have equal 32-bit words iff they are equal. -/
theorem cond_apply (t s : Fin 1000) :
    (Gen.V (F := Ideal) m c main_call0_v5 : S1000x1000.Idx → BitVec 1) (ix2 t s) = (1 : BitVec 1) ↔ t = s := by
  rw [V_call0_v5, V_call0_v4, V_call0_v1, V_call0_v2, V_call0_v3, V_call0_c]
  show IntOp.cmpi .eq (IntOp.addi (BitVec.ofNat 32 t.val) (0#32)) (BitVec.ofNat 32 s.val) = 1#1 ↔ t = s
  rw [IntOp.cmpi_eq]
  show BitVec.ofNat 32 t.val + 0#32 = BitVec.ofNat 32 s.val ↔ t = s
  rw [BitVec.add_zero]
  constructor
  · intro h
    have ht := t.isLt
    have hs := s.isLt
    have e := congrArg BitVec.toNat h
    rw [BitVec.toNat_ofNat, BitVec.toNat_ofNat] at e
    exact Fin.ext (by omega)
  · rintro rfl
    rfl

/-- Where the condition holds the select reads the vector's entry of that row: v24[t] * v24[t]. -/
theorem then_apply (t s : Fin 1000) :
    (Gen.V (F := Ideal) m c main_call0_call0_v0 : S1000x1000.Idx → EReal) (ix2 t s)
      = HMul.hMul (α := EReal) (β := EReal) (γ := EReal) (Gen.V (F := Ideal) m c main_v24 (ix1 t)) (Gen.V (F := Ideal) m c main_v24 (ix1 t)) := by
  rw [V_call0_call0_v0, V_call0_v6, V_call0_v0, V_main_v55]
  refine (broadcastInDim_apply ![0, 1] bcast_S1000x1_S1000x1000_0_1 _ (ix2 t s) (ix2 t (0 : Fin 1)) ?_).trans ?_
  · intro a; fin_cases a <;> rfl
  refine (broadcastInDim_apply ![0] bcast_S1000_S1000x1_0 _ (ix2 t (0 : Fin 1)) (ix1 t) ?_).trans ?_
  · intro a; fin_cases a; rfl
  refine (pad_apply_of_inside ![0] ![0] ![0] _ _ pads_S1000_S1000_000 h_S_ (ix1 t) (ix1 t) ?_).trans ?_
  · intro a; fin_cases a
    show t.val = 0 + t.val * (0 + 1)
    omega
  rfl

/-- Elsewhere it reads 0.0, which denotes 0. -/
theorem else_apply (t s : Fin 1000) :
    (Gen.V (F := Ideal) m c main_call0_call0_v1 : S1000x1000.Idx → EReal) (ix2 t s) = (0 : EReal) := by
  rw [V_call0_call0_v1, V_call0_cst_0]
  show Ideal.ofBits .f32 0x00000000#32 = 0
  exact Ideal.ofBits_zero_f32

/-- THE DIAGONAL: entry (t, s) is v24[t] * v24[t] when t = s and 0 otherwise. -/
theorem diag_value (t s : Fin 1000) :
    (Gen.V (F := Ideal) m c main_v56 : S1000x1000.Idx → EReal) (ix2 t s)
      = if t = s then HMul.hMul (α := EReal) (β := EReal) (γ := EReal) (Gen.V (F := Ideal) m c main_v24 (ix1 t)) (Gen.V (F := Ideal) m c main_v24 (ix1 t))
        else (0 : EReal) := by
  rw [V_main_v56]
  show Scalar.select ((Gen.V (F := Ideal) m c main_call0_v5 : S1000x1000.Idx → BitVec 1) (ix2 t s))
      ((Gen.V (F := Ideal) m c main_call0_call0_v0 : S1000x1000.Idx → EReal) (ix2 t s))
      ((Gen.V (F := Ideal) m c main_call0_call0_v1 : S1000x1000.Idx → EReal) (ix2 t s)) = _
  unfold Scalar.select
  by_cases h : t = s
  · rw [if_pos h, if_pos ((cond_apply m c t s).2 h)]
    exact then_apply m c t s
  · rw [if_neg h, if_neg fun hc => h ((cond_apply m c t s).1 hc)]
    exact else_apply m c t s

end Cert.KernelIdeal.DiagValue

end
-- ==== Proof.KAdjValue.lean ====
/-
  The normalised adjacency matrix the host operations build, entry by entry.

  From the edge array (row 0 the sources, row 1 the targets, every word below 1000): the degree of a node is
  one plus the number of edges into it, its normalisation the degree to the power -1/2; an edge's coefficient
  is the product of its end points' normalisations; the coefficients are added into a zero matrix at
  (target, source), and the diagonal of squared normalisations is added to that.
-/
import proofs.«131067_j1941325218075_2_alg».proof.Proof.KAdjIdx
import proofs.«131067_j1941325218075_2_alg».proof.Proof.KAdjScat
import proofs.«131067_j1941325218075_2_alg».proof.Proof.KAdjSteps
import proofs.«131067_j1941325218075_2_alg».proof.Proof.KDiag
import proofs.«131067_j1941325218075_2_alg».proof.Proof.Spec

noncomputable section

namespace Cert.KernelIdeal.AdjValue

open Cert.KernelIdeal Cert.KernelIdeal.Gen Idealize.ShloMosaic Idealize.ShloMosaic.TcCoe Idealize.ShloMosaic.ValueIdx

/-- A start index below 1000 names node d exactly when, as a number, it is d. -/
theorem idx_iff (w : BitVec 32) (hw : w.toNat < 1000) (d : Fin 1000) :
    w.toInt = (d.val : Int) ↔ (⟨w.toNat, hw⟩ : Fin 1000) = d := by
  rw [toInt_of_lt w hw, Fin.ext_iff]
  exact Int.natCast_inj

/-- A start index below 1000 needs no clamping into 0 .. 999. -/
theorem clamp_of_lt (w : BitVec 32) (hw : w.toNat < 1000) : min w.toInt.toNat 999 = w.toNat := by
  rw [toInt_of_lt w hw, Int.toNat_natCast]
  omega

/-- The host's power, product and sum at an index, on the extended reals. -/
theorem powf_at {S : Shape} (x y : FVec Ideal S .f32) (i : S.Idx) :
    Host.powf (F := Ideal) (φ := .f32) x y i = Ideal.pow (x i) (y i) := rfl
theorem mulf_at {S : Shape} (x y : FVec Ideal S .f32) (i : S.Idx) :
    mulf (F := Ideal) (φ := .f32) x y i = x i * y i := rfl
theorem addf_at {S : Shape} (x y : FVec Ideal S .f32) (i : S.Idx) :
    addf (F := Ideal) (φ := .f32) x y i = x i + y i := rfl

section Entries

variable (m : (ℓ : Loc nD τ sig) → Buf (Elt Ideal) ℓ) (c : Dev nD)
variable (E : IVec S2x32000 32) (hE : (Gen.V (F := Ideal) m c main_arg3 : IVec S2x32000 32) = E)
include hE

/-! ### The index arrays -/

theorem v11_apply (e : Fin 32000) : (Gen.V (F := Ideal) m c main_v11 : IVec S32000 32) (ix1 e) = E (ix2 (0 : Fin 2) e) := by
  rw [V_main_v11, V_main_v10, hE]
  exact row0_apply E _ _ e

theorem v13_apply (e : Fin 32000) : (Gen.V (F := Ideal) m c main_v13 : IVec S32000 32) (ix1 e) = E (ix2 (1 : Fin 2) e) := by
  rw [V_main_v13, V_main_v12, hE]
  exact row1_apply E _ _ e

variable (hr : ∀ i, (E i).toNat < 1000)
include hr

theorem v19_apply (e : Fin 32000) : (Gen.V (F := Ideal) m c main_v19 : IVec S32000 32) (ix1 e) = E (ix2 (1 : Fin 2) e) := by
  rw [V_main_v19, V_main_v16, V_main_v15, V_main_c, V_main_v18, V_main_v17, V_main_c_0]
  refine (wrap_apply (Gen.V (F := Ideal) m c main_v13 : IVec S32000 32) _ (ix1 e) ?_).trans (v13_apply m c E hE e)
  rw [v13_apply m c E hE e]; exact hr _

theorem v29_apply (e : Fin 32000) : (Gen.V (F := Ideal) m c main_v29 : IVec S32000 32) (ix1 e) = E (ix2 (0 : Fin 2) e) := by
  rw [V_main_v29, V_main_v26, V_main_v25, V_main_c_3, V_main_v28, V_main_v27, V_main_c_4]
  refine (wrap_apply (Gen.V (F := Ideal) m c main_v11 : IVec S32000 32) _ (ix1 e) ?_).trans (v11_apply m c E hE e)
  rw [v11_apply m c E hE e]; exact hr _

theorem v36_apply (e : Fin 32000) : (Gen.V (F := Ideal) m c main_v36 : IVec S32000 32) (ix1 e) = E (ix2 (1 : Fin 2) e) := by
  rw [V_main_v36, V_main_v33, V_main_v32, V_main_c_5, V_main_v35, V_main_v34, V_main_c_6]
  refine (wrap_apply (Gen.V (F := Ideal) m c main_v13 : IVec S32000 32) _ (ix1 e) ?_).trans (v13_apply m c E hE e)
  rw [v13_apply m c E hE e]; exact hr _

theorem v45_apply (e : Fin 32000) : (Gen.V (F := Ideal) m c main_v45 : IVec S32000 32) (ix1 e) = E (ix2 (1 : Fin 2) e) := by
  rw [V_main_v45, V_main_v42, V_main_v41, V_main_c_8, V_main_v44, V_main_v43, V_main_c_9]
  refine (wrap_apply (Gen.V (F := Ideal) m c main_v13 : IVec S32000 32) _ (ix1 e) ?_).trans (v13_apply m c E hE e)
  rw [v13_apply m c E hE e]; exact hr _

theorem v50_apply (e : Fin 32000) : (Gen.V (F := Ideal) m c main_v50 : IVec S32000 32) (ix1 e) = E (ix2 (0 : Fin 2) e) := by
  rw [V_main_v50, V_main_v47, V_main_v46, V_main_c_10, V_main_v49, V_main_v48, V_main_c_11]
  refine (wrap_apply (Gen.V (F := Ideal) m c main_v11 : IVec S32000 32) _ (ix1 e) ?_).trans (v11_apply m c E hE e)
  rw [v11_apply m c E hE e]; exact hr _

theorem v20_apply (e : Fin 32000) (u : Fin 1) : (Gen.V (F := Ideal) m c main_v20 : IVec S32000x1 32) (ix2 e u) = E (ix2 (1 : Fin 2) e) := by
  rw [V_main_v20]
  exact (col_apply _ _ e u).trans (v19_apply m c E hE hr e)

theorem v30_apply (e : Fin 32000) (u : Fin 1) : (Gen.V (F := Ideal) m c main_v30 : IVec S32000x1 32) (ix2 e u) = E (ix2 (0 : Fin 2) e) := by
  rw [V_main_v30]
  exact (col_apply _ _ e u).trans (v29_apply m c E hE hr e)

theorem v37_apply (e : Fin 32000) (u : Fin 1) : (Gen.V (F := Ideal) m c main_v37 : IVec S32000x1 32) (ix2 e u) = E (ix2 (1 : Fin 2) e) := by
  rw [V_main_v37]
  exact (col_apply _ _ e u).trans (v36_apply m c E hE hr e)

theorem v51_apply (e : Fin 32000) (u : Fin 1) : (Gen.V (F := Ideal) m c main_v51 : IVec S32000x1 32) (ix2 e u) = E (ix2 (1 : Fin 2) e) := by
  rw [V_main_v51]
  exact (col_apply _ _ e u).trans (v45_apply m c E hE hr e)

theorem v52_apply (e : Fin 32000) (u : Fin 1) : (Gen.V (F := Ideal) m c main_v52 : IVec S32000x1 32) (ix2 e u) = E (ix2 (0 : Fin 2) e) := by
  rw [V_main_v52]
  exact (col_apply _ _ e u).trans (v50_apply m c E hE hr e)

theorem v53_apply0 (e : Fin 32000) : (Gen.V (F := Ideal) m c main_v53 : IVec S32000x2 32) (ix2 e (0 : Fin 2)) = E (ix2 (1 : Fin 2) e) := by
  rw [V_main_v53]
  exact (cat0_apply _ _ _ e).trans (v51_apply m c E hE hr e 0)

theorem v53_apply1 (e : Fin 32000) : (Gen.V (F := Ideal) m c main_v53 : IVec S32000x2 32) (ix2 e (1 : Fin 2)) = E (ix2 (0 : Fin 2) e) := by
  rw [V_main_v53]
  exact (cat1_apply _ _ _ e).trans (v52_apply m c E hE hr e 0)

/-! ### Degrees, normalisations, coefficients -/

/-- The degree vector: one plus the number of edges into the node. -/
theorem v22_apply (d : Fin 1000) :
    (Gen.V (F := Ideal) m c main_v22 : S1000.Idx → EReal) (ix1 d) = Cert.Gnn.deg (Cert.Gnn.tgtOf E hr) d := by
  rw [V_main_v22, V_main_v14, V_main_cst, V_main_v21, V_main_cst_1]
  show Ideal.hostScatterAdd sc1 _ _ _ (ix1 d) = _
  rw [scatter1_apply]
  unfold Cert.Gnn.deg
  refine congrArg₂ (· + ·) ((broadcastInDim_scalar_apply _ _ _).trans Cert.Gnn.ofBits_one)
    (Finset.sum_congr (Finset.filter_congr fun e _ => ?_) fun e _ =>
      (broadcastInDim_scalar_apply _ _ _).trans Cert.Gnn.ofBits_one)
  rw [v20_apply m c E hE hr e 0]
  exact idx_iff _ (hr _) d

/-- The normalisation vector: the degree to the power -1/2. -/
theorem v24_apply (d : Fin 1000) :
    (Gen.V (F := Ideal) m c main_v24 : S1000.Idx → EReal) (ix1 d) = Cert.Gnn.dinv (Cert.Gnn.tgtOf E hr) d := by
  rw [V_main_v24, V_main_v23, V_main_cst_2]
  refine (powf_at _ _ (ix1 d)).trans ?_
  rw [v22_apply m c E hE hr d, broadcastInDim_scalar_apply]
  exact congrArg (Ideal.pow _) Cert.Gnn.ofBits_negHalf

/-- The normalisation of an edge's source. -/
theorem v31_apply (e : Fin 32000) :
    (Gen.V (F := Ideal) m c main_v31 : S32000.Idx → EReal) (ix1 e) = Cert.Gnn.dinv (Cert.Gnn.tgtOf E hr) (Cert.Gnn.srcOf E hr e) := by
  rw [V_main_v31]
  refine (gather1_apply _ _ e (Cert.Gnn.srcOf E hr e) ?_).trans (v24_apply m c E hE hr _)
  rw [v30_apply m c E hE hr e 0]
  exact clamp_of_lt _ (hr _)

/-- The normalisation of an edge's target. -/
theorem v38_apply (e : Fin 32000) :
    (Gen.V (F := Ideal) m c main_v38 : S32000.Idx → EReal) (ix1 e) = Cert.Gnn.dinv (Cert.Gnn.tgtOf E hr) (Cert.Gnn.tgtOf E hr e) := by
  rw [V_main_v38]
  refine (gather1_apply _ _ e (Cert.Gnn.tgtOf E hr e) ?_).trans (v24_apply m c E hE hr _)
  rw [v37_apply m c E hE hr e 0]
  exact clamp_of_lt _ (hr _)

/-- An edge's coefficient. -/
theorem v39_apply (e : Fin 32000) :
    (Gen.V (F := Ideal) m c main_v39 : S32000.Idx → EReal) (ix1 e) = Cert.Gnn.coef (Cert.Gnn.srcOf E hr) (Cert.Gnn.tgtOf E hr) e := by
  rw [V_main_v39]
  refine (mulf_at _ _ (ix1 e)).trans ?_
  rw [v31_apply m c E hE hr e, v38_apply m c E hE hr e]
  rfl

/-! ### The matrix -/

/-- The coefficients added into the zero matrix at (target, source). -/
theorem v54_apply (t s : Fin 1000) :
    (Gen.V (F := Ideal) m c main_v54 : S1000x1000.Idx → EReal) (ix2 t s)
      = (0 : EReal) + ∑ e ∈ Finset.univ.filter (fun e => Cert.Gnn.tgtOf E hr e = t ∧ Cert.Gnn.srcOf E hr e = s),
          Cert.Gnn.coef (Cert.Gnn.srcOf E hr) (Cert.Gnn.tgtOf E hr) e := by
  rw [V_main_v54, V_main_v40, V_main_cst_7]
  show Ideal.hostScatterAdd sc2 _ _ _ (ix2 t s) = _
  rw [scatter2_apply]
  refine congrArg₂ (· + ·) ((broadcastInDim_scalar_apply _ _ _).trans Cert.Gnn.ofBits_zero)
    (Finset.sum_congr (Finset.filter_congr fun e _ => ?_) fun e _ => v39_apply m c E hE hr e)
  rw [v53_apply0 m c E hE hr e, v53_apply1 m c E hE hr e]
  exact and_congr (idx_iff _ (hr _) t) (idx_iff _ (hr _) s)

/-- The adjacency matrix at (t, s): the scattered coefficients plus the diagonal of squared normalisations. -/
theorem adj_entry (t s : Fin 1000) :
    (Gen.V (F := Ideal) m c main_v57 : S1000x1000.Idx → EReal) (ix2 t s)
      = Cert.Gnn.adj (Cert.Gnn.srcOf E hr) (Cert.Gnn.tgtOf E hr) t s := by
  rw [V_main_v57]
  refine (addf_at _ _ (ix2 t s)).trans ?_
  rw [v54_apply m c E hE hr t s, Cert.KernelIdeal.DiagValue.diag_value m c t s, v24_apply m c E hE hr t]
  rfl

end Entries

/-- The normalised adjacency matrix the region finds, from the edge array as launched. -/
theorem adj_value (m : (ℓ : Loc nD τ sig) → Buf (Elt Ideal) ℓ) (c : Dev nD)
    (hr : ∀ i, ((m ((c : Thread nD τ).loc main_arg3) : IVec S2x32000 32) i).toNat < 1000) (t s : Fin 1000) :
    (Gen.V (F := Ideal) m c main_v57 : S1000x1000.Idx → EReal) (ix2 t s)
      = Cert.Gnn.adj (Cert.Gnn.srcOf (m ((c : Thread nD τ).loc main_arg3)) hr)
          (Cert.Gnn.tgtOf (m ((c : Thread nD τ).loc main_arg3)) hr) t s :=
  adj_entry m c (m ((c : Thread nD τ).loc main_arg3)) (Gen.V_main_arg3 m c) hr t s

end Cert.KernelIdeal.AdjValue

end
-- ==== Proof.KerRunTail.lean ====
/-
  The host operations after the fused region: the result array read at an index.

  After the region three operations remain: rows 0 .. 254 of the region's 256 x 128 output are sliced off,
  the 128-vector holding batch row 0's mean is broadcast to a 1 x 128 row, and the row is concatenated on
  top of the slice.  So the 256 x 128 result holds, in row 0, the vector, and in row b > 0, row b - 1 of
  the region's output.
-/
import proofs.«131067_j1941325218075_2_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.KerRun

open Cert.KernelIdeal Cert.KernelIdeal.Gen
open Idealize.ShloMosaic Idealize.ShloMosaic.TcCoe Idealize.ShloMosaic.ValueIdx Idealize.SL.Sem
open Cert.KernelIdeal.Facts

variable (m : (ℓ : Loc nD τ sig) → Buf (Elt Ideal) ℓ)

/-- The vector of batch row 0's means is no array of the pipeline: the tail finds it as the region was entered. -/
theorem tail_v84 (c : Dev nD) :
    Pipeline.withArrays (cfgs 0).spec c (V0 m c) (fun w => (dats m 0 c).arrAt w (cfgs 0).N) (Proc.devRef .tc main_v84)
      = V m c main_v84 :=
  Pipeline.withArrays_of_ne _ c (V0 m c) _ main_v84 (by exact (by decide : ∀ w, Pipeline.arrRef spec0 w ≠ main_v84))

/-- The region's output array is the pipeline's array 7: the tail finds it as the region left it. -/
theorem tail_v92 (c : Dev nD) :
    Pipeline.withArrays (cfgs 0).spec c (V0 m c) (fun w => (dats m 0 c).arrAt w (cfgs 0).N) (Proc.devRef .tc main_v92)
      = (dats m 0 c).arrAt 7 cfg0.N :=
  Pipeline.withArrays_arr spec0 launch0.win.arr_inj c _ _ 7

/-- The result array after the tail, as a term: the broadcast vector on top of the slice of the region's output. -/
theorem tail_term (c : Dev nD) :
    Pipeline.afterTail₀ cfgs (dats m) 0 (V0 m) [hostOps1] c main_v95
      = concatenate S256x128 0 [⟨S1x128, broadcastInDim S1x128 ![1] bcast_S128_S1x128_1 (V m c main_v84)⟩,
          ⟨S255x128, extractStridedSlice S255x128 ![0, 0] ((dats m 0 c).arrAt 7 cfg0.N) slices_S256x128_S255x128_0_0⟩]
          concatenates_S1x128_S255x128_S256x128_d0 := by
  unfold Pipeline.afterTail₀
  show StableHlo.after hostOps1 _ (Proc.devRef .tc main_v95) = _
  after_results
  rw [tail_v84 m c, tail_v92 m c]

/-- The result array at (b, j): row 0 is the vector, row b > 0 is row b - 1 of the region's output. -/
theorem tail_value (c : Dev nD) (b : Fin 256) (j : Fin 128) :
    Pipeline.afterTail₀ cfgs (dats m) 0 (V0 m) [hostOps1] c main_v95 (ix2 b j)
      = if b = 0 then V m c main_v84 (ix1 j)
        else (dats m 0 c).arrAt 7 cfg0.N (ix2 (⟨b.val - 1, by omega⟩ : Fin 256) j) := by
  rw [tail_term m c]
  by_cases hb : b = 0
  · rw [if_pos hb]
    subst hb
    refine (concatenate_pair_apply_left (t := S256x128) 0 _ _ concatenates_S1x128_S255x128_S256x128_d0
      (ix2 (0 : Fin 256) j) rfl (ix2 (0 : Fin 1) j) ?_).trans ?_
    · intro a; fin_cases a <;> rfl
    · exact broadcastInDim_apply ![1] bcast_S128_S1x128_1 _ (ix2 (0 : Fin 1) j) (ix1 j) (by intro a; fin_cases a; rfl)
  · rw [if_neg hb]
    have hb0 : 0 < b.val := Nat.pos_of_ne_zero fun h => hb (Fin.ext h)
    have hlt : b.val - 1 < 255 := by omega
    refine (concatenate_pair_apply_right (t := S256x128) 0 _ _ concatenates_S1x128_S255x128_S256x128_d0
      (ix2 b j) rfl rfl (ix2 (⟨b.val - 1, hlt⟩ : Fin 255) j) ?_ ?_).trans ?_
    · intro a ha; fin_cases a
      · exact absurd rfl ha
      · rfl
    · show (b.val - 1) + 1 = b.val
      omega
    · exact extractStridedSlice_apply ![0, 0] _ slices_S256x128_S255x128_0_0 (ix2 (⟨b.val - 1, hlt⟩ : Fin 255) j)
        (ix2 (⟨b.val - 1, by omega⟩ : Fin 256) j) (by intro a; fin_cases a <;> simp)

end Cert.KernelIdeal.KerRun

end
-- ==== Proof.KerRunSpec.lean ====
/-
  The fused dense tile against three dense layers.

  The tile is handed the padded batch rows xp (row p holds batch row p + 1), the product ew = emb W0^T, the
  biases as 1 x 128 rows and the transposed weights.  With those identifications its first layer
  relu (xp[p, d] * ew[d, j] + b0r[0, j]) is the first dense layer of node (p + 1, d), each later layer
  relu (sum over k of v k * wt[k, j] + br[0, j]) is the dense layer with the untransposed weight, and so
  the tile's output row p is the mean over d of the three dense layers of batch row p + 1.
-/
import proofs.«131067_j1941325218075_2_alg».proof.Proof.Spec

noncomputable section

namespace Cert.KernelIdeal.KerRun

open Idealize.ShloMosaic Idealize.ShloMosaic.ValueIdx Cert.Gnn

/-- A later layer of the tile is the dense layer with the untransposed weight and the bias as a vector. -/
theorem tileLayer_eq (W wt : A2 128 128) (bias : A1 128) (br : A2 1 128)
    (hw : ∀ k j, wt (ix2 k j) = W (ix2 j k)) (hb : ∀ j, br (ix2 0 j) = bias (ix1 j))
    (v : Fin 128 → EReal) (j : Fin 128) : tileLayer wt br v j = denseLayer W bias v j := by
  unfold tileLayer denseLayer lin
  rw [hb j]
  exact congrArg (fun s => max (s + bias (ix1 j)) 0) (Finset.sum_congr rfl fun k _ => by rw [hw k j])

/-- The tile's first layer at padded row p is the first dense layer of node (p + 1, d). -/
theorem tile1_eq (x xp : A2 256 1000) (emb ew : A2 1000 128) (W0 : A2 128 128) (b0 : A1 128) (b0r : A2 1 128)
    (p b : Fin 256) (hx : ∀ d, xp (ix2 p d) = x (ix2 b d))
    (hew : ∀ d j, ew (ix2 d j) = lin W0 (fun k => emb (ix2 d k)) j) (hb0 : ∀ j, b0r (ix2 0 j) = b0 (ix1 j))
    (d : Fin 1000) : tile1 xp ew b0r p d = dense1 x emb W0 b0 b d := by
  funext j
  unfold tile1 dense1
  rw [hx d, hew d j, hb0 j]

/-- The tile's output row p is the mean over d of the three dense layers of batch row p + 1. -/
theorem tileOut_eq_dense3 (c1000 : EReal) (x xp : A2 256 1000) (emb ew : A2 1000 128)
    (W0 : A2 128 128) (b0 : A1 128) (b0r : A2 1 128) (W1 w1t : A2 128 128) (b1 : A1 128) (b1r : A2 1 128)
    (W2 w2t : A2 128 128) (b2 : A1 128) (b2r : A2 1 128) (p : Fin 256) (hp : p.val < 255)
    (hx : ∀ d, xp (ix2 p d) = x (ix2 (⟨p.val + 1, by omega⟩ : Fin 256) d))
    (hew : ∀ d j, ew (ix2 d j) = lin W0 (fun k => emb (ix2 d k)) j)
    (hb0 : ∀ j, b0r (ix2 0 j) = b0 (ix1 j))
    (hw1 : ∀ k j, w1t (ix2 k j) = W1 (ix2 j k)) (hb1 : ∀ j, b1r (ix2 0 j) = b1 (ix1 j))
    (hw2 : ∀ k j, w2t (ix2 k j) = W2 (ix2 j k)) (hb2 : ∀ j, b2r (ix2 0 j) = b2 (ix1 j)) (j : Fin 128) :
    tileOut c1000 xp ew b0r w1t b1r w2t b2r p j
      = Ideal.div (∑ d : Fin 1000, dense3 x emb W0 b0 W1 b1 W2 b2 (⟨p.val + 1, by omega⟩ : Fin 256) d j) c1000 := by
  unfold tileOut dense3
  refine congrArg (fun s => Ideal.div s c1000) (Finset.sum_congr rfl fun d _ => ?_)
  rw [tile1_eq x xp emb ew W0 b0 b0r p _ hx hew hb0 d, tileLayer_eq W2 w2t b2 b2r hw2 hb2]
  exact congrArg (fun v => denseLayer W2 b2 v j) (funext fun k => tileLayer_eq W1 w1t b1 b1r hw1 hb1 _ k)

end Cert.KernelIdeal.KerRun

end
-- ==== Proof.KerRun.lean ====
/-
  The dense program's run and its result.

  The result array's row 0 is the vector of batch row 0's means (the adjacency-matrix path) and its row b > 0
  is row b - 1 of the fused region's output (the tile of padded batch row b - 1, which holds batch row b): so
  the result is the dense form of the spec at every (b, j).  What the region's output, the vector and the
  region's seven input arrays hold is taken as hypotheses here, in the spec's terms.
-/
import proofs.«131067_j1941325218075_2_alg».proof.Proof.KerRunTail
import proofs.«131067_j1941325218075_2_alg».proof.Proof.KerRunSpec

noncomputable section

namespace Cert.KernelIdeal.KerRun

open Cert.KernelIdeal Cert.KernelIdeal.Gen
open Idealize.ShloMosaic Idealize.ShloMosaic.TcCoe Idealize.ShloMosaic.ValueIdx Idealize.SL.Sem
open Cert.Gnn

variable (m : (ℓ : Loc nD τ sig) → Buf (Elt Ideal) ℓ) (ρ : Dev nD → PrngReg)

/-- The divisor of the mean: the pattern of 1000.0. -/
abbrev c1000 : EReal := Ideal.ofBits .f32 0x447A0000#32

/-- The result array on one device is the dense form of the spec. -/
theorem out_value (c : Dev nD) (hr : ∀ i, (m ((c.tc : Thread nD τ).loc main_arg3) i).toNat < 1000)
    (hT : ∀ (p : Fin 256) (j : Fin 128), (dats m 0 c).arrAt 7 cfg0.N (ix2 p j)
        = tileOut c1000 (V m c main_v86) (V m c main_v7) (V m c main_v87) (V m c main_v90) (V m c main_v88) (V m c main_v91) (V m c main_v89) p j)
    (hG : ∀ (j : Fin 128), V m c main_v84 (ix1 j)
        = Ideal.div ((0 : EReal) + ∑ d : Fin 1000, graph3 (srcOf (m ((c.tc : Thread nD τ).loc main_arg3)) hr) (tgtOf (m ((c.tc : Thread nD τ).loc main_arg3)) hr) (V m c main_v0) (V m c main_v5) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) d j) c1000)
    (hI86 : ∀ (p : Fin 256) (d : Fin 1000), (V m c main_v86 (ix2 p d) : EReal)
        = if h : p.val < 255 then (V m c main_v0 (ix2 (⟨p.val + 1, by omega⟩ : Fin 256) d) : EReal) else (0 : EReal))
    (hI7 : ∀ (d : Fin 1000) (j : Fin 128), V m c main_v7 (ix2 d j) = lin (m ((c.tc : Thread nD τ).loc main_arg6)) (fun k => V m c main_v5 (ix2 d k)) j)
    (hI87 : ∀ (j : Fin 128), V m c main_v87 (ix2 (0 : Fin 1) j) = m ((c.tc : Thread nD τ).loc main_arg7) (ix1 j))
    (hI90 : ∀ (k j : Fin 128), V m c main_v90 (ix2 k j) = m ((c.tc : Thread nD τ).loc main_arg8) (ix2 j k))
    (hI88 : ∀ (j : Fin 128), V m c main_v88 (ix2 (0 : Fin 1) j) = m ((c.tc : Thread nD τ).loc main_arg9) (ix1 j))
    (hI91 : ∀ (k j : Fin 128), V m c main_v91 (ix2 k j) = m ((c.tc : Thread nD τ).loc main_arg10) (ix2 j k))
    (hI89 : ∀ (j : Fin 128), V m c main_v89 (ix2 (0 : Fin 1) j) = m ((c.tc : Thread nD τ).loc main_arg11) (ix1 j)) :
    Pipeline.afterTail₀ cfgs (dats m) 0 (V0 m) [hostOps1] c main_v95
      = fun i => kerOut (srcOf (m ((c.tc : Thread nD τ).loc main_arg3)) hr) (tgtOf (m ((c.tc : Thread nD τ).loc main_arg3)) hr) c1000 (V m c main_v0) (V m c main_v5) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) := by
  funext i
  obtain ⟨b, j, rfl⟩ : ∃ (b : Fin 256) (j : Fin 128), i = ix2 b j := ⟨i 0, i 1, eq_ix2 i⟩
  show _ = kerOut (srcOf (m ((c.tc : Thread nD τ).loc main_arg3)) hr) (tgtOf (m ((c.tc : Thread nD τ).loc main_arg3)) hr) c1000 (V m c main_v0) (V m c main_v5) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) b j
  rw [tail_value m c b j]
  unfold kerOut
  by_cases hb : b = 0
  · rw [if_pos hb, if_pos hb]
    exact hG j
  · rw [if_neg hb, if_neg hb, hT]
    have hb0 : 0 < b.val := Nat.pos_of_ne_zero fun h => hb (Fin.ext h)
    have hlt : b.val - 1 < 255 := by omega
    have e : (⟨b.val - 1 + 1, by omega⟩ : Fin 256) = b := Fin.ext (by show b.val - 1 + 1 = b.val; omega)
    refine (tileOut_eq_dense3 c1000 (V m c main_v0) (V m c main_v86) (V m c main_v5) (V m c main_v7) (m ((c.tc : Thread nD τ).loc main_arg6)) (m ((c.tc : Thread nD τ).loc main_arg7)) (V m c main_v87)
      (m ((c.tc : Thread nD τ).loc main_arg8)) (V m c main_v90) (m ((c.tc : Thread nD τ).loc main_arg9)) (V m c main_v88) (m ((c.tc : Thread nD τ).loc main_arg10)) (V m c main_v91) (m ((c.tc : Thread nD τ).loc main_arg11)) (V m c main_v89)
      (⟨b.val - 1, by omega⟩ : Fin 256) hlt (fun d => (hI86 _ d).trans (dif_pos hlt)) hI7 hI87 hI90 hI88 hI91 hI89 j).trans ?_
    exact congrArg (fun b' : Fin 256 => Ideal.div (∑ d : Fin 1000, dense3 (V m c main_v0) (V m c main_v5) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) b' d j) c1000) e

/-- THE RUN: every weakly fair execution terminates, the result array is the dense form of the spec and the argument
    arrays end unchanged. -/
theorem run (hr : ∀ (c : Dev nD) i, (m ((c.tc : Thread nD τ).loc main_arg3) i).toNat < 1000)
    (hT : ∀ (c : Dev nD) (p : Fin 256) (j : Fin 128), (dats m 0 c).arrAt 7 cfg0.N (ix2 p j)
        = tileOut c1000 (V m c main_v86) (V m c main_v7) (V m c main_v87) (V m c main_v90) (V m c main_v88) (V m c main_v91) (V m c main_v89) p j)
    (hG : ∀ (c : Dev nD) (j : Fin 128), V m c main_v84 (ix1 j)
        = Ideal.div ((0 : EReal) + ∑ d : Fin 1000, graph3 (srcOf (m ((c.tc : Thread nD τ).loc main_arg3)) (hr c)) (tgtOf (m ((c.tc : Thread nD τ).loc main_arg3)) (hr c)) (V m c main_v0) (V m c main_v5) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) d j) c1000)
    (hI86 : ∀ (c : Dev nD) (p : Fin 256) (d : Fin 1000), (V m c main_v86 (ix2 p d) : EReal)
        = if h : p.val < 255 then (V m c main_v0 (ix2 (⟨p.val + 1, by omega⟩ : Fin 256) d) : EReal) else (0 : EReal))
    (hI7 : ∀ (c : Dev nD) (d : Fin 1000) (j : Fin 128), V m c main_v7 (ix2 d j) = lin (m ((c.tc : Thread nD τ).loc main_arg6)) (fun k => V m c main_v5 (ix2 d k)) j)
    (hI87 : ∀ (c : Dev nD) (j : Fin 128), V m c main_v87 (ix2 (0 : Fin 1) j) = m ((c.tc : Thread nD τ).loc main_arg7) (ix1 j))
    (hI90 : ∀ (c : Dev nD) (k j : Fin 128), V m c main_v90 (ix2 k j) = m ((c.tc : Thread nD τ).loc main_arg8) (ix2 j k))
    (hI88 : ∀ (c : Dev nD) (j : Fin 128), V m c main_v88 (ix2 (0 : Fin 1) j) = m ((c.tc : Thread nD τ).loc main_arg9) (ix1 j))
    (hI91 : ∀ (c : Dev nD) (k j : Fin 128), V m c main_v91 (ix2 k j) = m ((c.tc : Thread nD τ).loc main_arg10) (ix2 j k))
    (hI89 : ∀ (c : Dev nD) (j : Fin 128), V m c main_v89 (ix2 (0 : Fin 1) j) = m ((c.tc : Thread nD τ).loc main_arg11) (ix1 j)) :
    θ_run defs (onTc (τ := τ) (main (F := Ideal))) ⟨m, fun _ => 0, ρ⟩ (fun r => ∀ c : Dev nD,
      r.2.mem ((c.tc : Thread nD τ).loc main_v95)
        = (fun i => kerOut (srcOf (m ((c.tc : Thread nD τ).loc main_arg3)) (hr c)) (tgtOf (m ((c.tc : Thread nD τ).loc main_arg3)) (hr c)) c1000 (V m c main_v0) (V m c main_v5) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v95 (Pipeline.mem_restRefs_of main_v95 (by decide) (by decide))).trans
        (out_value m c (hr c) (hT c) (hG c) (hI86 c) (hI7 c) (hI87 c) (hI90 c) (hI88 c) (hI91 c) (hI89 c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.KerRun

end
-- ==== Proof.KerRunArgs.lean ====
/-
  The dense program's x and emb, as whole-array terms of the argument arrays, and their real-valuedness.

  x is the two feature arrays side by side (columns 0 .. 799 from the first, 800 .. 999 from the second);
  emb = V W_embed^T + b_embed: a matrix product with the transposed weight plus the bias broadcast over
  the rows.  Every entry of x is an entry of an argument array; every entry of emb is a finite sum of
  products of entries plus an entry: so both are real-valued when the argument arrays are.
-/
import proofs.«131067_j1941325218075_2_alg».proof.Proof.Gen.KernelIdeal.Frame
import proofs.«131067_j1941325218075_2_alg».proof.Proof.GnnMath
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.KerRun

open Cert.KernelIdeal Cert.KernelIdeal.Gen
open Idealize.ShloMosaic Idealize.ShloMosaic.TcCoe Idealize.ShloMosaic.ValueIdx Idealize.SL.Sem
open Cert.KernelIdeal.Facts
open Cert.Gnn

variable (m : (ℓ : Loc nD τ sig) → Buf (Elt Ideal) ℓ)

/-- x when the region is entered: the two feature arrays concatenated along the columns. -/
theorem x_term (c : Dev nD) :
    V m c main_v0 = concatenate S256x1000 1 [⟨S256x800, m ((c.tc : Thread nD τ).loc main_arg0)⟩, ⟨S256x200, m ((c.tc : Thread nD τ).loc main_arg1)⟩]
      concatenates_S256x800_S256x200_S256x1000_d1 := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v0) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results

/-- emb when the region is entered: V times the transposed embedding weight, plus the bias on every row. -/
theorem emb_term (c : Dev nD) :
    (V m c main_v5 : (⟨S1000x128, .f32⟩ : BufTy).Contents (Elt Ideal)) = addf (F := Ideal)
      (Host.dotGeneral (F := Ideal) (φ₁ := .f32) (φ₂ := .f32) dot_S1000x300_S300x128_S1000x128_1_0_0_1_n_n none
        (m ((c.tc : Thread nD τ).loc main_arg2) : (⟨S1000x300, .f32⟩ : BufTy).Contents (Elt Ideal))
        (transpose S300x128 [1, 0] (m ((c.tc : Thread nD τ).loc main_arg4) : (⟨S128x300, .f32⟩ : BufTy).Contents (Elt Ideal)) transposes_S128x300_S300x128_1_0))
      (broadcastInDim S1000x128 ![0, 1] bcast_S1x128_S1000x128_0_1
        (broadcastInDim S1x128 ![1] bcast_S128_S1x128_1 (m ((c.tc : Thread nD τ).loc main_arg5) : (⟨S128, .f32⟩ : BufTy).Contents (Elt Ideal)))) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v5) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  try rfl

/-- Every entry of x is real when the two feature arrays are real-valued. -/
theorem x_real (c : Dev nD) (h0 : ∀ i, IsReal (m ((c.tc : Thread nD τ).loc main_arg0) i)) (h1 : ∀ i, IsReal (m ((c.tc : Thread nD τ).loc main_arg1) i))
    (b : Fin 256) (d : Fin 1000) : IsReal (V m c main_v0 (ix2 b d)) := by
  rw [x_term m c]
  by_cases hd : d.val < 800
  · exact (congrArg IsReal (concatenate_pair_apply_left (t := S256x1000) (s₁ := S256x800) (s₂ := S256x200) 1 _ _
      concatenates_S256x800_S256x200_S256x1000_d1 (ix2 b d) rfl (ix2 b (⟨d.val, hd⟩ : Fin 800))
      (by intro a; fin_cases a <;> rfl))).mpr (h0 _)
  · have hlt : d.val - 800 < 200 := by have := d.isLt; omega
    exact (congrArg IsReal (concatenate_pair_apply_right (t := S256x1000) (s₁ := S256x800) (s₂ := S256x200) 1 _ _
      concatenates_S256x800_S256x200_S256x1000_d1 (ix2 b d) rfl rfl (ix2 b (⟨d.val - 800, hlt⟩ : Fin 200))
      (by
        intro a ha
        fin_cases a
        · rfl
        · exact absurd rfl ha)
      (by show (d.val - 800) + 800 = d.val; omega))).mpr (h1 _)

/-- Every entry of emb is real when V, the embedding weight and the embedding bias are real-valued. -/
theorem emb_real (c : Dev nD) (h2 : ∀ i, IsReal (m ((c.tc : Thread nD τ).loc main_arg2) i)) (h4 : ∀ i, IsReal (m ((c.tc : Thread nD τ).loc main_arg4) i))
    (h5 : ∀ i, IsReal (m ((c.tc : Thread nD τ).loc main_arg5) i)) (d : Fin 1000) (k : Fin 128) : IsReal (V m c main_v5 (ix2 d k)) := by
  rw [emb_term m c]
  show IsReal (FloatOps.dotGeneral (F := Ideal) (φ₁ := .f32) (φ₂ := .f32) dot_S1000x300_S300x128_S1000x128_1_0_0_1_n_n none .single
        (m ((c.tc : Thread nD τ).loc main_arg2) : (⟨S1000x300, .f32⟩ : BufTy).Contents (Elt Ideal))
        (transpose S300x128 [1, 0] (m ((c.tc : Thread nD τ).loc main_arg4) : (⟨S128x300, .f32⟩ : BufTy).Contents (Elt Ideal)) transposes_S128x300_S300x128_1_0) (ix2 d k)
      + broadcastInDim S1000x128 ![0, 1] bcast_S1x128_S1000x128_0_1
        (broadcastInDim S1x128 ![1] bcast_S128_S1x128_1 (m ((c.tc : Thread nD τ).loc main_arg5) : (⟨S128, .f32⟩ : BufTy).Contents (Elt Ideal))) (ix2 d k))
  refine IsReal.add ?_ (h5 _)
  rw [Ideal.dotGeneral_apply]
  exact IsReal.sum _ _ fun q _ => (h2 _).mul (h4 _)

end Cert.KernelIdeal.KerRun

end
-- ==== Proof.RefGen.lean ====
/-
  The data-dependent operations of a layer when every start index is below 1000, in the terms of the
  specification: a start index names a node of batch row 0, so the vector scatter-add of ones into ones is the
  degree `degR`, the row scatter-add into zeros is the sum over the edges into the node (empty outside batch
  row 0), and a gather reads the node `(0, start index)`.
-/
import proofs.«131067_j1941325218075_2_alg».proof.Proof.RefOps
import proofs.«131067_j1941325218075_2_alg».proof.Proof.Spec

noncomputable section

namespace Cert.ReferenceIdeal.RefValue

open Cert.ReferenceIdeal Cert.ReferenceIdeal.Gen Idealize.ShloMosaic Idealize.ShloMosaic.ValueIdx Cert.Gnn

variable (a3 : S2x32000.Idx → BitVec 32) (hr : ∀ i, (a3 i).toNat < 1000)

/-- The updates landing on node `(b, d)` are the edges into `d`, and only for batch row 0. -/
theorem filter_tgt (idx : IVec S32000x1 32) (hidx : ∀ e, idx (ix2 e 0) = a3 (ix2 1 e)) (b : Fin 256) (d : Fin 1000) :
    (Finset.univ.filter fun e : Fin 32000 => (idx (ix2 e 0)).toInt = ((node b d).val : Int))
      = Finset.univ.filter (fun e => b = 0 ∧ tgtOf a3 hr e = d) :=
  Finset.filter_congr fun e _ => by rw [hidx e]; exact toInt_eq_node_iff _ (hr _) b d

/-- Ones scattered into ones at the edges' targets: the degree. -/
theorem deg_generic (x : S256000.Idx → EReal) (idx : IVec S32000x1 32) (upd : S32000.Idx → EReal)
    (hx : ∀ i, x i = 1) (hidx : ∀ e, idx (ix2 e 0) = a3 (ix2 1 e)) (hupd : ∀ i, upd i = 1) (b : Fin 256) (d : Fin 1000) :
    Ideal.hostScatterAdd scatter_S256000_S32000x1_S32000_n_0_0_1 x idx upd (ix1 (node b d)) = degR (tgtOf a3 hr) b d := by
  rw [scatter1_apply, filter_tgt a3 hr idx hidx, hx]
  exact congrArg (fun t => (1 : EReal) + t) (Finset.sum_congr rfl fun e _ => hupd _)

/-- Rows scattered into zeros at the edges' targets: the sum over the edges into the node. -/
theorem msg_generic (x : S256000x128.Idx → EReal) (idx : IVec S32000x1 32) (upd : S32000x128.Idx → EReal)
    (M : Fin 32000 → EReal) (j : Fin 128) (hx : ∀ i, x i = 0) (hidx : ∀ e, idx (ix2 e 0) = a3 (ix2 1 e))
    (hupd : ∀ e, upd (ix2 e j) = M e) (b : Fin 256) (d : Fin 1000) :
    Ideal.hostScatterAdd scatter_S256000x128_S32000x1_S32000x128_1_0_0_1 x idx upd (ix2 (node b d) j)
      = 0 + ∑ e ∈ Finset.univ.filter (fun e => b = 0 ∧ tgtOf a3 hr e = d), M e := by
  rw [scatter2_apply, filter_tgt a3 hr idx hidx, hx]
  exact congrArg (fun t => (0 : EReal) + t) (Finset.sum_congr rfl fun e _ => hupd e)

/-- A vector gathered at row `r` of the edge array reads node `(0, edge[r, e])`. -/
theorem gather1_generic {α : Type} (x : S256000.Idx → α) (idx : IVec S32000x1 32) (r : Fin 2)
    (hidx : ∀ e, idx (ix2 e 0) = a3 (ix2 r e)) (e : Fin 32000) :
    Host.gather gather_S256000_S32000x1_S32000_n_0_n_n_0_1_1 x idx (ix1 e) = x (ix1 (node 0 ⟨(a3 (ix2 r e)).toNat, hr _⟩)) :=
  gather1_apply x idx e _ (by rw [hidx e]; exact clamp_of_lt _ (hr _))

/-- Rows gathered at row `r` of the edge array read node `(0, edge[r, e])`'s row. -/
theorem gather2_generic {α : Type} (x : S256000x128.Idx → α) (idx : IVec S32000x1 32) (r : Fin 2)
    (hidx : ∀ e, idx (ix2 e 0) = a3 (ix2 r e)) (e : Fin 32000) (j : Fin 128) :
    Host.gather gather_S256000x128_S32000x1_S32000x128_1_0_n_n_0_1_1128 x idx (ix2 e j) = x (ix2 (node 0 ⟨(a3 (ix2 r e)).toNat, hr _⟩) j) :=
  gather2_apply x idx e j _ (by rw [hidx e]; exact clamp_of_lt _ (hr _))

end Cert.ReferenceIdeal.RefValue

end
-- ==== Proof.RefRows.lean ====
/-
  The two rows of the edge array as the program slices them out: row 0 holds the sources, row 1 the targets.
-/
import proofs.«131067_j1941325218075_2_alg».proof.Proof.Gen.ReferenceIdeal.Read
import proofs.«131067_j1941325218075_2_alg».proof.Proof.RefGen

noncomputable section

namespace Cert.ReferenceIdeal.RefValue

open Cert.ReferenceIdeal Cert.ReferenceIdeal.Gen Cert.ReferenceIdeal.Read Idealize.ShloMosaic Idealize.ShloMosaic.ValueIdx Cert.Gnn

/-- The sliced and flattened row 0 of the edge array. -/
theorem row0 (a3 : S2x32000.Idx → BitVec 32) (i : S32000.Idx) :
    val_main_v13 (F := Ideal) a3 i = a3 (ix2 0 ⟨(i 0).val, (i 0).isLt⟩) := by
  rw [val_main_v13_apply, val_main_v12_apply]
  refine congrArg a3 ?_
  funext a; refine Fin.ext ?_
  match a with
  | ⟨0, _⟩ => rfl
  | ⟨1, _⟩ => exact Nat.mod_eq_of_lt (i 0).isLt

/-- The sliced and flattened row 1 of the edge array. -/
theorem row1 (a3 : S2x32000.Idx → BitVec 32) (i : S32000.Idx) :
    val_main_v15 (F := Ideal) a3 i = a3 (ix2 1 ⟨(i 0).val, (i 0).isLt⟩) := by
  rw [val_main_v15_apply, val_main_v14_apply]
  refine congrArg a3 ?_
  funext a; refine Fin.ext ?_
  match a with
  | ⟨0, _⟩ => rfl
  | ⟨1, _⟩ => exact Nat.mod_eq_of_lt (i 0).isLt

end Cert.ReferenceIdeal.RefValue

end
-- ==== Proof.RefL1.lean ====
/-
  Layer 1 of the scatter / gather program read at node (b, d) and feature j: given the layer's input at every
  node as `Hprev`, the linear map, the degree and its power, the edge coefficients, the messages summed into their
  targets, the self-loop term, the bias and the relu are the specification's `refLayer`.
-/
import proofs.«131067_j1941325218075_2_alg».proof.Proof.RefRows

noncomputable section

namespace Cert.ReferenceIdeal.RefValue

open Cert.ReferenceIdeal Cert.ReferenceIdeal.Gen Cert.ReferenceIdeal.Read Idealize.ShloMosaic Idealize.ShloMosaic.ValueIdx Cert.Gnn

variable (a0 : (⟨S256x800, .f32⟩ : BufTy).Contents (Elt Ideal))
  (a1 : (⟨S256x200, .f32⟩ : BufTy).Contents (Elt Ideal))
  (a2 : (⟨S1000x300, .f32⟩ : BufTy).Contents (Elt Ideal))
  (a3 : S2x32000.Idx → BitVec 32)
  (a4 : (⟨S128x300, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x128, .f32⟩ : BufTy).Contents (Elt Ideal))
  (a11 : (⟨S128, .f32⟩ : BufTy).Contents (Elt Ideal))
  (hr : ∀ i, (a3 i).toNat < 1000)
include a0 a1 a2 a3 a4 a5 a6 a7 a8 a9 a10 a11 hr

/-- The start indices `%24`: row 1 of the edge array, unchanged by the wrap-around of negative indices. -/
theorem idx1_v24 (e : Fin 32000) :
    val_main_v24 (F := Ideal) a3 (ix2 e 0) = a3 (ix2 1 e) := by
  rw [val_main_v24_apply, val_main_v23_apply, val_main_v20_apply, val_main_v22_apply, val_main_v19_apply, val_main_v21_apply, val_main_c_apply, val_main_c_0_apply, row1]
  exact sel_id _ (hr _)

/-- The start indices `%34`: row 0 of the edge array, unchanged by the wrap-around of negative indices. -/
theorem idx1_v34 (e : Fin 32000) :
    val_main_v34 (F := Ideal) a3 (ix2 e 0) = a3 (ix2 0 e) := by
  rw [val_main_v34_apply, val_main_v33_apply, val_main_v30_apply, val_main_v32_apply, val_main_v29_apply, val_main_v31_apply, val_main_c_3_apply, val_main_c_4_apply, row0]
  exact sel_id _ (hr _)

/-- The start indices `%41`: row 1 of the edge array, unchanged by the wrap-around of negative indices. -/
theorem idx1_v41 (e : Fin 32000) :
    val_main_v41 (F := Ideal) a3 (ix2 e 0) = a3 (ix2 1 e) := by
  rw [val_main_v41_apply, val_main_v40_apply, val_main_v37_apply, val_main_v39_apply, val_main_v36_apply, val_main_v38_apply, val_main_c_5_apply, val_main_c_6_apply, row1]
  exact sel_id _ (hr _)

/-- The start indices `%50`: row 0 of the edge array, unchanged by the wrap-around of negative indices. -/
theorem idx1_v50 (e : Fin 32000) :
    val_main_v50 (F := Ideal) a3 (ix2 e 0) = a3 (ix2 0 e) := by
  rw [val_main_v50_apply, val_main_v49_apply, val_main_v46_apply, val_main_v48_apply, val_main_v45_apply, val_main_v47_apply, val_main_c_8_apply, val_main_c_9_apply, row0]
  exact sel_id _ (hr _)

/-- The start indices `%60`: row 1 of the edge array, unchanged by the wrap-around of negative indices. -/
theorem idx1_v60 (e : Fin 32000) :
    val_main_v60 (F := Ideal) a3 (ix2 e 0) = a3 (ix2 1 e) := by
  rw [val_main_v60_apply, val_main_v59_apply, val_main_v56_apply, val_main_v58_apply, val_main_v55_apply, val_main_v57_apply, val_main_c_10_apply, val_main_c_11_apply, row1]
  exact sel_id _ (hr _)

/-- The degree vector at node `(b, d)`. -/
theorem deg1 (b : Fin 256) (d : Fin 1000) :
    val_main_v26 (F := Ideal) a3 (ix1 (node b d)) = degR (tgtOf a3 hr) b d := by
  unfold val_main_v26
  exact deg_generic a3 hr _ _ _ (fun i => by rw [val_main_v18_apply, val_main_cst_apply]; exact ofBits_one)
    (idx1_v24 a0 a1 a2 a3 a4 a5 a6 a7 a8 a9 a10 a11 hr) (fun i => by rw [val_main_v25_apply, val_main_cst_1_apply]; exact ofBits_one) b d

/-- Its power `-1/2`. -/
theorem dinv1 (b : Fin 256) (d : Fin 1000) :
    val_main_v28 (F := Ideal) a3 (ix1 (node b d)) = dinvR (tgtOf a3 hr) b d := by
  rw [val_main_v28_apply, Ideal.hostPowf_def, deg1 a0 a1 a2 a3 a4 a5 a6 a7 a8 a9 a10 a11 hr, val_main_v27_apply, val_main_cst_2_apply, Ideal.ofBits_def, ofBits_negHalf]
  rfl

/-- The edge coefficients: the power gathered at the source times the power gathered at the target. -/
theorem coef1 (e : Fin 32000) :
    val_main_v43 (F := Ideal) a3 (ix1 e) = coefR (srcOf a3 hr) (tgtOf a3 hr) e := by
  rw [val_main_v43_apply, Ideal.mulf_def]
  unfold val_main_v35 val_main_v42
  rw [gather1_generic a3 hr _ _ 0 (idx1_v34 a0 a1 a2 a3 a4 a5 a6 a7 a8 a9 a10 a11 hr), gather1_generic a3 hr _ _ 1 (idx1_v41 a0 a1 a2 a3 a4 a5 a6 a7 a8 a9 a10 a11 hr),
    dinv1 a0 a1 a2 a3 a4 a5 a6 a7 a8 a9 a10 a11 hr, dinv1 a0 a1 a2 a3 a4 a5 a6 a7 a8 a9 a10 a11 hr]
  rfl

section
variable (Hprev : Fin 256 → Fin 1000 → Fin 128 → EReal)
  (hprev : ∀ (b : Fin 256) (d : Fin 1000) (k : Fin 128), val_main_v11 (F := Ideal) a0 a1 a2 a4 a5 (ix2 (node b d) k) = Hprev b d k)
include hprev

/-- The linear map: the input row times the transposed weights. -/
theorem lin1 (b : Fin 256) (d : Fin 1000) (j : Fin 128) :
    val_main_v17 (F := Ideal) a0 a1 a2 a4 a5 a6 (ix2 (node b d) j) = lin a6 (Hprev b d) j := by
  rw [val_main_v17_apply]
  unfold lin
  refine Finset.sum_congr rfl fun k _ => ?_
  rw [val_main_v16_apply]
  have e1 : lidx_main_v17 (ix2 (node b d) j) k = ix2 (node b d) k := by
    funext a; refine Fin.ext ?_; match a with | ⟨0, _⟩ => rfl | ⟨1, _⟩ => rfl
  have e2 : idx_main_v16 (ridx_main_v17 (ix2 (node b d) j) k) = ix2 j k := by
    funext a; refine Fin.ext ?_; match a with | ⟨0, _⟩ => rfl | ⟨1, _⟩ => rfl
  rw [e1, e2, hprev]

/-- A message: the source's row times the edge's coefficient. -/
theorem msgrow1 (e : Fin 32000) (j : Fin 128) :
    val_main_v54 (F := Ideal) a0 a1 a2 a3 a4 a5 a6 (ix2 e j)
      = lin a6 (Hprev 0 (srcOf a3 hr e)) j * coefR (srcOf a3 hr) (tgtOf a3 hr) e := by
  rw [val_main_v54_apply, Ideal.mulf_def, val_main_v53_apply, val_main_v52_apply]
  unfold val_main_v51
  rw [gather2_generic a3 hr _ _ 0 (idx1_v50 a0 a1 a2 a3 a4 a5 a6 a7 a8 a9 a10 a11 hr), lin1 a0 a1 a2 a3 a4 a5 a6 a7 a8 a9 a10 a11 hr Hprev hprev]
  have e1 : idx_main_v52 (idx_main_v53 (ix2 e j)) = ix1 e := by
    funext a; refine Fin.ext ?_; match a with | ⟨0, _⟩ => rfl
  rw [e1, coef1 a0 a1 a2 a3 a4 a5 a6 a7 a8 a9 a10 a11 hr]
  rfl

/-- The messages summed into their targets. -/
theorem agg1 (b : Fin 256) (d : Fin 1000) (j : Fin 128) :
    val_main_v61 (F := Ideal) a0 a1 a2 a3 a4 a5 a6 (ix2 (node b d) j)
      = 0 + ∑ e ∈ Finset.univ.filter (fun e => b = 0 ∧ tgtOf a3 hr e = d),
          lin a6 (Hprev 0 (srcOf a3 hr e)) j * coefR (srcOf a3 hr) (tgtOf a3 hr) e := by
  unfold val_main_v61
  exact msg_generic a3 hr _ _ _ _ j (fun i => by rw [val_main_v44_apply, val_main_cst_7_apply]; exact ofBits_zero)
    (idx1_v60 a0 a1 a2 a3 a4 a5 a6 a7 a8 a9 a10 a11 hr) (fun e => msgrow1 a0 a1 a2 a3 a4 a5 a6 a7 a8 a9 a10 a11 hr Hprev hprev e j) b d

/-- THE LAYER at node `(b, d)` and feature `j`. -/
theorem layer1 (b : Fin 256) (d : Fin 1000) (j : Fin 128) :
    val_main_v70 (F := Ideal) a0 a1 a2 a3 a4 a5 a6 a7 (ix2 (node b d) j)
      = refLayer (srcOf a3 hr) (tgtOf a3 hr) a6 a7 Hprev b d j := by
  rw [val_main_v70_apply, Ideal.maximumf_def, val_main_v69_apply, Ideal.addf_def, val_main_v66_apply, Ideal.addf_def,
    agg1 a0 a1 a2 a3 a4 a5 a6 a7 a8 a9 a10 a11 hr Hprev hprev, val_main_v65_apply, Ideal.mulf_def, lin1 a0 a1 a2 a3 a4 a5 a6 a7 a8 a9 a10 a11 hr Hprev hprev, val_main_v64_apply, val_main_v63_apply,
    val_main_v62_apply, Ideal.mulf_def]
  have e1 : idx_main_v63 (idx_main_v64 (ix2 (node b d) j)) = ix1 (node b d) := by
    funext a; refine Fin.ext ?_; match a with | ⟨0, _⟩ => rfl
  have e2 : idx_main_v67 (idx_main_v68 (ix2 (node b d) j)) = ix1 j := by
    funext a; refine Fin.ext ?_; match a with | ⟨0, _⟩ => rfl
  rw [e1, dinv1 a0 a1 a2 a3 a4 a5 a6 a7 a8 a9 a10 a11 hr, val_main_v68_apply, val_main_v67_apply, e2, val_main_call0_v0_apply, val_main_call0_cst_apply, Ideal.ofBits_def, ofBits_zero]
  rfl

end

end Cert.ReferenceIdeal.RefValue

end
-- ==== Proof.RefL2.lean ====
/-
  Layer 2 of the scatter / gather program read at node (b, d) and feature j: given the layer's input at every
  node as `Hprev`, the linear map, the degree and its power, the edge coefficients, the messages summed into their
  targets, the self-loop term, the bias and the relu are the specification's `refLayer`.
-/
import proofs.«131067_j1941325218075_2_alg».proof.Proof.RefRows

noncomputable section

namespace Cert.ReferenceIdeal.RefValue

open Cert.ReferenceIdeal Cert.ReferenceIdeal.Gen Cert.ReferenceIdeal.Read Idealize.ShloMosaic Idealize.ShloMosaic.ValueIdx Cert.Gnn

variable (a0 : (⟨S256x800, .f32⟩ : BufTy).Contents (Elt Ideal))
  (a1 : (⟨S256x200, .f32⟩ : BufTy).Contents (Elt Ideal))
  (a2 : (⟨S1000x300, .f32⟩ : BufTy).Contents (Elt Ideal))
  (a3 : S2x32000.Idx → BitVec 32)
  (a4 : (⟨S128x300, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x128, .f32⟩ : BufTy).Contents (Elt Ideal))
  (a11 : (⟨S128, .f32⟩ : BufTy).Contents (Elt Ideal))
  (hr : ∀ i, (a3 i).toNat < 1000)
include a0 a1 a2 a3 a4 a5 a6 a7 a8 a9 a10 a11 hr

/-- The start indices `%79`: row 1 of the edge array, unchanged by the wrap-around of negative indices. -/
theorem idx2_v79 (e : Fin 32000) :
    val_main_v79 (F := Ideal) a3 (ix2 e 0) = a3 (ix2 1 e) := by
  rw [val_main_v79_apply, val_main_v78_apply, val_main_v75_apply, val_main_v77_apply, val_main_v74_apply, val_main_v76_apply, val_main_c_13_apply, val_main_c_14_apply, row1]
  exact sel_id _ (hr _)

/-- The start indices `%89`: row 0 of the edge array, unchanged by the wrap-around of negative indices. -/
theorem idx2_v89 (e : Fin 32000) :
    val_main_v89 (F := Ideal) a3 (ix2 e 0) = a3 (ix2 0 e) := by
  rw [val_main_v89_apply, val_main_v88_apply, val_main_v85_apply, val_main_v87_apply, val_main_v84_apply, val_main_v86_apply, val_main_c_17_apply, val_main_c_18_apply, row0]
  exact sel_id _ (hr _)

/-- The start indices `%96`: row 1 of the edge array, unchanged by the wrap-around of negative indices. -/
theorem idx2_v96 (e : Fin 32000) :
    val_main_v96 (F := Ideal) a3 (ix2 e 0) = a3 (ix2 1 e) := by
  rw [val_main_v96_apply, val_main_v95_apply, val_main_v92_apply, val_main_v94_apply, val_main_v91_apply, val_main_v93_apply, val_main_c_19_apply, val_main_c_20_apply, row1]
  exact sel_id _ (hr _)

/-- The start indices `%105`: row 0 of the edge array, unchanged by the wrap-around of negative indices. -/
theorem idx2_v105 (e : Fin 32000) :
    val_main_v105 (F := Ideal) a3 (ix2 e 0) = a3 (ix2 0 e) := by
  rw [val_main_v105_apply, val_main_v104_apply, val_main_v101_apply, val_main_v103_apply, val_main_v100_apply, val_main_v102_apply, val_main_c_22_apply, val_main_c_23_apply, row0]
  exact sel_id _ (hr _)

/-- The start indices `%115`: row 1 of the edge array, unchanged by the wrap-around of negative indices. -/
theorem idx2_v115 (e : Fin 32000) :
    val_main_v115 (F := Ideal) a3 (ix2 e 0) = a3 (ix2 1 e) := by
  rw [val_main_v115_apply, val_main_v114_apply, val_main_v111_apply, val_main_v113_apply, val_main_v110_apply, val_main_v112_apply, val_main_c_24_apply, val_main_c_25_apply, row1]
  exact sel_id _ (hr _)

/-- The degree vector at node `(b, d)`. -/
theorem deg2 (b : Fin 256) (d : Fin 1000) :
    val_main_v81 (F := Ideal) a3 (ix1 (node b d)) = degR (tgtOf a3 hr) b d := by
  unfold val_main_v81
  exact deg_generic a3 hr _ _ _ (fun i => by rw [val_main_v73_apply, val_main_cst_12_apply]; exact ofBits_one)
    (idx2_v79 a0 a1 a2 a3 a4 a5 a6 a7 a8 a9 a10 a11 hr) (fun i => by rw [val_main_v80_apply, val_main_cst_15_apply]; exact ofBits_one) b d

/-- Its power `-1/2`. -/
theorem dinv2 (b : Fin 256) (d : Fin 1000) :
    val_main_v83 (F := Ideal) a3 (ix1 (node b d)) = dinvR (tgtOf a3 hr) b d := by
  rw [val_main_v83_apply, Ideal.hostPowf_def, deg2 a0 a1 a2 a3 a4 a5 a6 a7 a8 a9 a10 a11 hr, val_main_v82_apply, val_main_cst_16_apply, Ideal.ofBits_def, ofBits_negHalf]
  rfl

/-- The edge coefficients: the power gathered at the source times the power gathered at the target. -/
theorem coef2 (e : Fin 32000) :
    val_main_v98 (F := Ideal) a3 (ix1 e) = coefR (srcOf a3 hr) (tgtOf a3 hr) e := by
  rw [val_main_v98_apply, Ideal.mulf_def]
  unfold val_main_v90 val_main_v97
  rw [gather1_generic a3 hr _ _ 0 (idx2_v89 a0 a1 a2 a3 a4 a5 a6 a7 a8 a9 a10 a11 hr), gather1_generic a3 hr _ _ 1 (idx2_v96 a0 a1 a2 a3 a4 a5 a6 a7 a8 a9 a10 a11 hr),
    dinv2 a0 a1 a2 a3 a4 a5 a6 a7 a8 a9 a10 a11 hr, dinv2 a0 a1 a2 a3 a4 a5 a6 a7 a8 a9 a10 a11 hr]
  rfl

section
variable (Hprev : Fin 256 → Fin 1000 → Fin 128 → EReal)
  (hprev : ∀ (b : Fin 256) (d : Fin 1000) (k : Fin 128), val_main_v70 (F := Ideal) a0 a1 a2 a3 a4 a5 a6 a7 (ix2 (node b d) k) = Hprev b d k)
include hprev

/-- The linear map: the input row times the transposed weights. -/
theorem lin2 (b : Fin 256) (d : Fin 1000) (j : Fin 128) :
    val_main_v72 (F := Ideal) a0 a1 a2 a3 a4 a5 a6 a7 a8 (ix2 (node b d) j) = lin a8 (Hprev b d) j := by
  rw [val_main_v72_apply]
  unfold lin
  refine Finset.sum_congr rfl fun k _ => ?_
  rw [val_main_v71_apply]
  have e1 : lidx_main_v72 (ix2 (node b d) j) k = ix2 (node b d) k := by
    funext a; refine Fin.ext ?_; match a with | ⟨0, _⟩ => rfl | ⟨1, _⟩ => rfl
  have e2 : idx_main_v71 (ridx_main_v72 (ix2 (node b d) j) k) = ix2 j k := by
    funext a; refine Fin.ext ?_; match a with | ⟨0, _⟩ => rfl | ⟨1, _⟩ => rfl
  rw [e1, e2, hprev]

/-- A message: the source's row times the edge's coefficient. -/
theorem msgrow2 (e : Fin 32000) (j : Fin 128) :
    val_main_v109 (F := Ideal) a0 a1 a2 a3 a4 a5 a6 a7 a8 (ix2 e j)
      = lin a8 (Hprev 0 (srcOf a3 hr e)) j * coefR (srcOf a3 hr) (tgtOf a3 hr) e := by
  rw [val_main_v109_apply, Ideal.mulf_def, val_main_v108_apply, val_main_v107_apply]
  unfold val_main_v106
  rw [gather2_generic a3 hr _ _ 0 (idx2_v105 a0 a1 a2 a3 a4 a5 a6 a7 a8 a9 a10 a11 hr), lin2 a0 a1 a2 a3 a4 a5 a6 a7 a8 a9 a10 a11 hr Hprev hprev]
  have e1 : idx_main_v107 (idx_main_v108 (ix2 e j)) = ix1 e := by
    funext a; refine Fin.ext ?_; match a with | ⟨0, _⟩ => rfl
  rw [e1, coef2 a0 a1 a2 a3 a4 a5 a6 a7 a8 a9 a10 a11 hr]
  rfl

/-- The messages summed into their targets. -/
theorem agg2 (b : Fin 256) (d : Fin 1000) (j : Fin 128) :
    val_main_v116 (F := Ideal) a0 a1 a2 a3 a4 a5 a6 a7 a8 (ix2 (node b d) j)
      = 0 + ∑ e ∈ Finset.univ.filter (fun e => b = 0 ∧ tgtOf a3 hr e = d),
          lin a8 (Hprev 0 (srcOf a3 hr e)) j * coefR (srcOf a3 hr) (tgtOf a3 hr) e := by
  unfold val_main_v116
  exact msg_generic a3 hr _ _ _ _ j (fun i => by rw [val_main_v99_apply, val_main_cst_21_apply]; exact ofBits_zero)
    (idx2_v115 a0 a1 a2 a3 a4 a5 a6 a7 a8 a9 a10 a11 hr) (fun e => msgrow2 a0 a1 a2 a3 a4 a5 a6 a7 a8 a9 a10 a11 hr Hprev hprev e j) b d

/-- THE LAYER at node `(b, d)` and feature `j`. -/
theorem layer2 (b : Fin 256) (d : Fin 1000) (j : Fin 128) :
    val_main_v125 (F := Ideal) a0 a1 a2 a3 a4 a5 a6 a7 a8 a9 (ix2 (node b d) j)
      = refLayer (srcOf a3 hr) (tgtOf a3 hr) a8 a9 Hprev b d j := by
  rw [val_main_v125_apply, Ideal.maximumf_def, val_main_v124_apply, Ideal.addf_def, val_main_v121_apply, Ideal.addf_def,
    agg2 a0 a1 a2 a3 a4 a5 a6 a7 a8 a9 a10 a11 hr Hprev hprev, val_main_v120_apply, Ideal.mulf_def, lin2 a0 a1 a2 a3 a4 a5 a6 a7 a8 a9 a10 a11 hr Hprev hprev, val_main_v119_apply, val_main_v118_apply,
    val_main_v117_apply, Ideal.mulf_def]
  have e1 : idx_main_v118 (idx_main_v119 (ix2 (node b d) j)) = ix1 (node b d) := by
    funext a; refine Fin.ext ?_; match a with | ⟨0, _⟩ => rfl
  have e2 : idx_main_v122 (idx_main_v123 (ix2 (node b d) j)) = ix1 j := by
    funext a; refine Fin.ext ?_; match a with | ⟨0, _⟩ => rfl
  rw [e1, dinv2 a0 a1 a2 a3 a4 a5 a6 a7 a8 a9 a10 a11 hr, val_main_v123_apply, val_main_v122_apply, e2, val_main_call1_v0_apply, val_main_call1_cst_apply, Ideal.ofBits_def, ofBits_zero]
  rfl

end

end Cert.ReferenceIdeal.RefValue

end
-- ==== Proof.RefL3.lean ====
/-
  Layer 3 of the scatter / gather program read at node (b, d) and feature j: given the layer's input at every
  node as `Hprev`, the linear map, the degree and its power, the edge coefficients, the messages summed into their
  targets, the self-loop term, the bias and the relu are the specification's `refLayer`.
-/
import proofs.«131067_j1941325218075_2_alg».proof.Proof.RefRows

noncomputable section

namespace Cert.ReferenceIdeal.RefValue

open Cert.ReferenceIdeal Cert.ReferenceIdeal.Gen Cert.ReferenceIdeal.Read Idealize.ShloMosaic Idealize.ShloMosaic.ValueIdx Cert.Gnn

variable (a0 : (⟨S256x800, .f32⟩ : BufTy).Contents (Elt Ideal))
  (a1 : (⟨S256x200, .f32⟩ : BufTy).Contents (Elt Ideal))
  (a2 : (⟨S1000x300, .f32⟩ : BufTy).Contents (Elt Ideal))
  (a3 : S2x32000.Idx → BitVec 32)
  (a4 : (⟨S128x300, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x128, .f32⟩ : BufTy).Contents (Elt Ideal))
  (a11 : (⟨S128, .f32⟩ : BufTy).Contents (Elt Ideal))
  (hr : ∀ i, (a3 i).toNat < 1000)
include a0 a1 a2 a3 a4 a5 a6 a7 a8 a9 a10 a11 hr

/-- The start indices `%134`: row 1 of the edge array, unchanged by the wrap-around of negative indices. -/
theorem idx3_v134 (e : Fin 32000) :
    val_main_v134 (F := Ideal) a3 (ix2 e 0) = a3 (ix2 1 e) := by
  rw [val_main_v134_apply, val_main_v133_apply, val_main_v130_apply, val_main_v132_apply, val_main_v129_apply, val_main_v131_apply, val_main_c_27_apply, val_main_c_28_apply, row1]
  exact sel_id _ (hr _)

/-- The start indices `%144`: row 0 of the edge array, unchanged by the wrap-around of negative indices. -/
theorem idx3_v144 (e : Fin 32000) :
    val_main_v144 (F := Ideal) a3 (ix2 e 0) = a3 (ix2 0 e) := by
  rw [val_main_v144_apply, val_main_v143_apply, val_main_v140_apply, val_main_v142_apply, val_main_v139_apply, val_main_v141_apply, val_main_c_31_apply, val_main_c_32_apply, row0]
  exact sel_id _ (hr _)

/-- The start indices `%151`: row 1 of the edge array, unchanged by the wrap-around of negative indices. -/
theorem idx3_v151 (e : Fin 32000) :
    val_main_v151 (F := Ideal) a3 (ix2 e 0) = a3 (ix2 1 e) := by
  rw [val_main_v151_apply, val_main_v150_apply, val_main_v147_apply, val_main_v149_apply, val_main_v146_apply, val_main_v148_apply, val_main_c_33_apply, val_main_c_34_apply, row1]
  exact sel_id _ (hr _)

/-- The start indices `%160`: row 0 of the edge array, unchanged by the wrap-around of negative indices. -/
theorem idx3_v160 (e : Fin 32000) :
    val_main_v160 (F := Ideal) a3 (ix2 e 0) = a3 (ix2 0 e) := by
  rw [val_main_v160_apply, val_main_v159_apply, val_main_v156_apply, val_main_v158_apply, val_main_v155_apply, val_main_v157_apply, val_main_c_36_apply, val_main_c_37_apply, row0]
  exact sel_id _ (hr _)

/-- The start indices `%170`: row 1 of the edge array, unchanged by the wrap-around of negative indices. -/
theorem idx3_v170 (e : Fin 32000) :
    val_main_v170 (F := Ideal) a3 (ix2 e 0) = a3 (ix2 1 e) := by
  rw [val_main_v170_apply, val_main_v169_apply, val_main_v166_apply, val_main_v168_apply, val_main_v165_apply, val_main_v167_apply, val_main_c_38_apply, val_main_c_39_apply, row1]
  exact sel_id _ (hr _)

/-- The degree vector at node `(b, d)`. -/
theorem deg3 (b : Fin 256) (d : Fin 1000) :
    val_main_v136 (F := Ideal) a3 (ix1 (node b d)) = degR (tgtOf a3 hr) b d := by
  unfold val_main_v136
  exact deg_generic a3 hr _ _ _ (fun i => by rw [val_main_v128_apply, val_main_cst_26_apply]; exact ofBits_one)
    (idx3_v134 a0 a1 a2 a3 a4 a5 a6 a7 a8 a9 a10 a11 hr) (fun i => by rw [val_main_v135_apply, val_main_cst_29_apply]; exact ofBits_one) b d

/-- Its power `-1/2`. -/
theorem dinv3 (b : Fin 256) (d : Fin 1000) :
    val_main_v138 (F := Ideal) a3 (ix1 (node b d)) = dinvR (tgtOf a3 hr) b d := by
  rw [val_main_v138_apply, Ideal.hostPowf_def, deg3 a0 a1 a2 a3 a4 a5 a6 a7 a8 a9 a10 a11 hr, val_main_v137_apply, val_main_cst_30_apply, Ideal.ofBits_def, ofBits_negHalf]
  rfl

/-- The edge coefficients: the power gathered at the source times the power gathered at the target. -/
theorem coef3 (e : Fin 32000) :
    val_main_v153 (F := Ideal) a3 (ix1 e) = coefR (srcOf a3 hr) (tgtOf a3 hr) e := by
  rw [val_main_v153_apply, Ideal.mulf_def]
  unfold val_main_v145 val_main_v152
  rw [gather1_generic a3 hr _ _ 0 (idx3_v144 a0 a1 a2 a3 a4 a5 a6 a7 a8 a9 a10 a11 hr), gather1_generic a3 hr _ _ 1 (idx3_v151 a0 a1 a2 a3 a4 a5 a6 a7 a8 a9 a10 a11 hr),
    dinv3 a0 a1 a2 a3 a4 a5 a6 a7 a8 a9 a10 a11 hr, dinv3 a0 a1 a2 a3 a4 a5 a6 a7 a8 a9 a10 a11 hr]
  rfl

section
variable (Hprev : Fin 256 → Fin 1000 → Fin 128 → EReal)
  (hprev : ∀ (b : Fin 256) (d : Fin 1000) (k : Fin 128), val_main_v125 (F := Ideal) a0 a1 a2 a3 a4 a5 a6 a7 a8 a9 (ix2 (node b d) k) = Hprev b d k)
include hprev

/-- The linear map: the input row times the transposed weights. -/
theorem lin3 (b : Fin 256) (d : Fin 1000) (j : Fin 128) :
    val_main_v127 (F := Ideal) a0 a1 a2 a3 a4 a5 a6 a7 a8 a9 a10 (ix2 (node b d) j) = lin a10 (Hprev b d) j := by
  rw [val_main_v127_apply]
  unfold lin
  refine Finset.sum_congr rfl fun k _ => ?_
  rw [val_main_v126_apply]
  have e1 : lidx_main_v127 (ix2 (node b d) j) k = ix2 (node b d) k := by
    funext a; refine Fin.ext ?_; match a with | ⟨0, _⟩ => rfl | ⟨1, _⟩ => rfl
  have e2 : idx_main_v126 (ridx_main_v127 (ix2 (node b d) j) k) = ix2 j k := by
    funext a; refine Fin.ext ?_; match a with | ⟨0, _⟩ => rfl | ⟨1, _⟩ => rfl
  rw [e1, e2, hprev]

/-- A message: the source's row times the edge's coefficient. -/
theorem msgrow3 (e : Fin 32000) (j : Fin 128) :
    val_main_v164 (F := Ideal) a0 a1 a2 a3 a4 a5 a6 a7 a8 a9 a10 (ix2 e j)
      = lin a10 (Hprev 0 (srcOf a3 hr e)) j * coefR (srcOf a3 hr) (tgtOf a3 hr) e := by
  rw [val_main_v164_apply, Ideal.mulf_def, val_main_v163_apply, val_main_v162_apply]
  unfold val_main_v161
  rw [gather2_generic a3 hr _ _ 0 (idx3_v160 a0 a1 a2 a3 a4 a5 a6 a7 a8 a9 a10 a11 hr), lin3 a0 a1 a2 a3 a4 a5 a6 a7 a8 a9 a10 a11 hr Hprev hprev]
  have e1 : idx_main_v162 (idx_main_v163 (ix2 e j)) = ix1 e := by
    funext a; refine Fin.ext ?_; match a with | ⟨0, _⟩ => rfl
  rw [e1, coef3 a0 a1 a2 a3 a4 a5 a6 a7 a8 a9 a10 a11 hr]
  rfl

/-- The messages summed into their targets. -/
theorem agg3 (b : Fin 256) (d : Fin 1000) (j : Fin 128) :
    val_main_v171 (F := Ideal) a0 a1 a2 a3 a4 a5 a6 a7 a8 a9 a10 (ix2 (node b d) j)
      = 0 + ∑ e ∈ Finset.univ.filter (fun e => b = 0 ∧ tgtOf a3 hr e = d),
          lin a10 (Hprev 0 (srcOf a3 hr e)) j * coefR (srcOf a3 hr) (tgtOf a3 hr) e := by
  unfold val_main_v171
  exact msg_generic a3 hr _ _ _ _ j (fun i => by rw [val_main_v154_apply, val_main_cst_35_apply]; exact ofBits_zero)
    (idx3_v170 a0 a1 a2 a3 a4 a5 a6 a7 a8 a9 a10 a11 hr) (fun e => msgrow3 a0 a1 a2 a3 a4 a5 a6 a7 a8 a9 a10 a11 hr Hprev hprev e j) b d

/-- THE LAYER at node `(b, d)` and feature `j`. -/
theorem layer3 (b : Fin 256) (d : Fin 1000) (j : Fin 128) :
    val_main_v180 (F := Ideal) a0 a1 a2 a3 a4 a5 a6 a7 a8 a9 a10 a11 (ix2 (node b d) j)
      = refLayer (srcOf a3 hr) (tgtOf a3 hr) a10 a11 Hprev b d j := by
  rw [val_main_v180_apply, Ideal.maximumf_def, val_main_v179_apply, Ideal.addf_def, val_main_v176_apply, Ideal.addf_def,
    agg3 a0 a1 a2 a3 a4 a5 a6 a7 a8 a9 a10 a11 hr Hprev hprev, val_main_v175_apply, Ideal.mulf_def, lin3 a0 a1 a2 a3 a4 a5 a6 a7 a8 a9 a10 a11 hr Hprev hprev, val_main_v174_apply, val_main_v173_apply,
    val_main_v172_apply, Ideal.mulf_def]
  have e1 : idx_main_v173 (idx_main_v174 (ix2 (node b d) j)) = ix1 (node b d) := by
    funext a; refine Fin.ext ?_; match a with | ⟨0, _⟩ => rfl
  have e2 : idx_main_v177 (idx_main_v178 (ix2 (node b d) j)) = ix1 j := by
    funext a; refine Fin.ext ?_; match a with | ⟨0, _⟩ => rfl
  rw [e1, dinv3 a0 a1 a2 a3 a4 a5 a6 a7 a8 a9 a10 a11 hr, val_main_v178_apply, val_main_v177_apply, e2, val_main_call2_v0_apply, val_main_call2_cst_apply, Ideal.ofBits_def, ofBits_zero]
  rfl

end

end Cert.ReferenceIdeal.RefValue

end
-- ==== Proof.RefValue.lean ====
/-
  The scatter / gather program's result is the specification's `refOut`: the embedded nodes
  `x[b, d] * emb[d, k]`, three layers (each the specification's `refLayer` of the layer before), and the mean
  over `d` as a sum from zero divided by 1000; then the program's run with its result in that form.
-/
import proofs.«131067_j1941325218075_2_alg».proof.Proof.RefL1
import proofs.«131067_j1941325218075_2_alg».proof.Proof.RefL2
import proofs.«131067_j1941325218075_2_alg».proof.Proof.RefL3

noncomputable section

namespace Cert.ReferenceIdeal.RefValue

open Cert.ReferenceIdeal Cert.ReferenceIdeal.Gen Cert.ReferenceIdeal.Read Idealize.ShloMosaic Idealize.ShloMosaic.ValueIdx Cert.Gnn Idealize.ShloMosaic.TcCoe Idealize.SL.Sem Idealize.ShloMosaic.StableHlo

section
variable (a0 : (⟨S256x800, .f32⟩ : BufTy).Contents (Elt Ideal))
  (a1 : (⟨S256x200, .f32⟩ : BufTy).Contents (Elt Ideal))
  (a2 : (⟨S1000x300, .f32⟩ : BufTy).Contents (Elt Ideal))
  (a3 : S2x32000.Idx → BitVec 32)
  (a4 : (⟨S128x300, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x128, .f32⟩ : BufTy).Contents (Elt Ideal))
  (a11 : (⟨S128, .f32⟩ : BufTy).Contents (Elt Ideal))
  (hr : ∀ i, (a3 i).toNat < 1000)
include a0 a1 a2 a3 a4 a5 a6 a7 a8 a9 a10 a11 hr

/-- The embedded nodes: node `(b, d)`'s feature `k` is `x[b, d] * emb[d, k]`. -/
theorem embed (b : Fin 256) (d : Fin 1000) (k : Fin 128) :
    val_main_v11 (F := Ideal) a0 a1 a2 a4 a5 (ix2 (node b d) k)
      = h0 (val_main_v0 (F := Ideal) a0 a1) (val_main_v5 (F := Ideal) a2 a4 a5) b d k := by
  rw [val_main_v11_apply, val_main_v10_apply, Ideal.mulf_def, val_main_v8_apply, val_main_v6_apply, val_main_v9_apply,
    val_main_v7_apply]
  have hb := b.isLt
  have hd := d.isLt
  have hk := k.isLt
  have e1 : idx_main_v6 (idx_main_v8 (idx_main_v11 (ix2 (node b d) k))) = ix2 b d := by
    funext a; refine Fin.ext ?_
    match a with
    | ⟨0, _⟩ => show ((b.val * 1000 + d.val) * 128 + k.val) / 128000 = b.val; omega
    | ⟨1, _⟩ => show ((b.val * 1000 + d.val) * 128 + k.val) / 128 % 1000 = d.val; omega
  have e2 : idx_main_v7 (idx_main_v9 (idx_main_v11 (ix2 (node b d) k))) = ix2 d k := by
    funext a; refine Fin.ext ?_
    match a with
    | ⟨0, _⟩ => show ((b.val * 1000 + d.val) * 128 + k.val) / 128 % 1000 = d.val; omega
    | ⟨1, _⟩ => show ((b.val * 1000 + d.val) * 128 + k.val) % 128 = k.val; omega
  rw [e1, e2]
  rfl

/-- THE REFERENCE'S VALUE at `(b, j)`. -/
theorem ref_value (b : Fin 256) (j : Fin 128) :
    val_main_v184 (F := Ideal) a0 a1 a2 a3 a4 a5 a6 a7 a8 a9 a10 a11 (ix2 b j)
      = refOut (srcOf a3 hr) (tgtOf a3 hr) (Ideal.ofBits .f32 0x447A0000#32) (val_main_v0 (F := Ideal) a0 a1)
          (val_main_v5 (F := Ideal) a2 a4 a5) a6 a7 a8 a9 a10 a11 b j := by
  rw [val_main_v184_apply, Ideal.hostDivf_def, val_main_v182_apply, val_main_cst_40_apply, Ideal.ofBits_def, ofBits_zero,
    val_main_v183_apply, val_main_cst_41_apply, Ideal.ofBits_def]
  unfold refOut
  refine congrArg (fun t => Ideal.div ((0 : EReal) + t) (Ideal.ofBits .f32 0x447A0000#32))
    (Finset.sum_congr rfl fun d _ => ?_)
  rw [val_main_v181_apply]
  have hb := b.isLt
  have hd := d.isLt
  have hj := j.isLt
  have e1 : idx_main_v181 (idx_main_v182 (ix2 b j) d) = ix2 (node b d) j := by
    funext a; refine Fin.ext ?_
    match a with
    | ⟨0, _⟩ => show ((b.val * 1000 + d.val) * 128 + j.val) / 128 = b.val * 1000 + d.val; omega
    | ⟨1, _⟩ => show ((b.val * 1000 + d.val) * 128 + j.val) % 128 = j.val; omega
  rw [e1]
  exact layer3 a0 a1 a2 a3 a4 a5 a6 a7 a8 a9 a10 a11 hr _
    (layer2 a0 a1 a2 a3 a4 a5 a6 a7 a8 a9 a10 a11 hr _
      (layer1 a0 a1 a2 a3 a4 a5 a6 a7 a8 a9 a10 a11 hr _ (embed a0 a1 a2 a3 a4 a5 a6 a7 a8 a9 a10 a11 hr))) b d j

end

/-- The program's run, its result stated as the specification's `refOut` of the arguments' launch contents (every
    entry of the edge array below 1000), the arguments unchanged. -/
theorem run (m : (ℓ : Loc nD τ sig) → Buf (Elt Ideal) ℓ) (ρ : Dev nD → PrngReg)
    (hr : ∀ (c : Dev nD) (i : S2x32000.Idx),
      ((m ((c.tc : Thread nD τ).loc main_arg3) : S2x32000.Idx → BitVec 32) i).toNat < 1000) :
    θ_run defs (onTc (τ := τ) (main (F := Ideal))) ⟨m, fun _ => 0, ρ⟩ fun r => ∀ c : Dev nD,
      r.2.mem ((c.tc : Thread nD τ).loc main_v184)
        = (fun i : S256x128.Idx => refOut (srcOf (m ((c.tc : Thread nD τ).loc main_arg3)) (hr c))
            (tgtOf (m ((c.tc : Thread nD τ).loc main_arg3)) (hr c)) (Ideal.ofBits .f32 0x447A0000#32)
            (val_main_v0 (F := Ideal) (m ((c.tc : Thread nD τ).loc main_arg0)) (m ((c.tc : Thread nD τ).loc main_arg1)))
            (val_main_v5 (F := Ideal) (m ((c.tc : Thread nD τ).loc main_arg2)) (m ((c.tc : Thread nD τ).loc main_arg4)) (m ((c.tc : Thread nD τ).loc main_arg5)))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (by
      rw [val_main_v184_eq]
      funext i
      rw [eq_ix2 i]
      exact ref_value _ _ _ _ _ _ _ _ _ _ _ _ (hr c) (i 0) (i 1)), (h c).2⟩)
    (Cert.ReferenceIdeal.Value.run (F := Ideal) m ρ)

end Cert.ReferenceIdeal.RefValue

end
-- ==== Proof.lean ====
/-
  Two programs for a three-layer graph convolution with mean pooling over 256 x 1000 nodes whose edges all join
  nodes of batch row 0: one scatters and gathers over all 256000 nodes; the other multiplies batch row 0 by a dense
  normalised adjacency matrix and runs the remaining rows, which receive no message, through three dense layers in
  one tile kernel.  Under the precondition (real inputs, edge end points below 1000) both end with the same array
  (Proof/GnnMath.lean: the two closed forms of Proof/Spec.lean agree on real inputs).
-/
import proofs.«131067_j1941325218075_2_alg».proof.Defs
import proofs.«131067_j1941325218075_2_alg».proof.Proof.Gen.Kernel
import proofs.«131067_j1941325218075_2_alg».proof.Proof.Gen.Kernel.Skeleton
import proofs.«131067_j1941325218075_2_alg».proof.Proof.Gen.Kernel.Launch
import proofs.«131067_j1941325218075_2_alg».proof.Proof.Gen.Kernel.Points
import proofs.«131067_j1941325218075_2_alg».proof.Proof.Gen.Kernel.Frame
import proofs.«131067_j1941325218075_2_alg».proof.Proof.Gen.KernelIdeal
import proofs.«131067_j1941325218075_2_alg».proof.Proof.Gen.KernelIdeal.Skeleton
import proofs.«131067_j1941325218075_2_alg».proof.Proof.Gen.KernelIdeal.Launch
import proofs.«131067_j1941325218075_2_alg».proof.Proof.Gen.KernelIdeal.Points
import proofs.«131067_j1941325218075_2_alg».proof.Proof.Gen.KernelIdeal.Frame
import proofs.«131067_j1941325218075_2_alg».proof.Proof.Gen.ReferenceIdeal
import proofs.«131067_j1941325218075_2_alg».proof.Proof.Gen.Pre_finite_inputs
import proofs.«131067_j1941325218075_2_alg».proof.Proof.Gen.ReferenceIdeal.Run
import proofs.«131067_j1941325218075_2_alg».proof.Proof.Gen.ReferenceIdeal.Read
import proofs.«131067_j1941325218075_2_alg».proof.Proof.GnnMath
import proofs.«131067_j1941325218075_2_alg».proof.Proof.PreFactsDefs
import proofs.«131067_j1941325218075_2_alg».proof.Proof.TileValue
import proofs.«131067_j1941325218075_2_alg».proof.Proof.KHostIn
import proofs.«131067_j1941325218075_2_alg».proof.Proof.KHostOut
import proofs.«131067_j1941325218075_2_alg».proof.Proof.KAdjValue
import proofs.«131067_j1941325218075_2_alg».proof.Proof.KerRun
import proofs.«131067_j1941325218075_2_alg».proof.Proof.KerRunArgs
import proofs.«131067_j1941325218075_2_alg».proof.Proof.RefValue
import Idealize.ShloMosaic.Adequacy
import Idealize.ShloMosaic.Init

noncomputable section

namespace Cert.Proof

open Idealize.ShloMosaic Idealize.SL.Sem

section claims

variable [hK : Cert.Kernel.Facts] [hKI : Cert.KernelIdeal.Facts] [hRI : Cert.ReferenceIdeal.Facts]
  [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The edge end points read off two equal edge arrays are the same. -/
theorem srcOf_congr {e e' : (⟨2, ![2, 32000]⟩ : Shape).Idx → BitVec 32} (h : e = e') (hr : ∀ i, (e i).toNat < 1000)
    (hr' : ∀ i, (e' i).toNat < 1000) : Cert.Gnn.srcOf e hr = Cert.Gnn.srcOf e' hr' := by
  subst h; rfl

theorem tgtOf_congr {e e' : (⟨2, ![2, 32000]⟩ : Shape).Idx → BitVec 32} (h : e = e') (hr : ∀ i, (e i).toNat < 1000)
    (hr' : ∀ i, (e' i).toNat < 1000) : Cert.Gnn.tgtOf e hr = Cert.Gnn.tgtOf e' hr' := by
  subst h; rfl

theorem algebraic : Cert.algebraic_KernelIdeal_ReferenceIdeal := by
  intro m ρ m' ρ' hpre hagree
  have hr : ∀ (c : Dev Cert.KernelIdeal.nD) i,
      (m ((c.tc : Thread Cert.KernelIdeal.nD Cert.KernelIdeal.τ).loc Cert.KernelIdeal.main_arg3) i).toNat < 1000 :=
    fun c => (Cert.PreFacts.of_pre_kernelIdeal m hpre c).2.2.2.2.2.2.2.2.2.2.2
  have hr' : ∀ (c : Dev Cert.ReferenceIdeal.nD) i,
      (m' ((c.tc : Thread Cert.ReferenceIdeal.nD Cert.ReferenceIdeal.τ).loc Cert.ReferenceIdeal.main_arg3) i).toNat < 1000 := by
    intro c
    rw [(hagree c).2.2.2.1]
    exact hr c
  -- the dense program's run: the tile's output, the graph path's vector and the tile's input arrays
  have hker := Cert.KernelIdeal.KerRun.run m ρ hr (fun c p j => Cert.KernelIdeal.TileValue.tile_arr m c p j)
    (fun c j => by
      rw [← Cert.KernelIdeal.Gen.V_main_arg6 m c, ← Cert.KernelIdeal.Gen.V_main_arg7 m c,
        ← Cert.KernelIdeal.Gen.V_main_arg8 m c, ← Cert.KernelIdeal.Gen.V_main_arg9 m c,
        ← Cert.KernelIdeal.Gen.V_main_arg10 m c, ← Cert.KernelIdeal.Gen.V_main_arg11 m c]
      exact Cert.KernelIdeal.HostValue.V_main_v84_apply m c _ _ (Cert.KernelIdeal.AdjValue.adj_value m c (hr c)) j)
    (fun c p d => Cert.KernelIdeal.HostValue.V_main_v86_apply m c p d)
    (fun c d j => by rw [← Cert.KernelIdeal.Gen.V_main_arg6 m c]; exact Cert.KernelIdeal.HostValue.V_main_v7_apply m c d j)
    (fun c j => by rw [← Cert.KernelIdeal.Gen.V_main_arg7 m c]; exact Cert.KernelIdeal.HostValue.V_main_v87_apply m c j)
    (fun c k j => by rw [← Cert.KernelIdeal.Gen.V_main_arg8 m c]; exact Cert.KernelIdeal.HostValue.V_main_v90_apply m c k j)
    (fun c j => by rw [← Cert.KernelIdeal.Gen.V_main_arg9 m c]; exact Cert.KernelIdeal.HostValue.V_main_v88_apply m c j)
    (fun c k j => by rw [← Cert.KernelIdeal.Gen.V_main_arg10 m c]; exact Cert.KernelIdeal.HostValue.V_main_v91_apply m c k j)
    (fun c j => by rw [← Cert.KernelIdeal.Gen.V_main_arg11 m c]; exact Cert.KernelIdeal.HostValue.V_main_v89_apply m c j)
  refine ⟨_, hker, ?_⟩
  refine (θ_run Cert.ReferenceIdeal.defs _ _).mono (fun r h c => ⟨(h c).1.trans ?_, (h c).2⟩)
    (Cert.ReferenceIdeal.RefValue.run m' ρ' hr')
  obtain ⟨h0, h1, h2, h4, h5, h6, h7, h8, h9, h10, _, _⟩ := Cert.PreFacts.of_pre_kernelIdeal m hpre c
  obtain ⟨e0, e1, e2, e3, e4, e5, e6, e7, e8, e9, e10, e11⟩ := hagree c
  have hx : Cert.ReferenceIdeal.Read.val_main_v0 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.KernelIdeal.Gen.V m c Cert.KernelIdeal.main_v0 := by
    rw [e0, e1, Cert.KernelIdeal.KerRun.x_term m c]; rfl
  have hemb : Cert.ReferenceIdeal.Read.val_main_v5 (F := Ideal)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
      = Cert.KernelIdeal.Gen.V m c Cert.KernelIdeal.main_v5 := by
    rw [e2, e4, e5, Cert.KernelIdeal.KerRun.emb_term m c]; rfl
  funext i
  rw [hx, hemb, srcOf_congr e3 (hr' c) (hr c), tgtOf_congr e3 (hr' c) (hr c), e6, e7, e8, e9, e10, e11]
  exact Cert.Gnn.refOut_eq_kerOut _ _ _ _ _ _ _ _ _ _ _
    (fun i => by rw [ValueIdx.eq_ix2 i]; exact Cert.KernelIdeal.KerRun.x_real m c h0 h1 _ _)
    (fun i => by rw [ValueIdx.eq_ix2 i]; exact Cert.KernelIdeal.KerRun.emb_real m c h2 h4 h5 _ _)
    h6 h7 h8 h9 h10 _ _

end claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
